-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v79)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v79) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S2x800000 : Shape := ⟨2, ![2, 800000]⟩
abbrev S512x128 : Shape := ⟨2, ![512, 128]⟩
abbrev S128 : Shape := ⟨1, ![128]⟩
abbrev S128x128 : Shape := ⟨2, ![128, 128]⟩
abbrev S128x40 : Shape := ⟨2, ![128, 40]⟩
abbrev S40 : Shape := ⟨1, ![40]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S128 .f32) (main_arg6 : FVec F S128x40 .f32) (main_arg7 : FVec F S40 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x40 .f32 := Host.absf main_arg6
  let main_cst_8 : FVec F S_ .f32 := constant S_ .f32 0x7F800000#32
  let main_v25 : FVec F S128x40 .f32 := broadcastInDim S128x40 ![] bcast_S_S128x40 main_cst_8
  let main_v26 : IVec S128x40 1 := cmpf .olt main_v24 main_v25
  let main_c_9 : IVec S_ 1 := constantI S_ 1 1#1
  let main_v27 : IVec S_ 1 := (fun x v => Host.reduce IntOp.andi x v reducesTo_S128x40_S_d0_1 h_S_) main_v26 main_c_9
  let main_v28 : IVec S_ 1 := andi main_v23 main_v27
  let main_v29 : FVec F S40 .f32 := Host.absf main_arg7
  let main_cst_10 : FVec F S_ .f32 := constant S_ .f32 0x7F800000#32
  let main_v30 : FVec F S40 .f32 := broadcastInDim S40 ![] bcast_S_S40 main_cst_10
  let main_v31 : IVec S40 1 := cmpf .olt main_v29 main_v30
  let main_c_11 : IVec S_ 1 := constantI S_ 1 1#1
  let main_v32 : IVec S_ 1 := (fun x v => Host.reduce IntOp.andi x v reducesTo_S40_S_d0 h_S_) main_v31 main_c_11
  let main_v33 : IVec S_ 1 := andi main_v28 main_v32
  main_v33

def fn {F : FTy → Type} [FloatOps F] (main_arg0 : FVec F S50000x512 .f32) (main_arg1 : IVec S2x800000 32) (main_arg2 : FVec F S512x128 .f32) (main_arg3 : FVec F S128 .f32) (main_arg4 : FVec F S128x128 .f32) (main_arg5 : FVec F S128 .f32) (main_arg6 : FVec F S128x40 .f32) (main_arg7 : FVec F S40 .f32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S512x128 .f32 := Host.absf main_arg2
  let main_cst_0 : FVec F S_ .f32 := constant S_ .f32 0x7F800000#32
  let main_v5 : FVec F S512x128 .f32 := broadcastInDim S512x128 ![] bcast_S_S512x128 main_cst_0
  let main_v6 : IVec S512x128 1 := cmpf .olt main_v4 main_v5
  let main_c_1 : IVec S_ 1 := constantI S_ 1 1#1
  let main_v7 : IVec S_ 1 := (fun x v => Host.reduce IntOp.andi x v reducesTo_S512x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S50000x512 : Shape := ⟨2, ![50000, 512]⟩
abbrev S2x800000 : Shape := ⟨2, ![2, 800000]⟩
abbrev S512x128 : Shape := ⟨2, ![512, 128]⟩
abbrev S128 : Shape := ⟨1, ![128]⟩
abbrev S128x128 : Shape := ⟨2, ![128, 128]⟩
abbrev S128x40 : Shape := ⟨2, ![128, 40]⟩
abbrev S40 : Shape := ⟨1, ![40]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x128 : Shape := ⟨2, ![50000, 128]⟩
abbrev S2000x512 : Shape := ⟨2, ![2000, 512]⟩
abbrev S2000x128 : Shape := ⟨2, ![2000, 128]⟩
abbrev S850000x128 : Shape := ⟨2, ![850000, 128]⟩
abbrev S1x128 : Shape := ⟨2, ![1, 128]⟩
abbrev S50000x40 : Shape := ⟨2, ![50000, 40]⟩
abbrev S2000x40 : Shape := ⟨2, ![2000, 40]⟩
abbrev S850000x40 : Shape := ⟨2, ![850000, 40]⟩
abbrev S1x40 : Shape := ⟨2, ![1, 40]⟩
abbrev S2000 : Shape := ⟨1, ![2000]⟩
abbrev S2000x1 : Shape := ⟨2, ![2000, 1]⟩

abbrev nBuf : Space → Nat
  | .hbm => 108
  | .vmem => 30
  | .smem => 0
  | _ => 0

abbrev bufTy : (tb : Table) → Fin (tcTables nBuf tb) → BufTy
  | .hbm, ⟨0, _⟩ => ⟨S50000x512, .f32⟩
  | .hbm, ⟨1, _⟩ => ⟨S2x800000, .i32⟩
  | .hbm, ⟨2, _⟩ => ⟨S512x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x40, .f32⟩
  | .hbm, ⟨7, _⟩ => ⟨S40, .f32⟩
  | .hbm, ⟨8, _⟩ => ⟨S50000, .i32⟩
  | .hbm, ⟨9, _⟩ => ⟨S1x800000, .i32⟩
  | .hbm, ⟨10, _⟩ => ⟨S800000, .i32⟩
  | .hbm, ⟨11, _⟩ => ⟨S850000, .i32⟩
  | .hbm, ⟨12, _⟩ => ⟨S1x800000, .i32⟩
  | .hbm, ⟨13, _⟩ => ⟨S800000, .i32⟩
  | .hbm, ⟨14, _⟩ => ⟨S850000, .i32⟩
  | .hbm, ⟨15, _⟩ => ⟨S_, .f32⟩
  | .hbm, ⟨16, _⟩ => ⟨S850000, .f32⟩
  | .hbm, ⟨17, _⟩ => ⟨S_, .f32⟩
  | .hbm, ⟨18, _⟩ => ⟨S50000, .f32⟩
  | .hbm, ⟨19, _⟩ => ⟨S850000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .i1⟩
  | .hbm, ⟨24, _⟩ => ⟨S50000, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S_, .f32⟩
  | .hbm, ⟨29, _⟩ => ⟨S_, .f32⟩
  | .hbm, ⟨30, _⟩ => ⟨S50000, .f32⟩
  | .hbm, ⟨31, _⟩ => ⟨S50000, .f32⟩
  | .hbm, ⟨32, _⟩ => ⟨S_, .i32⟩
  | .hbm, ⟨33, _⟩ => ⟨S850000, .i32⟩
  | .hbm, ⟨34, _⟩ => ⟨S850000, .i1⟩
  | .hbm, ⟨35, _⟩ => ⟨S_, .i32⟩
  | .hbm, ⟨36, _⟩ => ⟨S850000, .i32⟩
  | .hbm, ⟨37, _⟩ => ⟨S850000, .i32⟩
  | .hbm, ⟨38, _⟩ => ⟨S850000, .i32⟩
  | .hbm, ⟨39, _⟩ => ⟨S850000x1, .i32⟩
  | .hbm, ⟨40, _⟩ => ⟨S850000, .f32⟩
  | .hbm, ⟨41, _⟩ => ⟨S_, .i32⟩
  | .hbm, ⟨42, _⟩ => ⟨S850000, .i32⟩
  | .hbm, ⟨43, _⟩ => ⟨S850000, .i1⟩
  | .hbm, ⟨44, _⟩ => ⟨S_, .i32⟩
  | .hbm, ⟨45, _⟩ => ⟨S850000, .i32⟩
  | .hbm, ⟨46, _⟩ => ⟨S850000, .i32⟩
  | .hbm, ⟨47, _⟩ => ⟨S850000, .i32⟩
  | .hbm, ⟨48, _⟩ => ⟨S850000x1, .i32⟩
  | .hbm, ⟨49, _⟩ => ⟨S850000, .f32⟩
  | .hbm, ⟨50, _⟩ => ⟨S850000, .f32⟩
  | .hbm, ⟨51, _⟩ => ⟨S50000x128, .f32⟩
  | .hbm, ⟨52, _⟩ => ⟨S_, .i32⟩
  | .hbm, ⟨53, _⟩ => ⟨S850000, .i32⟩
  | .hbm, ⟨54, _⟩ => ⟨S850000, .i1⟩
  | .hbm, ⟨55, _⟩ => ⟨S_, .i32⟩
  | .hbm, ⟨56, _⟩ => ⟨S850000, .i32⟩
  | .hbm, ⟨57, _⟩ => ⟨S850000, .i32⟩
  | .hbm, ⟨58, _⟩ => ⟨S850000, .i32⟩
  | .hbm, ⟨59, _⟩ => ⟨S850000x1, .i32⟩
  | .hbm, ⟨60, _⟩ => ⟨S850000x128, .f32⟩
  | .hbm, ⟨61, _⟩ => ⟨S850000x1, .f32⟩
  | .hbm, ⟨62, _⟩ => ⟨S850000x128, .f32⟩
  | .hbm, ⟨63, _⟩ => ⟨S850000x128, .f32⟩
  | .hbm, ⟨64, _⟩ => ⟨S_, .f32⟩
  | .hbm, ⟨65, _⟩ => ⟨S50000x128, .f32⟩
  | .hbm, ⟨66, _⟩ => ⟨S850000x1, .i32⟩
  | .hbm, ⟨67, _⟩ => ⟨S50000x128, .f32⟩
  | .hbm, ⟨68, _⟩ => ⟨S1x128, .f32⟩
  | .hbm, ⟨69, _⟩ => ⟨S50000x128, .f32⟩
  | .hbm, ⟨70, _⟩ => ⟨S50000x128, .f32⟩
  | .hbm, ⟨71, _⟩ => ⟨S_, .i32⟩
  | .hbm, ⟨72, _⟩ => ⟨S850000, .i32⟩
  | .hbm, ⟨73, _⟩ => ⟨S850000, .i1⟩
  | .hbm, ⟨74, _⟩ => ⟨S_, .i32⟩
  | .hbm, ⟨75, _⟩ => ⟨S850000, .i32⟩
  | .hbm, ⟨76, _⟩ => ⟨S850000, .i32⟩
  | .hbm, ⟨77, _⟩ => ⟨S850000, .i32⟩
  | .hbm, ⟨78, _⟩ => ⟨S850000x1, .i32⟩
  | .hbm, ⟨79, _⟩ => ⟨S850000x128, .f32⟩
  | .hbm, ⟨80, _⟩ => ⟨S850000x1, .f32⟩
  | .hbm, ⟨81, _⟩ => ⟨S850000x128, .f32⟩
  | .hbm, ⟨82, _⟩ => ⟨S850000x128, .f32⟩
  | .hbm, ⟨83, _⟩ => ⟨S_, .f32⟩
  | .hbm, ⟨84, _⟩ => ⟨S50000x128, .f32⟩
  | .hbm, ⟨85, _⟩ => ⟨S850000x1, .i32⟩
  | .hbm, ⟨86, _⟩ => ⟨S50000x128, .f32⟩
  | .hbm, ⟨87, _⟩ => ⟨S1x128, .f32⟩
  | .hbm, ⟨88, _⟩ => ⟨S50000x128, .f32⟩
  | .hbm, ⟨89, _⟩ => ⟨S50000x40, .f32⟩
  | .hbm, ⟨90, _⟩ => ⟨S_, .i32⟩
  | .hbm, ⟨91, _⟩ => ⟨S850000, .i32⟩
  | .hbm, ⟨92, _⟩ => ⟨S850000, .i1⟩
  | .hbm, ⟨93, _⟩ => ⟨S_, .i32⟩
  | .hbm, ⟨94, _⟩ => ⟨S850000, .i32⟩
  | .hbm, ⟨95, _⟩ => ⟨S850000, .i32⟩
  | .hbm, ⟨96, _⟩ => ⟨S850000, .i32⟩
  | .hbm, ⟨97, _⟩ => ⟨S850000x1, .i32⟩
  | .hbm, ⟨98, _⟩ => ⟨S850000x40, .f32⟩
  | .hbm, ⟨99, _⟩ => ⟨S850000x1, .f32⟩
  | .hbm, ⟨100, _⟩ => ⟨S850000x40, .f32⟩
  | .hbm, ⟨101, _⟩ => ⟨S850000x40, .f32⟩
  | .hbm, ⟨102, _⟩ => ⟨S_, .f32⟩
  | .hbm, ⟨103, _⟩ => ⟨S50000x40, .f32⟩
  | .hbm, ⟨104, _⟩ => ⟨S850000x1, .i32⟩
  | .hbm, ⟨105, _⟩ => ⟨S50000x40, .f32⟩
  | .hbm, ⟨106, _⟩ => ⟨S1x40, .f32⟩
  | .hbm, ⟨107, _⟩ => ⟨S50000x40, .f32⟩
  | .local _ .vmem, ⟨0, _⟩ => ⟨S2000x512, .f32⟩
  | .local _ .vmem, ⟨1, _⟩ => ⟨S2000x512, .f32⟩
  | .local _ .vmem, ⟨2, _⟩ => ⟨S512x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S1x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S128x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S2000x128, .f32⟩
  | .local _ .vmem, ⟨17, _⟩ => ⟨S1x128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S128x40, .f32⟩
  | .local _ .vmem, ⟨23, _⟩ => ⟨S2000x40, .f32⟩
  | .local _ .vmem, ⟨24, _⟩ => ⟨S2000x40, .f32⟩
  | .local _ .vmem, ⟨25, _⟩ => ⟨S2000x40, .f32⟩
  | .local _ .vmem, ⟨26, _⟩ => ⟨S2000x40, .f32⟩
  | .local _ .vmem, ⟨27, _⟩ => ⟨S1x40, .f32⟩
  | .local _ .vmem, ⟨28, _⟩ => ⟨S2000x40, .f32⟩
  | .local _ .vmem, ⟨29, _⟩ => ⟨S2000x40, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v16 : Ref sig .tc := ⟨.hbm, 31, rfl⟩
abbrev main_c : Ref sig .tc := ⟨.hbm, 32, rfl⟩
abbrev main_v17 : Ref sig .tc := ⟨.hbm, 33, rfl⟩
abbrev main_v18 : Ref sig .tc := ⟨.hbm, 34, rfl⟩
abbrev main_c_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_c_6 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_c_8 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_9 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_c_10 : Ref sig .tc := ⟨.hbm, 71, rfl⟩
abbrev main_v49 : Ref sig .tc := ⟨.hbm, 72, rfl⟩
abbrev main_v50 : Ref sig .tc := ⟨.hbm, 73, rfl⟩
abbrev main_c_11 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_12 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_c_13 : Ref sig .tc := ⟨.hbm, 90, rfl⟩
abbrev main_v65 : Ref sig .tc := ⟨.hbm, 91, rfl⟩
abbrev main_v66 : Ref sig .tc := ⟨.hbm, 92, rfl⟩
abbrev main_c_14 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_cst_15 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x40 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S2000x40 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x40 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x40 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S2000x40 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S2000x512_S2000x512_0_0 : ∀ a, (![0, 0] : Fin 2 → Nat) a + S2000x512.size a ≤ S2000x512.size a
  h_S2000x512 : 0 < S2000x512.numel
  bitsLt_bf16_f32 : FTy.bits .bf16 < FTy.bits .f32
  inb_S512x128_S512x128_0_0 : ∀ a, (![0, 0] : Fin 2 → Nat) a + S512x128.size a ≤ S512x128.size a
  h_S512x128 : 0 < S512x128.numel
  inb_S2000x128_S2000x128_0_0 : ∀ a, (![0, 0] : Fin 2 → Nat) a + S2000x128.size a ≤ S2000x128.size a
  h_S2000x128 : 0 < S2000x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  shapeCasts_S128_S1x128 : S128.ShapeCasts S1x128
  shapeCasts_S2000x128_S2000x128 : S2000x128.ShapeCasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S128x128_S128x128_0_0 : ∀ a, (![0, 0] : Fin 2 → Nat) a + S128x128.size a ≤ S128x128.size a
  h_S128x128 : 0 < S128x128.numel
  inb_S128x40_S128x40_0_0 : ∀ a, (![0, 0] : Fin 2 → Nat) a + S128x40.size a ≤ S128x40.size a
  h_S128x40 : 0 < S128x40.numel
  inb_S2000x40_S2000x40_0_0 : ∀ a, (![0, 0] : Fin 2 → Nat) a + S2000x40.size a ≤ S2000x40.size a
  h_S2000x40 : 0 < S2000x40.numel
  bcast_S850000x1_S850000x40_0_1 : S850000x1.BroadcastsInDim S850000x40 (![0, 1] : Fin 2 → Fin S850000x40.rank)
  bcast_S_S50000x40 : S_.BroadcastsInDim S50000x40 (![] : Fin 0 → Fin S50000x40.rank)
  shapeCasts_S40_S1x40 : S40.ShapeCasts S1x40
  shapeCasts_S2000x40_S2000x40 : S2000x40.ShapeCasts S2000x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S2000x40 : S1x40.Broadcasts S2000x40
  reduces_S2000x40_S2000 : S2000x40.Reduces [1] S2000
  shapeCasts_S2000_S2000x1 : S2000.ShapeCasts S2000x1
  broadcasts_S2000x1_S2000x40 : S2000x1.Broadcasts S2000x40
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S2000x512_S512x128_S2000x128_1_0_0_1_n_n_wf : DotDims.WF S2000x512 S512x128 S2000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S2000x128_S128x128_S2000x128_1_0_0_1_n_n_wf : DotDims.WF S2000x128 S128x128 S2000x128 [1] [0] [0] [1] [] []
  dot_S2000x128_S128x40_S2000x40_1_0_0_1_n_n_wf : DotDims.WF S2000x128 S128x40 S2000x40 [1] [0] [0] [1] [] []
  gather_S50000x40_S850000x1_S850000x40_1_0_n_n_0_1_140_wf : GatherDims.WF S50000x40 S850000x1 S850000x40 [1] [0] [] [0] [] 1 ![1, 40]
  scatter_S50000x40_S850000x1_S850000x40_1_0_0_1_wf : ScatterDims.WF S50000x40 S850000x1 S850000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S50000x512.size a
  hwx0_0 : ∀ i : grid0.Coords, EltTy.bits .f32 = 32 ∨ (Rect.block (s := S50000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S512x128.size a
  hwx0_1 : ∀ i : grid0.Coords, EltTy.bits .f32 = 32 ∨ (Rect.block (s := S512x128) S512x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S50000x128.size a
  hwx1_2 : ∀ i : grid1.Coords, EltTy.bits .f32 = 32 ∨ (Rect.block (s := S50000x128) S2000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x128.size a ≤ S50000x128.size a
  hwx2_2 : ∀ i : grid2.Coords, EltTy.bits .f32 = 32 ∨ (Rect.block (s := S50000x128) S2000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .f32 = 32 ∨ (Rect.block (s := S50000x128) S2000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x128.size a ≤ S50000x128.size a
  hwx3_2 : ∀ i : grid3.Coords, EltTy.bits .f32 = 32 ∨ (Rect.block (s := S50000x128) S2000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S50000x128.size a
  hwx4_0 : ∀ i : grid4.Coords, EltTy.bits .f32 = 32 ∨ (Rect.block (s := S50000x128) S2000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x40.size a ≤ S128x40.size a
  hwx4_1 : ∀ i : grid4.Coords, EltTy.bits .f32 = 32 ∨ (Rect.block (s := S128x40) S128x40.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x40.size a ≤ S50000x40.size a
  hwx4_2 : ∀ i : grid4.Coords, EltTy.bits .f32 = 32 ∨ (Rect.block (s := S50000x40) S2000x40.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x40.size a ≤ S50000x40.size a
  hwx5_0 : ∀ i : grid5.Coords, EltTy.bits .f32 = 32 ∨ (Rect.block (s := S50000x40) S2000x40.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x40.size a ≤ S1x40.size a
  hwx5_1 : ∀ i : grid5.Coords, EltTy.bits .f32 = 32 ∨ (Rect.block (s := S1x40) S1x40.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S2000x40.size a ≤ S50000x40.size a
  hwx5_2 : ∀ i : grid5.Coords, EltTy.bits .f32 = 32 ∨ (Rect.block (s := S50000x40) S2000x40.size (cc5_transform_2 i) (hinb5_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S2000x512_S512x128_S2000x128_1_0_0_1_n_n : DotDims S2000x512 S512x128 S2000x128 where
  lhsContracting := [1]
  rhsContracting := [0]
  lhsNonContracting := [0]
  rhsNonContracting := [1]
  lhsBatch := []
  rhsBatch := []
  wf := dot_S2000x512_S512x128_S2000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x40_S2000x40_1_0_0_1_n_n : DotDims S2000x128 S128x40 S2000x40 where
  lhsContracting := [1]
  rhsContracting := [0]
  lhsNonContracting := [0]
  rhsNonContracting := [1]
  lhsBatch := []
  rhsBatch := []
  wf := dot_S2000x128_S128x40_S2000x40_1_0_0_1_n_n_wf
def gather_S50000x40_S850000x1_S850000x40_1_0_n_n_0_1_140 : GatherDims S50000x40 S850000x1 S850000x40 where
  offsetDims := [1]
  collapsedSliceDims := [0]
  operandBatchingDims := []
  startIndicesBatchingDims := []
  startIndexMap := [0]
  indexVectorDim := 1
  sliceSizes := ![1, 40]
  wf := gather_S50000x40_S850000x1_S850000x40_1_0_n_n_0_1_140_wf
def scatter_S50000x40_S850000x1_S850000x40_1_0_0_1 : ScatterDims S50000x40 S850000x1 S850000x40 where
  updateWindowDims := [1]
  insertedWindowDims := [0]
  scatterDimsToOperandDims := [0]
  indexVectorDim := 1
  wf := scatter_S50000x40_S850000x1_S850000x40_1_0_0_1_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S2000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v47) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v48) S2000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v61) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v62) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v63) S2000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v63) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S128x40.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v64) S2000x40.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v77) S2000x40.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v78) S1x40.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v79) S2000x40.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S50000x512 : Shape := ⟨2, ![50000, 512]⟩
abbrev S2x800000 : Shape := ⟨2, ![2, 800000]⟩
abbrev S512x128 : Shape := ⟨2, ![512, 128]⟩
abbrev S128 : Shape := ⟨1, ![128]⟩
abbrev S128x128 : Shape := ⟨2, ![128, 128]⟩
abbrev S128x40 : Shape := ⟨2, ![128, 40]⟩
abbrev S40 : Shape := ⟨1, ![40]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x128 : Shape := ⟨2, ![50000, 128]⟩
abbrev S850000x128 : Shape := ⟨2, ![850000, 128]⟩
abbrev S1x128 : Shape := ⟨2, ![1, 128]⟩
abbrev S50000x40 : Shape := ⟨2, ![50000, 40]⟩
abbrev S850000x40 : Shape := ⟨2, ![850000, 40]⟩
abbrev S1x40 : Shape := ⟨2, ![1, 40]⟩
abbrev S50000x1 : Shape := ⟨2, ![50000, 1]⟩

abbrev nBuf : Space → Nat
  | .hbm => 132
  | .vmem => 0
  | .smem => 0
  | _ => 0

abbrev hbmTy0_0 (i : Nat) : BufTy := match i % 128 with
  | 0 => ⟨S50000x512, .f32⟩
  | 1 => ⟨S2x800000, .i32⟩
  | 2 => ⟨S512x128, .f32⟩
  | 3 => ⟨S128, .f32⟩
  | 4 => ⟨S128x128, .f32⟩
  | 5 => ⟨S128, .f32⟩
  | 6 => ⟨S128x40, .f32⟩
  | 7 => ⟨S40, .f32⟩
  | 8 => ⟨S50000, .i32⟩
  | 9 => ⟨S1x800000, .i32⟩
  | 10 => ⟨S800000, .i32⟩
  | 11 => ⟨S850000, .i32⟩
  | 12 => ⟨S1x800000, .i32⟩
  | 13 => ⟨S800000, .i32⟩
  | 14 => ⟨S850000, .i32⟩
  | 15 => ⟨S_, .f32⟩
  | 16 => ⟨S850000, .f32⟩
  | 17 => ⟨S_, .f32⟩
  | 18 => ⟨S50000, .f32⟩
  | 19 => ⟨S850000x1, .i32⟩
  | 20 => ⟨S50000, .f32⟩
  | 21 => ⟨S_, .f32⟩
  | 22 => ⟨S50000, .f32⟩
  | 23 => ⟨S50000, .i1⟩
  | 24 => ⟨S50000, .f32⟩
  | 25 => ⟨S_, .f32⟩
  | 26 => ⟨S50000, .f32⟩
  | 27 => ⟨S50000, .f32⟩
  | 28 => ⟨S_, .f32⟩
  | 29 => ⟨S_, .f32⟩
  | 30 => ⟨S50000, .f32⟩
  | 31 => ⟨S50000, .f32⟩
  | 32 => ⟨S_, .i32⟩
  | 33 => ⟨S850000, .i32⟩
  | 34 => ⟨S850000, .i1⟩
  | 35 => ⟨S_, .i32⟩
  | 36 => ⟨S850000, .i32⟩
  | 37 => ⟨S850000, .i32⟩
  | 38 => ⟨S850000, .i32⟩
  | 39 => ⟨S850000x1, .i32⟩
  | 40 => ⟨S850000, .f32⟩
  | 41 => ⟨S_, .i32⟩
  | 42 => ⟨S850000, .i32⟩
  | 43 => ⟨S850000, .i1⟩
  | 44 => ⟨S_, .i32⟩
  | 45 => ⟨S850000, .i32⟩
  | 46 => ⟨S850000, .i32⟩
  | 47 => ⟨S850000, .i32⟩
  | 48 => ⟨S850000x1, .i32⟩
  | 49 => ⟨S850000, .f32⟩
  | 50 => ⟨S850000, .f32⟩
  | 51 => ⟨S50000x128, .f32⟩
  | 52 => ⟨S_, .i32⟩
  | 53 => ⟨S850000, .i32⟩
  | 54 => ⟨S850000, .i1⟩
  | 55 => ⟨S_, .i32⟩
  | 56 => ⟨S850000, .i32⟩
  | 57 => ⟨S850000, .i32⟩
  | 58 => ⟨S850000, .i32⟩
  | 59 => ⟨S850000x1, .i32⟩
  | 60 => ⟨S850000x128, .f32⟩
  | 61 => ⟨S850000x1, .f32⟩
  | 62 => ⟨S850000x128, .f32⟩
  | 63 => ⟨S850000x128, .f32⟩
  | 64 => ⟨S_, .f32⟩
  | 65 => ⟨S50000x128, .f32⟩
  | 66 => ⟨S850000x1, .i32⟩
  | 67 => ⟨S50000x128, .f32⟩
  | 68 => ⟨S1x128, .f32⟩
  | 69 => ⟨S50000x128, .f32⟩
  | 70 => ⟨S50000x128, .f32⟩
  | 71 => ⟨S_, .f32⟩
  | 72 => ⟨S50000x128, .f32⟩
  | 73 => ⟨S50000x128, .f32⟩
  | 74 => ⟨S50000x128, .f32⟩
  | 75 => ⟨S_, .i32⟩
  | 76 => ⟨S850000, .i32⟩
  | 77 => ⟨S850000, .i1⟩
  | 78 => ⟨S_, .i32⟩
  | 79 => ⟨S850000, .i32⟩
  | 80 => ⟨S850000, .i32⟩
  | 81 => ⟨S850000, .i32⟩
  | 82 => ⟨S850000x1, .i32⟩
  | 83 => ⟨S850000x128, .f32⟩
  | 84 => ⟨S850000x1, .f32⟩
  | 85 => ⟨S850000x128, .f32⟩
  | 86 => ⟨S850000x128, .f32⟩
  | 87 => ⟨S_, .f32⟩
  | 88 => ⟨S50000x128, .f32⟩
  | 89 => ⟨S850000x1, .i32⟩
  | 90 => ⟨S50000x128, .f32⟩
  | 91 => ⟨S1x128, .f32⟩
  | 92 => ⟨S50000x128, .f32⟩
  | 93 => ⟨S50000x128, .f32⟩
  | 94 => ⟨S_, .f32⟩
  | 95 => ⟨S50000x128, .f32⟩
  | 96 => ⟨S50000x128, .f32⟩
  | 97 => ⟨S50000x40, .f32⟩
  | 98 => ⟨S_, .i32⟩
  | 99 => ⟨S850000, .i32⟩
  | 100 => ⟨S850000, .i1⟩
  | 101 => ⟨S_, .i32⟩
  | 102 => ⟨S850000, .i32⟩
  | 103 => ⟨S850000, .i32⟩
  | 104 => ⟨S850000, .i32⟩
  | 105 => ⟨S850000x1, .i32⟩
  | 106 => ⟨S850000x40, .f32⟩
  | 107 => ⟨S850000x1, .f32⟩
  | 108 => ⟨S850000x40, .f32⟩
  | 109 => ⟨S850000x40, .f32⟩
  | 110 => ⟨S_, .f32⟩
  | 111 => ⟨S50000x40, .f32⟩
  | 112 => ⟨S850000x1, .i32⟩
  | 113 => ⟨S50000x40, .f32⟩
  | 114 => ⟨S1x40, .f32⟩
  | 115 => ⟨S50000x40, .f32⟩
  | 116 => ⟨S50000x40, .f32⟩
  | 117 => ⟨S_, .f32⟩
  | 118 => ⟨S50000, .f32⟩
  | 119 => ⟨S_, .f32⟩
  | 120 => ⟨S50000, .f32⟩
  | 121 => ⟨S50000, .f32⟩
  | 122 => ⟨S50000x1, .f32⟩
  | 123 => ⟨S50000x40, .f32⟩
  | 124 => ⟨S50000x40, .f32⟩
  | 125 => ⟨S50000x40, .f32⟩
  | 126 => ⟨S_, .f32⟩
  | 127 => ⟨S50000, .f32⟩
  | _ => ⟨S50000x512, .f32⟩

abbrev hbmTy0_1 (i : Nat) : BufTy := match i % 128 with
  | 0 => ⟨S50000x1, .f32⟩
  | 1 => ⟨S50000x1, .f32⟩
  | 2 => ⟨S50000x40, .f32⟩
  | 3 => ⟨S50000x40, .f32⟩
  | _ => ⟨S50000x512, .f32⟩

abbrev hbmTy (i : Nat) : BufTy := match i / 128 with
  | 0 => hbmTy0_0 i
  | 1 => hbmTy0_1 i
  | _ => ⟨S50000x512, .f32⟩

abbrev bufTy : (tb : Table) → Fin (tcTables nBuf tb) → BufTy
  | .hbm, ⟨i, _⟩ => hbmTy i
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v16 : Ref sig .tc := ⟨.hbm, 31, rfl⟩
abbrev main_c : Ref sig .tc := ⟨.hbm, 32, rfl⟩
abbrev main_v17 : Ref sig .tc := ⟨.hbm, 33, rfl⟩
abbrev main_v18 : Ref sig .tc := ⟨.hbm, 34, rfl⟩
abbrev main_c_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_c_6 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_c_8 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_9 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_call1_cst : Ref sig .tc := ⟨.hbm, 71, rfl⟩
abbrev main_call1_v0 : Ref sig .tc := ⟨.hbm, 72, rfl⟩
abbrev main_v49 : Ref sig .tc := ⟨.hbm, 73, rfl⟩
abbrev main_v50 : Ref sig .tc := ⟨.hbm, 74, rfl⟩
abbrev main_c_10 : Ref sig .tc := ⟨.hbm, 75, rfl⟩
abbrev main_v51 : Ref sig .tc := ⟨.hbm, 76, rfl⟩
abbrev main_v52 : Ref sig .tc := ⟨.hbm, 77, rfl⟩
abbrev main_c_11 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_cst_12 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_call2_cst : Ref sig .tc := ⟨.hbm, 94, rfl⟩
abbrev main_call2_v0 : Ref sig .tc := ⟨.hbm, 95, rfl⟩
abbrev main_v67 : Ref sig .tc := ⟨.hbm, 96, rfl⟩
abbrev main_v68 : Ref sig .tc := ⟨.hbm, 97, rfl⟩
abbrev main_c_13 : Ref sig .tc := ⟨.hbm, 98, rfl⟩
abbrev main_v69 : Ref sig .tc := ⟨.hbm, 99, rfl⟩
abbrev main_v70 : Ref sig .tc := ⟨.hbm, 100, rfl⟩
abbrev main_c_14 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_cst_15 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_call3_cst : Ref sig .tc := ⟨.hbm, 117, rfl⟩
abbrev main_call3_v0 : Ref sig .tc := ⟨.hbm, 118, rfl⟩
abbrev main_call3_cst_0 : Ref sig .tc := ⟨.hbm, 119, rfl⟩
abbrev main_call3_v1 : Ref sig .tc := ⟨.hbm, 120, rfl⟩
abbrev main_call3_v2 : Ref sig .tc := ⟨.hbm, 121, rfl⟩
abbrev main_call3_v3 : Ref sig .tc := ⟨.hbm, 122, rfl⟩
abbrev main_call3_v4 : Ref sig .tc := ⟨.hbm, 123, rfl⟩
abbrev main_call3_v5 : Ref sig .tc := ⟨.hbm, 124, rfl⟩
abbrev main_call3_v6 : Ref sig .tc := ⟨.hbm, 125, rfl⟩
abbrev main_call3_cst_1 : Ref sig .tc := ⟨.hbm, 126, rfl⟩
abbrev main_call3_v7 : Ref sig .tc := ⟨.hbm, 127, rfl⟩
abbrev main_call3_v8 : Ref sig .tc := ⟨.hbm, 128, rfl⟩
abbrev main_call3_v9 : Ref sig .tc := ⟨.hbm, 129, rfl⟩
abbrev main_call3_v10 : Ref sig .tc := ⟨.hbm, 130, rfl⟩
abbrev main_v85 : Ref sig .tc := ⟨.hbm, 131, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S850000x1_S850000x40_0_1 : S850000x1.BroadcastsInDim S850000x40 (![0, 1] : Fin 2 → Fin S850000x40.rank)
  bcast_S_S50000x40 : S_.BroadcastsInDim S50000x40 (![] : Fin 0 → Fin S50000x40.rank)
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  reducesTo_S50000x40_S50000_d1 : S50000x40.ReducesTo [1] S50000
  h_S_ : 0 < S_.numel
  bcast_S50000_S50000x1_0 : S50000.BroadcastsInDim S50000x1 (![0] : Fin 1 → Fin S50000x1.rank)
  bcast_S50000x1_S50000x40_0_1 : S50000x1.BroadcastsInDim S50000x40 (![0, 1] : Fin 2 → Fin S50000x40.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x512_S512x128_S50000x128_1_0_0_1_n_n_wf : DotDims.WF S50000x512 S512x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x128_S50000x128_1_0_0_1_n_n_wf : DotDims.WF S50000x128 S128x128 S50000x128 [1] [0] [0] [1] [] []
  dot_S50000x128_S128x40_S50000x40_1_0_0_1_n_n_wf : DotDims.WF S50000x128 S128x40 S50000x40 [1] [0] [0] [1] [] []
  gather_S50000x40_S850000x1_S850000x40_1_0_n_n_0_1_140_wf : GatherDims.WF S50000x40 S850000x1 S850000x40 [1] [0] [] [0] [] 1 ![1, 40]
  scatter_S50000x40_S850000x1_S850000x40_1_0_0_1_wf : ScatterDims.WF S50000x40 S850000x1 S850000x40 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x512_S512x128_S50000x128_1_0_0_1_n_n : DotDims S50000x512 S512x128 S50000x128 where
  lhsContracting := [1]
  rhsContracting := [0]
  lhsNonContracting := [0]
  rhsNonContracting := [1]
  lhsBatch := []
  rhsBatch := []
  wf := dot_S50000x512_S512x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x40_S50000x40_1_0_0_1_n_n : DotDims S50000x128 S128x40 S50000x40 where
  lhsContracting := [1]
  rhsContracting := [0]
  lhsNonContracting := [0]
  rhsNonContracting := [1]
  lhsBatch := []
  rhsBatch := []
  wf := dot_S50000x128_S128x40_S50000x40_1_0_0_1_n_n_wf
def gather_S50000x40_S850000x1_S850000x40_1_0_n_n_0_1_140 : GatherDims S50000x40 S850000x1 S850000x40 where
  offsetDims := [1]
  collapsedSliceDims := [0]
  operandBatchingDims := []
  startIndicesBatchingDims := []
  startIndexMap := [0]
  indexVectorDim := 1
  sliceSizes := ![1, 40]
  wf := gather_S50000x40_S850000x1_S850000x40_1_0_n_n_0_1_140_wf
def scatter_S50000x40_S850000x1_S850000x40_1_0_0_1 : ScatterDims S50000x40 S850000x1 S850000x40 where
  updateWindowDims := [1]
  insertedWindowDims := [0]
  scatterDimsToOperandDims := [0]
  indexVectorDim := 1
  wf := scatter_S50000x40_S850000x1_S850000x40_1_0_0_1_wf

class Facts : Prop extends Facts₀ where

variable [Facts]
-- ==== Proof.KRun.lean ====
/-
  The kernel's program run from any memory: every weakly fair execution ends, nothing faults, the argument arrays are
  unchanged, and the result array holds what the last region's write-backs leave, named as the last boundary's
  contents at the result buffer. The run is the chain of the program's segments; only the reading of the final
  state is extended by the result buffer.
-/
import proofs.«165259_j3453153706770_1_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run with the result buffer read: it ends at the last boundary's contents there, the arguments as launched. -/
theorem run_value : θ_run defs (onTc (τ := τ) (main (F := F))) ⟨m, fun _ => 0, ρ⟩ (fun r => ∀ c : Dev nD,
      r.2.mem ((c.tc : Thread nD τ).loc main_v79) = W12 m ρ c (Proc.devRef .tc main_v79)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v79 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c)⟩)

end Cert.KernelIdeal.Hand

end
-- ==== Proof.HostSpec.lean ====
/-
  The graph part of the network, shared by both programs, as functions of whole arrays. From the edge list: the row
  and column index lists with one self-loop per node appended; a node's degree (how often it occurs as a row); whether the
  degree is positive and its inverse square root; that value where positive and zero elsewhere; an edge's weight (the
  value at its row times the value at its column). From features: the rows gathered at each edge's column, scaled
  by the edge's weight, and summed into the edge's row. An index is wrapped first: a negative one has the node count
  added. None of this is opened anywhere: both programs apply the same operations to the same arrays.
-/
import proofs.«165259_j3453153706770_1_alg».proof.Proof.Gen.KernelIdeal

noncomputable section

namespace Cert.Hand

open Cert.KernelIdeal Cert.KernelIdeal.Facts₀ Cert.KernelIdeal.Facts Idealize.ShloMosaic

variable {F : FTy → Type} [FloatOps F]

/-- The edge list's row `k` (0: rows, 1: columns) with the node numbers 0 … 49999 appended. -/
def rowIx (ei : (⟨S2x800000, .i32⟩ : BufTy).Contents (Elt F)) : (⟨S850000, .i32⟩ : BufTy).Contents (Elt F) :=
  concatenate S850000 0
    [⟨S800000, shapeCast S800000 (extractStridedSlice S1x800000 ![0, 0] ei slices_S2x800000_S1x800000_0_0) shapeCasts_S1x800000_S800000⟩,
     ⟨S50000, iotaInDim S50000 32 0⟩] concatenates_S800000_S50000_S850000_d0
def colIx (ei : (⟨S2x800000, .i32⟩ : BufTy).Contents (Elt F)) : (⟨S850000, .i32⟩ : BufTy).Contents (Elt F) :=
  concatenate S850000 0
    [⟨S800000, shapeCast S800000 (extractStridedSlice S1x800000 ![1, 0] ei slices_S2x800000_S1x800000_1_0) shapeCasts_S1x800000_S800000⟩,
     ⟨S50000, iotaInDim S50000 32 0⟩] concatenates_S800000_S50000_S850000_d0

/-- An index list as a column of start indices, a negative index having the node count added. -/
def wrapIx (ix : (⟨S850000, .i32⟩ : BufTy).Contents (Elt F)) : (⟨S850000x1, .i32⟩ : BufTy).Contents (Elt F) :=
  broadcastInDim S850000x1 ![0] bcast_S850000_S850000x1_0
    (select (cmpi .slt ix (broadcastInDim S850000 ![] bcast_S_S850000 (constantI S_ 32 0#32)))
      (addi ix (broadcastInDim S850000 ![] bcast_S_S850000 (constantI S_ 32 50000#32))) ix)

/-- A node's degree: ones summed at the rows. -/
def deg (r : (⟨S850000, .i32⟩ : BufTy).Contents (Elt F)) : (⟨S50000, .f32⟩ : BufTy).Contents (Elt F) :=
  Host.scatterAdd scatter_S50000_S850000x1_S850000_n_0_0_1
    (broadcastInDim S50000 ![] bcast_S_S50000 (constant S_ .f32 0x00000000#32))
    (broadcastInDim S850000x1 ![0] bcast_S850000_S850000x1_0 r)
    (broadcastInDim S850000 ![] bcast_S_S850000 (constant S_ .f32 0x3F800000#32))
def degPos (r : (⟨S850000, .i32⟩ : BufTy).Contents (Elt F)) : (⟨S50000, .i1⟩ : BufTy).Contents (Elt F) :=
  cmpf .ogt (deg r) (broadcastInDim S50000 ![] bcast_S_S50000 (constant S_ .f32 0x00000000#32))
def invSqrtDeg (r : (⟨S850000, .i32⟩ : BufTy).Contents (Elt F)) : (⟨S50000, .f32⟩ : BufTy).Contents (Elt F) :=
  Host.divf (broadcastInDim S50000 ![] bcast_S_S50000 (constant S_ .f32 0x3F800000#32)) (Host.sqrt (deg r))
def zeroWord : (⟨S_, .f32⟩ : BufTy).Contents (Elt F) := constant S_ .f32 0x00000000#32
/-- `q` where `p` holds, the scalar `z` elsewhere. -/
def selOr (p : (⟨S50000, .i1⟩ : BufTy).Contents (Elt F)) (q : (⟨S50000, .f32⟩ : BufTy).Contents (Elt F)) (z : (⟨S_, .f32⟩ : BufTy).Contents (Elt F)) : (⟨S50000, .f32⟩ : BufTy).Contents (Elt F) :=
  select p q (broadcastInDim S50000 ![] bcast_S_S50000 (id z))

/-- An edge's weight: the node value at its row times the node value at its column. -/
def edgeW (r cidx : (⟨S850000, .i32⟩ : BufTy).Contents (Elt F)) (d : (⟨S50000, .f32⟩ : BufTy).Contents (Elt F)) : (⟨S850000, .f32⟩ : BufTy).Contents (Elt F) :=
  mulf (Host.gather gather_S50000_S850000x1_S850000_n_0_n_n_0_1_1 d (wrapIx r))
    (Host.gather gather_S50000_S850000x1_S850000_n_0_n_n_0_1_1 d (wrapIx cidx))

/-- Features gathered at the columns, scaled by the weights, summed at the rows (width 128). -/
def agg128 (r cidx : (⟨S850000, .i32⟩ : BufTy).Contents (Elt F)) (w : (⟨S850000, .f32⟩ : BufTy).Contents (Elt F)) (h : (⟨S50000x128, .f32⟩ : BufTy).Contents (Elt F)) : (⟨S50000x128, .f32⟩ : BufTy).Contents (Elt F) :=
  Host.scatterAdd scatter_S50000x128_S850000x1_S850000x128_1_0_0_1
    (broadcastInDim S50000x128 ![] bcast_S_S50000x128 (constant S_ .f32 0x00000000#32))
    (broadcastInDim S850000x1 ![0] bcast_S850000_S850000x1_0 r)
    (mulf (Host.gather gather_S50000x128_S850000x1_S850000x128_1_0_n_n_0_1_1128 h (wrapIx cidx))
      (broadcastInDim S850000x128 ![0, 1] bcast_S850000x1_S850000x128_0_1
        (broadcastInDim S850000x1 ![0] bcast_S850000_S850000x1_0 w)))
/-- The same at width 40. -/
def agg40 (r cidx : (⟨S850000, .i32⟩ : BufTy).Contents (Elt F)) (w : (⟨S850000, .f32⟩ : BufTy).Contents (Elt F)) (h : (⟨S50000x40, .f32⟩ : BufTy).Contents (Elt F)) : (⟨S50000x40, .f32⟩ : BufTy).Contents (Elt F) :=
  Host.scatterAdd scatter_S50000x40_S850000x1_S850000x40_1_0_0_1
    (broadcastInDim S50000x40 ![] bcast_S_S50000x40 (constant S_ .f32 0x00000000#32))
    (broadcastInDim S850000x1 ![0] bcast_S850000_S850000x1_0 r)
    (mulf (Host.gather gather_S50000x40_S850000x1_S850000x40_1_0_n_n_0_1_140 h (wrapIx cidx))
      (broadcastInDim S850000x40 ![0, 1] bcast_S850000x1_S850000x40_0_1
        (broadcastInDim S850000x1 ![0] bcast_S850000_S850000x1_0 w)))

/-- A bias vector as a one-row array. -/
def biasRow128 (b : (⟨S128, .f32⟩ : BufTy).Contents (Elt F)) : (⟨S1x128, .f32⟩ : BufTy).Contents (Elt F) := shapeCast S1x128 b shapeCasts_S128_S1x128
def biasRow40 (b : (⟨S40, .f32⟩ : BufTy).Contents (Elt F)) : (⟨S1x40, .f32⟩ : BufTy).Contents (Elt F) := shapeCast S1x40 b shapeCasts_S40_S1x40

end Cert.Hand

end
-- ==== Proof.KHost.lean ====
/-
  What each stretch of host operations of the kernel's program leaves in the buffers later stages read, as a function of
  the buffers it reads, for any contents before it: the index lists and the degree facts from the edge list; the
  selected inverse square roots; the edge weights; per layer the aggregated features and the bias as a one-row array.
  Each is the stretch's operations composed, which is the shared function by definition.
-/
import proofs.«165259_j3453153706770_1_alg».proof.Proof.Gen.KernelIdeal.Launch
import proofs.«165259_j3453153706770_1_alg».proof.Proof.HostSpec
import Idealize.ShloMosaic.Lib.StableHlo.Run

noncomputable section

namespace Cert.KernelIdeal.Hand

open Cert.KernelIdeal Cert.KernelIdeal.Gen Cert.Hand
open Idealize.ShloMosaic Idealize.ShloMosaic.TcCoe Idealize.SL.Sem Idealize.ShloMosaic.StableHlo

variable {F : FTy → Type} [FloatOps F] (U : Valuation τ sig (Elt F))

/-- Evaluate a fold of host operations at one buffer: one pass over the list, then the operands a joined list hides. -/
macro "eval_after" : tactic =>
  `(tactic| (after_results_simp
             try (repeat (first
               | rw [reshape_result] | rw [unary_result] | rw [nullary_result]
               | (rw [reshape_result_ne]; rotate_left; decide)
               | (rw [unary_result_ne]; rotate_left; decide)
               | (rw [nullary_result_ne]; rotate_left; decide)))))

theorem idx_rows : after (hostOps0 (F := F)) U (Proc.devRef .tc main_v3) = rowIx (U (Proc.devRef .tc main_arg1)) := by
  eval_after; rfl
theorem idx_cols : after (hostOps0 (F := F)) U (Proc.devRef .tc main_v6) = colIx (U (Proc.devRef .tc main_arg1)) := by
  eval_after; rfl
theorem idx_pos : after (hostOps0 (F := F)) U (Proc.devRef .tc main_v12) = degPos (rowIx (U (Proc.devRef .tc main_arg1))) := by
  eval_after; rfl
theorem idx_inv : after (hostOps0 (F := F)) U (Proc.devRef .tc main_v15) = invSqrtDeg (rowIx (U (Proc.devRef .tc main_arg1))) := by
  eval_after; rfl
theorem idx_zero : after (hostOps0 (F := F)) U (Proc.devRef .tc main_cst_3) = zeroWord := by
  eval_after; rfl
theorem sel_val : after (hostOps0_1 (F := F)) U (Proc.devRef .tc main_v16)
    = selOr (U (Proc.devRef .tc main_v12)) (U (Proc.devRef .tc main_v15)) (U (Proc.devRef .tc main_cst_3)) := by
  eval_after; rfl
theorem weights : after (hostOps0_2 (F := F)) U (Proc.devRef .tc main_v31)
    = edgeW (U (Proc.devRef .tc main_v3)) (U (Proc.devRef .tc main_v6)) (U (Proc.devRef .tc main_v16)) := by
  eval_after; rfl
theorem agg1 : after (hostOps1 (F := F)) U (Proc.devRef .tc main_v45)
    = agg128 (U (Proc.devRef .tc main_v3)) (U (Proc.devRef .tc main_v6)) (U (Proc.devRef .tc main_v31)) (U (Proc.devRef .tc main_v32)) := by
  eval_after; rfl
theorem bias1 : after (hostOps1 (F := F)) U (Proc.devRef .tc main_v46) = biasRow128 (U (Proc.devRef .tc main_arg3)) := by
  eval_after; rfl
theorem agg2 : after (hostOps3 (F := F)) U (Proc.devRef .tc main_v61)
    = agg128 (U (Proc.devRef .tc main_v3)) (U (Proc.devRef .tc main_v6)) (U (Proc.devRef .tc main_v31)) (U (Proc.devRef .tc main_v48)) := by
  eval_after; rfl
theorem bias2 : after (hostOps3 (F := F)) U (Proc.devRef .tc main_v62) = biasRow128 (U (Proc.devRef .tc main_arg5)) := by
  eval_after; rfl
theorem agg3 : after (hostOps5 (F := F)) U (Proc.devRef .tc main_v77)
    = agg40 (U (Proc.devRef .tc main_v3)) (U (Proc.devRef .tc main_v6)) (U (Proc.devRef .tc main_v31)) (U (Proc.devRef .tc main_v64)) := by
  eval_after; rfl
theorem bias3 : after (hostOps5 (F := F)) U (Proc.devRef .tc main_v78) = biasRow40 (U (Proc.devRef .tc main_arg7)) := by
  eval_after; rfl

end Cert.KernelIdeal.Hand

end
-- ==== Proof.Spec.lean ====
/-
  The three node-wise maps of the network, each as one function of whole arrays, entry by entry, on the
  extended reals. A dense transform is the sum over the contracted coordinate of row entry times column entry.
  A bias followed by a rectifier adds the bias row to every row and takes the larger of that and zero. A bias
  followed by a row-wise log-softmax adds the bias row, subtracts the row's largest entry, and subtracts the
  logarithm of the row's sum of exponentials. The float words for zero and minus infinity are kept as words:
  both programs carry the same words, so they are never evaluated.
-/
import Idealize.ShloMosaic.PureOps.Ideal
import Idealize.ShloMosaic.Lib.ValueIdx

noncomputable section

open scoped BigOperators
open Idealize.ShloMosaic Idealize.ShloMosaic.ValueIdx

namespace Cert.Hand

/-- A rank-two array of extended reals with the given extents. -/
abbrev Arr2 (M N : Nat) := (⟨2, ![M, N]⟩ : Shape).Idx → EReal

/-- Entry (r, c) of the product: the sum over k of x(r, k) · w(k, c). -/
def dense {M K N : Nat} (x : Arr2 M K) (w : Arr2 K N) : Arr2 M N :=
  fun i => ∑ k : Fin K, x (ix2 (n0 := M) (i 0) k) * w (ix2 (n1 := N) k (i 1))

/-- Entry (r, c) of the rectified biased array: max (a(r, c) + b(0, c)) 0. -/
def biasRelu {M N : Nat} (a : Arr2 M N) (b : Arr2 1 N) : Arr2 M N :=
  fun i => max (a i + b (ix2 (n0 := 1) (n1 := N) 0 (i 1))) (Ideal.ofBits .f32 0x00000000#32)

/-- The largest of finitely many extended reals, folded from minus infinity. -/
def rowSup {N : Nat} (v : Fin N → EReal) : EReal :=
  (Finset.univ : Finset (Fin N)).fold max (Ideal.ofBits .f32 0xFF800000#32) v

/-- Row r with the bias row added. -/
def biased {M N : Nat} (a : Arr2 M N) (b : Arr2 1 N) (r : Fin M) : Fin N → EReal :=
  fun j => a (ix2 r j) + b (ix2 (n0 := 1) 0 j)

/-- Row r with the bias added and the row's largest entry subtracted. -/
def shifted {M N : Nat} (a : Arr2 M N) (b : Arr2 1 N) (r : Fin M) : Fin N → EReal :=
  fun j => biased a b r j - rowSup (biased a b r)

/-- Entry (r, c) of the biased row-wise log-softmax: z(c) - log (∑ j, exp z(j)), z the shifted row. -/
def biasLogSoftmax {M N : Nat} (a : Arr2 M N) (b : Arr2 1 N) : Arr2 M N :=
  fun i => shifted a b (i 0) (i 1) - Ideal.log (∑ j : Fin N, Ideal.exp (shifted a b (i 0) j))

end Cert.Hand

end
-- ==== Proof.Net.lean ====
/-
  The whole network as one function of the eight argument arrays, on the extended reals: the edge weights from the edge
  list; three layers, each a dense transform, the aggregation over the graph and a bias, the first two rectified, the last
  followed by the row-wise log-softmax. Both programs are shown to end with their result array at this function of
  their arguments.
-/
import proofs.«165259_j3453153706770_1_alg».proof.Proof.Spec
import proofs.«165259_j3453153706770_1_alg».proof.Proof.HostSpec

noncomputable section

namespace Cert.Hand

open Cert.KernelIdeal Idealize.ShloMosaic

variable (x : (⟨S50000x512, .f32⟩ : BufTy).Contents (Elt Ideal)) (ei : (⟨S2x800000, .i32⟩ : BufTy).Contents (Elt Ideal))
    (w1 : (⟨S512x128, .f32⟩ : BufTy).Contents (Elt Ideal)) (b1 : (⟨S128, .f32⟩ : BufTy).Contents (Elt Ideal))
    (w2 : (⟨S128x128, .f32⟩ : BufTy).Contents (Elt Ideal)) (b2 : (⟨S128, .f32⟩ : BufTy).Contents (Elt Ideal))
    (w3 : (⟨S128x40, .f32⟩ : BufTy).Contents (Elt Ideal)) (b3 : (⟨S40, .f32⟩ : BufTy).Contents (Elt Ideal))

/-- Each node's inverse square root of its degree, zero where the degree is not positive. -/
def nodeScale : (⟨S50000, .f32⟩ : BufTy).Contents (Elt Ideal) :=
  selOr (degPos (rowIx (F := Ideal) ei)) (invSqrtDeg (rowIx (F := Ideal) ei)) zeroWord
/-- The edge weights. -/
def weightsOf : (⟨S850000, .f32⟩ : BufTy).Contents (Elt Ideal) :=
  edgeW (rowIx (F := Ideal) ei) (colIx (F := Ideal) ei) (nodeScale ei)
/-- The first layer's activations. -/
def layer1 : Arr2 50000 128 :=
  biasRelu (M := 50000) (N := 128)
    (agg128 (rowIx (F := Ideal) ei) (colIx (F := Ideal) ei) (weightsOf ei) (dense (M := 50000) (K := 512) (N := 128) x w1)) (biasRow128 b1)
/-- The second layer's activations. -/
def layer2 : Arr2 50000 128 :=
  biasRelu (M := 50000) (N := 128)
    (agg128 (rowIx (F := Ideal) ei) (colIx (F := Ideal) ei) (weightsOf ei) (dense (M := 50000) (K := 128) (N := 128) (layer1 x ei w1 b1) w2)) (biasRow128 b2)
/-- The network's result. -/
def net : Arr2 50000 40 :=
  biasLogSoftmax (M := 50000) (N := 40)
    (agg40 (rowIx (F := Ideal) ei) (colIx (F := Ideal) ei) (weightsOf ei) (dense (M := 50000) (K := 128) (N := 40) (layer2 x ei w1 b1 w2 b2) w3)) (biasRow40 b3)

end Cert.Hand

end
-- ==== Proof.Reg0.lean ====
/-
  The first dense layer. The grid has 25 points; point t multiplies rows 2000 t, …, 2000 t + 1999 of the
  50000 × 512 feature array by the whole 512 × 128 weight array and writes the 2000 × 128 product back as rows
  2000 t, …, 2000 t + 1999 of the output. On the extended reals the narrowing of both operands is the identity and
  the product accumulates from zero, so entry (p, q) of a block product is the sum over k of x(p, k) · w(k, q).
  The 25 row blocks tile the output (row r lies in the block of point r / 2000), so the output array ends as the
  product of the two arrays the region finds, entry by entry.
-/
import proofs.«165259_j3453153706770_1_alg».proof.Proof.Gen.KernelIdeal.Frame
import proofs.«165259_j3453153706770_1_alg».proof.Proof.Spec
import Idealize.ShloMosaic.Lib.Pipeline.Value
import Idealize.ShloMosaic.Lib.ValueIdx
import Idealize.ShloMosaic.PureOps.Ideal.Laws

noncomputable section

open scoped BigOperators
open Idealize.ShloMosaic Idealize.ShloMosaic.TcCoe Idealize.SL.Sem
open Idealize.ShloMosaic.Pipeline (Dat)
open Idealize.ShloMosaic.ValueIdx
open Cert.KernelIdeal Cert.KernelIdeal.Gen

namespace Cert.Hand.Reg0

/-! ## One block product, entry by entry -/

/-- Row coordinate of the left operand's index in the contraction: the output's row. -/
theorem lhs_row (i : S2000x128.Idx) (s : dot_S2000x512_S512x128_S2000x128_1_0_0_1_n_n.contr.Idx) :
    (dot_S2000x512_S512x128_S2000x128_1_0_0_1_n_n.lhsIdx i s 0).val = (i 0).val := by
  unfold DotDims.lhsIdx
  rw [dif_neg (show ¬(0 : Fin S2000x512.rank) ∈ dot_S2000x512_S512x128_S2000x128_1_0_0_1_n_n.lhsBatch by decide), dif_pos (show (0 : Fin S2000x512.rank) ∈ dot_S2000x512_S512x128_S2000x128_1_0_0_1_n_n.lhsNonContracting by decide)]
  rfl
/-- Column coordinate of the left operand's index: the contracted coordinate. -/
theorem lhs_col (i : S2000x128.Idx) (s : dot_S2000x512_S512x128_S2000x128_1_0_0_1_n_n.contr.Idx) :
    (dot_S2000x512_S512x128_S2000x128_1_0_0_1_n_n.lhsIdx i s 1).val = (s ⟨0, by decide⟩).val :=
  dot_S2000x512_S512x128_S2000x128_1_0_0_1_n_n.lhsIdx_val_of_single rfl i s
/-- Row coordinate of the right operand's index: the contracted coordinate. -/
theorem rhs_row (i : S2000x128.Idx) (s : dot_S2000x512_S512x128_S2000x128_1_0_0_1_n_n.contr.Idx) :
    (dot_S2000x512_S512x128_S2000x128_1_0_0_1_n_n.rhsIdx i s 0).val = (s ⟨0, by decide⟩).val :=
  dot_S2000x512_S512x128_S2000x128_1_0_0_1_n_n.rhsIdx_val_of_single rfl i s
/-- Column coordinate of the right operand's index: the output's column. -/
theorem rhs_col (i : S2000x128.Idx) (s : dot_S2000x512_S512x128_S2000x128_1_0_0_1_n_n.contr.Idx) :
    (dot_S2000x512_S512x128_S2000x128_1_0_0_1_n_n.rhsIdx i s 1).val = (i 1).val := by
  unfold DotDims.rhsIdx
  rw [dif_neg (show ¬(1 : Fin S512x128.rank) ∈ dot_S2000x512_S512x128_S2000x128_1_0_0_1_n_n.rhsBatch by decide), dif_pos (show (1 : Fin S512x128.rank) ∈ dot_S2000x512_S512x128_S2000x128_1_0_0_1_n_n.rhsNonContracting by decide)]
  rfl

/-- Entry (p, q) of the block product: the sum over the contracted coordinate k of x(p, k) · w(k, q). The two
    narrowings are the identity on extended reals and the accumulator is the zero word. -/
theorem pay_apply (x0 : Vec Ideal S2000x512 .f32) (x1 : Vec Ideal S512x128 .f32) (p : Fin 2000) (q : Fin 128) :
    k0_pay1 (F := Ideal) x0 x1 (ix2 p q) = ∑ k : Fin 512, x0 (ix2 p k) * x1 (ix2 k q) := by
  unfold k0_pay1
  refine (Ideal.matmul_constant_zero_apply dot_S2000x512_S512x128_S2000x128_1_0_0_1_n_n none _ _ (ix2 p q)).trans ?_
  rw [← Equiv.sum_comp (contrEquiv1 dot_S2000x512_S512x128_S2000x128_1_0_0_1_n_n 512 rfl rfl).symm]
  refine Finset.sum_congr rfl fun k _ => ?_
  have hk := contrEquiv1_symm_val dot_S2000x512_S512x128_S2000x128_1_0_0_1_n_n 512 rfl rfl k
  have el : dot_S2000x512_S512x128_S2000x128_1_0_0_1_n_n.lhsIdx (ix2 p q) ((contrEquiv1 dot_S2000x512_S512x128_S2000x128_1_0_0_1_n_n 512 rfl rfl).symm k) = ix2 p k := funext fun a => Fin.ext (by
    match a with
    | ⟨0, _⟩ => exact lhs_row _ _
    | ⟨1, _⟩ => exact (lhs_col _ _).trans hk)
  have er : dot_S2000x512_S512x128_S2000x128_1_0_0_1_n_n.rhsIdx (ix2 p q) ((contrEquiv1 dot_S2000x512_S512x128_S2000x128_1_0_0_1_n_n 512 rfl rfl).symm k) = ix2 k q := funext fun a => Fin.ext (by
    match a with
    | ⟨0, _⟩ => exact (rhs_row _ _).trans hk
    | ⟨1, _⟩ => exact rhs_col _ _)
  rw [el, er]
  rfl

/-! ## From the blocks to the array -/

theorem hz : (![0, 0] : Fin 2 → Nat) = fun _ => 0 := funext fun a => by fin_cases a <;> rfl

/-- The printed index maps, decided over the grid: at point t the row operand's block and the output's block are
    block (t, 0) of their arrays, and the weight's block is block (0, 0), the whole array. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

section
variable (V : (c : Dev nD) → (b : Ref sig .tc) → Buf (Elt Ideal) ((c : Thread nD τ).loc b)) (c : Dev nD)

/-- The row operand's block at point t holds rows 2000 t, …, 2000 t + 1999 of its array. -/
theorem rows_apply (t : Fin cfg0.N) (p : Fin 2000) (k : Fin 512) (r : Fin 50000) (hr : r.val = t.val * 2000 + p.val) :
    (iblk0 (F := Ideal) V c 0 t : Vec Ideal S2000x512 .f32) (ix2 p k) = (V c main_arg0 : S50000x512.Idx → EReal) (ix2 r k) := by
  obtain ⟨e0, e1, -, -, -, -⟩ := idx_facts t
  unfold iblk0
  rw [View.read_apply]
  show V c main_arg0 _ = V c main_arg0 _
  congr 1
  funext a
  apply Fin.ext
  match a with
  | ⟨0, _⟩ => show win0_0.index t (0 : Fin 2) * 2000 + 1 * p.val = r.val; rw [e0, hr]; omega
  | ⟨1, _⟩ => show win0_0.index t (1 : Fin 2) * 512 + 1 * k.val = k.val; rw [e1]; omega

/-- The weight's block at every point is the whole weight array. -/
theorem weight_apply (t : Fin cfg0.N) (k : Fin 512) (q : Fin 128) (s : Fin 128) (hs : s.val = q.val) :
    (iblk0 (F := Ideal) V c 1 t : Vec Ideal S512x128 .f32) (ix2 k q) = (V c main_arg2 : S512x128.Idx → EReal) (ix2 k s) := by
  obtain ⟨-, -, e2, e3, -, -⟩ := idx_facts t
  unfold iblk0
  rw [View.read_apply]
  show V c main_arg2 _ = V c main_arg2 _
  congr 1
  funext a
  apply Fin.ext
  match a with
  | ⟨0, _⟩ => show win0_1.index t (0 : Fin 2) * 512 + 1 * k.val = k.val; rw [e2]; omega
  | ⟨1, _⟩ => show win0_1.index t (1 : Fin 2) * 128 + 1 * q.val = s.val; rw [e3, hs]; omega

/-- What point t writes back is block t of the product of the two arrays as the region finds them. -/
theorem flushed_eq (t : Fin cfg0.N) :
    (dat0 (F := Ideal) V c).flushed 2 t
      = ((cfg0.win 2).blk t).view.read (Elt Ideal) (Cert.Hand.dense (M := 50000) (K := 512) (N := 128) (V c main_arg0) (V c main_arg2)) := by
  show (cfg0.win 2).cut (grid0.coords t) ((dat0 V c).after 2 t) = _
  rw [after0_2]
  unfold out0_2
  rw [View.canon_unit_zero hz]
  simp only [View.ld_unit_zero (S := S2000x512) hz, View.ld_unit_zero (S := S512x128) hz]
  obtain ⟨-, -, -, -, e4, e5⟩ := idx_facts t
  funext j
  obtain ⟨p, q, rfl⟩ : ∃ (p : Fin 2000) (q : Fin 128), j = ix2 p q := ⟨j 0, j 1, eq_ix2 j⟩
  have h0 : ((((cfg0.win 2).blk t).view.emb (ix2 p q)) 0).val = t.val * 2000 + p.val := by
    show win0_2.index t (0 : Fin 2) * 2000 + 1 * p.val = _
    rw [e4]; omega
  have h1 : ((((cfg0.win 2).blk t).view.emb (ix2 p q)) 1).val = q.val := by
    show win0_2.index t (1 : Fin 2) * 128 + 1 * q.val = _
    rw [e5]; omega
  show k0_pay1 (iblk0 V c 0 t) (iblk0 V c 1 t) (ix2 p q)
    = Cert.Hand.dense (M := 50000) (K := 512) (N := 128) (V c main_arg0) (V c main_arg2) (((cfg0.win 2).blk t).view.emb (ix2 p q))
  refine (pay_apply _ _ p q).trans ?_
  unfold Cert.Hand.dense
  refine Finset.sum_congr rfl fun k _ => ?_
  exact congrArg₂ (· * ·) (rows_apply V c t p k _ h0) (weight_apply V c t k q _ h1)

end

/-- An index of the output array is in point t's block iff each coordinate is in the block's range on its axis. -/
theorem mem_blk (t : Fin cfg0.N) (i : S50000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v32).slice (win0_2.rect t)).set ↔ _
  rw [View.set_slice_whole, Rect.mem_set_unit]
  exact Iff.rfl

/-- Every index of the output array is in some point's block: row r is in the block of point r / 2000. -/
theorem cover (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  have hN : cfg0.N = 25 := N_0
  have ht : (i 0).val / 2000 < cfg0.N := by rw [hN]; omega
  obtain ⟨-, -, -, -, e4, e5⟩ := idx_facts ⟨(i 0).val / 2000, ht⟩
  refine ⟨⟨(i 0).val / 2000, ht⟩, flush0_2 _, ?_⟩
  rw [mem_blk]
  intro a
  match a with
  | ⟨0, _⟩ =>
    show win0_2.index ⟨(i 0).val / 2000, ht⟩ (0 : Fin 2) * 2000 ≤ (i 0).val ∧ (i 0).val < win0_2.index ⟨(i 0).val / 2000, ht⟩ (0 : Fin 2) * 2000 + 2000
    rw [e4]
    show (i 0).val / 2000 * 2000 ≤ (i 0).val ∧ (i 0).val < (i 0).val / 2000 * 2000 + 2000
    omega
  | ⟨1, _⟩ =>
    show win0_2.index ⟨(i 0).val / 2000, ht⟩ (1 : Fin 2) * 128 ≤ (i 1).val ∧ (i 1).val < win0_2.index ⟨(i 0).val / 2000, ht⟩ (1 : Fin 2) * 128 + 128
    rw [e5]
    omega

/-- The output array after the region: the product of the two arrays as the region finds them. -/
theorem final (V : (c : Dev nD) → (b : Ref sig .tc) → Buf (Elt Ideal) ((c : Thread nD τ).loc b)) (c : Dev nD) :
    (dat0 (F := Ideal) V c).arrAt 2 cfg0.N = Cert.Hand.dense (M := 50000) (K := 512) (N := 128) (V c main_arg0) (V c main_arg2) :=
  (dat0 (F := Ideal) V c).arrAt_eq_of_cover 2 _ (fun t _ => flushed_eq V c t) cover

end Cert.Hand.Reg0

end
-- ==== Proof.Reg1.lean ====
/-
  The bias-and-rectifier region as one function of whole arrays. Each grid point t reads rows
  2000·t … 2000·t + 1999 of the activation array and the whole one-row bias array, adds the bias row to
  every row of the block, takes the larger of each entry and zero, and writes the result to the same rows
  of the output array. Entry (p, q) of what point t writes is therefore entry (2000·t + p, q) of the map
  i ↦ max (a i + b (0, i₁)) 0 applied to the arrays the region finds. The 25 row blocks tile the 50000 rows
  (row r lies in block r / 2000), so after the last point the output array is that map of the inputs.
-/
import proofs.«165259_j3453153706770_1_alg».proof.Proof.Gen.KernelIdeal.Frame
import proofs.«165259_j3453153706770_1_alg».proof.Proof.Spec
import Idealize.ShloMosaic.Lib.Pipeline.Value
import Idealize.ShloMosaic.Lib.ValueLayout

noncomputable section

open Idealize.ShloMosaic Idealize.ShloMosaic.TcCoe Idealize.SL.Sem
open Idealize.ShloMosaic.Pipeline (Dat)
open Idealize.ShloMosaic.ValueIdx
open Cert.KernelIdeal Cert.KernelIdeal.Gen

namespace Cert.Hand.Reg1

/-- The offset vector (0, 0) is the constant-zero offset. -/
theorem zero_offsets : (![0, 0] : Fin 2 → Nat) = fun _ => 0 := funext fun a => by fin_cases a <;> rfl

/-- Entry (p, q) of the body's result on blocks x0 (2000 rows) and x1 (one row): the casts to the same shape
    are identities, the row broadcast reads the one row at column q, the sum and the maximum are entrywise,
    and the splat of the zero word reads that word everywhere. -/
theorem pay_apply (x0 : Vec Ideal S2000x128 .f32) (x1 : Vec Ideal S1x128 .f32) (p : Fin 2000) (q : Fin 128) :
    k1_pay1 (F := Ideal) x0 x1 (ix2 p q)
      = max (x0 (ix2 p q) + x1 (ix2 (0 : Fin 1) q)) (Ideal.ofBits .f32 0x00000000#32) := by
  unfold k1_pay1
  rw [maximumf_apply, addf_apply, broadcast_apply, shapeCast_self, shapeCast_self, broadcastTo_1b_ab_apply]
  rfl

/-- If entry (p, q) of the row block is entry i of the array a, and entry (0, q) of the bias block is entry
    (0, i₁) of the array b, then entry (p, q) of the body's result is entry i of the rectified biased array. -/
theorem pay_eq_of_blocks (a : Arr2 50000 128) (b : Arr2 1 128) (x0 : Vec Ideal S2000x128 .f32) (x1 : Vec Ideal S1x128 .f32)
    (p : Fin 2000) (q : Fin 128) (i : S50000x128.Idx)
    (h0 : x0 (ix2 p q) = a i) (h1 : x1 (ix2 (0 : Fin 1) q) = b (ix2 (n0 := 1) (n1 := 128) 0 (i 1))) :
    k1_pay1 (F := Ideal) x0 x1 (ix2 p q) = biasRelu a b i := by
  rw [pay_apply, h0, h1]; rfl

/-- The block indices at grid point t: the activation and the output windows sit at row block t, column
    block 0; the bias window always sits at block (0, 0). -/
theorem block_indices : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

variable (V : (c : Dev nD) → (b : Ref sig .tc) → Buf (Elt Ideal) ((c : Thread nD τ).loc b)) (c : Dev nD)

/-- What point t writes back is block t of the rectified biased array of the region's inputs: an element of
    a block sits in its array at block index × block size + its coordinate inside the block, and the input
    blocks sit over the same rows (resp. over the whole bias row) as the output block. -/
theorem flushed_eq (t : Fin cfg1.N) :
    (dat1 (F := Ideal) V c).flushed 2 t
      = ((cfg1.win 2).blk t).view.read (Elt Ideal) (biasRelu (M := 50000) (N := 128) (V c main_v45) (V c main_v46)) := by
  show (cfg1.win 2).cut (grid1.coords t) ((dat1 V c).after 2 t) = _
  rw [after1_2]
  unfold out1_2
  rw [View.canon_unit_zero zero_offsets]
  simp only [View.ld_unit_zero (S := S2000x128) zero_offsets, View.ld_unit_zero (S := S1x128) zero_offsets]
  obtain ⟨e00, e01, e10, e11, e20, e21⟩ := block_indices t
  funext j
  obtain ⟨p, q, rfl⟩ : ∃ (p : Fin 2000) (q : Fin 128), j = ix2 p q := ⟨j 0, j 1, eq_ix2 j⟩
  show k1_pay1 (F := Ideal) (iblk1 V c 0 t) (iblk1 V c 1 t) (ix2 p q)
    = biasRelu (M := 50000) (N := 128) (V c main_v45) (V c main_v46) (((cfg1.win 2).blk t).view.emb (ix2 p q))
  refine pay_eq_of_blocks (V c main_v45) (V c main_v46) (iblk1 V c 0 t) (iblk1 V c 1 t) p q _ ?_ ?_
  · show V c main_v45 (((cfg1.win 0).blk t).view.emb (ix2 p q)) = V c main_v45 (((cfg1.win 2).blk t).view.emb (ix2 p q))
    refine congrArg (V c main_v45) (funext fun a => Fin.ext ?_)
    match a with
    | ⟨0, _⟩ => show win1_0.index t (0 : Fin 2) * 2000 + 1 * p.val = win1_2.index t (0 : Fin 2) * 2000 + 1 * p.val; omega
    | ⟨1, _⟩ => show win1_0.index t (1 : Fin 2) * 128 + 1 * q.val = win1_2.index t (1 : Fin 2) * 128 + 1 * q.val; omega
  · show V c main_v46 (((cfg1.win 1).blk t).view.emb (ix2 (0 : Fin 1) q))
      = V c main_v46 (ix2 (n0 := 1) (n1 := 128) 0 ((((cfg1.win 2).blk t).view.emb (ix2 p q)) 1))
    refine congrArg (V c main_v46) (funext fun a => Fin.ext ?_)
    match a with
    | ⟨0, _⟩ => show win1_1.index t (0 : Fin 2) * 1 + 1 * 0 = 0; omega
    | ⟨1, _⟩ => show win1_1.index t (1 : Fin 2) * 128 + 1 * q.val = win1_2.index t (1 : Fin 2) * 128 + 1 * q.val; omega

/-- An index of the output array lies in point t's block iff each coordinate lies in the block's range. -/
theorem mem_block (t : Fin cfg1.N) (i : S50000x128.Idx) :
    i ∈ ((cfg1.win 2).blk t).view.set ↔ ∀ a : Fin 2, win1_2.index t a * S2000x128.size a ≤ (i a).val
      ∧ (i a).val < win1_2.index t a * S2000x128.size a + S2000x128.size a := by
  show i ∈ ((View.whole main_v47).slice (win1_2.rect t)).set ↔ _
  rw [View.set_slice_whole, Rect.mem_set_unit]
  exact Iff.rfl

/-- Every index of the output array is in some point's block: row r is in row block r / 2000, and
    50000 = 25 · 2000. -/
theorem covered (i : S50000x128.Idx) :
    ∃ t : Fin cfg1.N, (cfg1.win 2).flush t = true ∧ i ∈ ((cfg1.win 2).blk t).view.set := by
  have hN : cfg1.N = 25 := N_1
  have hi0 : (i 0).val < 50000 := (i 0).isLt
  have hi1 : (i 1).val < 128 := (i 1).isLt
  let t : Fin cfg1.N := ⟨(i 0).val / 2000, by rw [hN]; omega⟩
  obtain ⟨-, -, -, -, e20, e21⟩ := block_indices t
  have ht : t.val = (i 0).val / 2000 := rfl
  refine ⟨t, flush1_2 t, ?_⟩
  rw [mem_block]
  intro a
  match a with
  | ⟨0, _⟩ => show win1_2.index t (0 : Fin 2) * 2000 ≤ (i 0).val ∧ (i 0).val < win1_2.index t (0 : Fin 2) * 2000 + 2000; omega
  | ⟨1, _⟩ => show win1_2.index t (1 : Fin 2) * 128 ≤ (i 1).val ∧ (i 1).val < win1_2.index t (1 : Fin 2) * 128 + 128; omega

/-- After the last point the output array is the rectified biased array of the arrays the region found. -/
theorem final : (dat1 (F := Ideal) V c).arrAt 2 cfg1.N
    = Cert.Hand.biasRelu (M := 50000) (N := 128) (V c main_v45) (V c main_v46) :=
  (dat1 (F := Ideal) V c).arrAt_eq_of_cover 2 (biasRelu (M := 50000) (N := 128) (V c main_v45) (V c main_v46))
    (fun t _ => flushed_eq V c t) covered

end Cert.Hand.Reg1

end
-- ==== Proof.Reg2.lean ====
/-
  The second dense layer. The grid has 25 points; point t multiplies rows 2000 t, …, 2000 t + 1999 of the
  50000 × 128 hidden array by the whole 128 × 128 weight array and writes the 2000 × 128 product back as rows
  2000 t, …, 2000 t + 1999 of the output. Reshaping a block to its own shape changes nothing; on the extended reals
  the narrowing of both operands is the identity and the product accumulates from zero, so entry (p, q) of a block
  product is the sum over k of x(p, k) · w(k, q). The 25 row blocks tile the output (row r lies in the block of
  point r / 2000), so the output array ends as the product of the two arrays the region finds, entry by entry.
-/
import proofs.«165259_j3453153706770_1_alg».proof.Proof.Gen.KernelIdeal.Frame
import proofs.«165259_j3453153706770_1_alg».proof.Proof.Spec
import Idealize.ShloMosaic.Lib.Pipeline.Value
import Idealize.ShloMosaic.Lib.ValueIdx
import Idealize.ShloMosaic.PureOps.Ideal.Laws

noncomputable section

open scoped BigOperators
open Idealize.ShloMosaic Idealize.ShloMosaic.TcCoe Idealize.SL.Sem
open Idealize.ShloMosaic.Pipeline (Dat)
open Idealize.ShloMosaic.ValueIdx
open Cert.KernelIdeal Cert.KernelIdeal.Gen

namespace Cert.Hand.Reg2

/-! ## One block product, entry by entry -/

/-- Row coordinate of the left operand's index in the contraction: the output's row. -/
theorem lhs_row (i : S2000x128.Idx) (s : dot_S2000x128_S128x128_S2000x128_1_0_0_1_n_n.contr.Idx) :
    (dot_S2000x128_S128x128_S2000x128_1_0_0_1_n_n.lhsIdx i s 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
/-- Column coordinate of the left operand's index: the contracted coordinate. -/
theorem lhs_col (i : S2000x128.Idx) (s : dot_S2000x128_S128x128_S2000x128_1_0_0_1_n_n.contr.Idx) :
    (dot_S2000x128_S128x128_S2000x128_1_0_0_1_n_n.lhsIdx i s 1).val = (s ⟨0, by decide⟩).val :=
  dot_S2000x128_S128x128_S2000x128_1_0_0_1_n_n.lhsIdx_val_of_single rfl i s
/-- Row coordinate of the right operand's index: the contracted coordinate. -/
theorem rhs_row (i : S2000x128.Idx) (s : dot_S2000x128_S128x128_S2000x128_1_0_0_1_n_n.contr.Idx) :
    (dot_S2000x128_S128x128_S2000x128_1_0_0_1_n_n.rhsIdx i s 0).val = (s ⟨0, by decide⟩).val :=
  dot_S2000x128_S128x128_S2000x128_1_0_0_1_n_n.rhsIdx_val_of_single rfl i s
/-- Column coordinate of the right operand's index: the output's column. -/
theorem rhs_col (i : S2000x128.Idx) (s : dot_S2000x128_S128x128_S2000x128_1_0_0_1_n_n.contr.Idx) :
    (dot_S2000x128_S128x128_S2000x128_1_0_0_1_n_n.rhsIdx i s 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- Entry (p, q) of the block product: the sum over the contracted coordinate k of x(p, k) · w(k, q). The two
    narrowings are the identity on extended reals and the accumulator is the zero word. -/
theorem pay_apply (x0 : Vec Ideal S2000x128 .f32) (x1 : Vec Ideal S128x128 .f32) (p : Fin 2000) (q : Fin 128) :
    k2_pay1 (F := Ideal) x0 x1 (ix2 p q) = ∑ k : Fin 128, x0 (ix2 p k) * x1 (ix2 k q) := by
  unfold k2_pay1
  rw [shapeCast_self]
  refine (Ideal.matmul_constant_zero_apply dot_S2000x128_S128x128_S2000x128_1_0_0_1_n_n none _ _ (ix2 p q)).trans ?_
  rw [← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p q) ((contrEquiv1 dot_S2000x128_S128x128_S2000x128_1_0_0_1_n_n 128 rfl rfl).symm k) = ix2 p k := funext fun a => Fin.ext (by
    match a with
    | ⟨0, _⟩ => exact lhs_row _ _
    | ⟨1, _⟩ => exact (lhs_col _ _).trans hk)
  have er : dot_S2000x128_S128x128_S2000x128_1_0_0_1_n_n.rhsIdx (ix2 p q) ((contrEquiv1 dot_S2000x128_S128x128_S2000x128_1_0_0_1_n_n 128 rfl rfl).symm k) = ix2 k q := funext fun a => Fin.ext (by
    match a with
    | ⟨0, _⟩ => exact (rhs_row _ _).trans hk
    | ⟨1, _⟩ => exact rhs_col _ _)
  rw [el, er]
  rfl

/-! ## From the blocks to the array -/

theorem hz : (![0, 0] : Fin 2 → Nat) = fun _ => 0 := funext fun a => by fin_cases a <;> rfl

/-- The printed index maps, decided over the grid: at point t the row operand's block and the output's block are
    block (t, 0) of their arrays, and the weight's block is block (0, 0), the whole array. -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

section
variable (V : (c : Dev nD) → (b : Ref sig .tc) → Buf (Elt Ideal) ((c : Thread nD τ).loc b)) (c : Dev nD)

/-- The row operand's block at point t holds rows 2000 t, …, 2000 t + 1999 of its array. -/
theorem rows_apply (t : Fin cfg2.N) (p : Fin 2000) (k : Fin 128) (r : Fin 50000) (hr : r.val = t.val * 2000 + p.val) :
    (iblk2 (F := Ideal) V c 0 t : Vec Ideal S2000x128 .f32) (ix2 p k) = (V c main_v47 : S50000x128.Idx → EReal) (ix2 r k) := by
  obtain ⟨e0, e1, -, -, -, -⟩ := idx_facts t
  unfold iblk2
  rw [View.read_apply]
  show V c main_v47 _ = V c main_v47 _
  congr 1
  funext a
  apply Fin.ext
  match a with
  | ⟨0, _⟩ => show win2_0.index t (0 : Fin 2) * 2000 + 1 * p.val = r.val; rw [e0, hr]; omega
  | ⟨1, _⟩ => show win2_0.index t (1 : Fin 2) * 128 + 1 * k.val = k.val; rw [e1]; omega

/-- The weight's block at every point is the whole weight array. -/
theorem weight_apply (t : Fin cfg2.N) (k : Fin 128) (q : Fin 128) (s : Fin 128) (hs : s.val = q.val) :
    (iblk2 (F := Ideal) V c 1 t : Vec Ideal S128x128 .f32) (ix2 k q) = (V c main_arg4 : S128x128.Idx → EReal) (ix2 k s) := by
  obtain ⟨-, -, e2, e3, -, -⟩ := idx_facts t
  unfold iblk2
  rw [View.read_apply]
  show V c main_arg4 _ = V c main_arg4 _
  congr 1
  funext a
  apply Fin.ext
  match a with
  | ⟨0, _⟩ => show win2_1.index t (0 : Fin 2) * 128 + 1 * k.val = k.val; rw [e2]; omega
  | ⟨1, _⟩ => show win2_1.index t (1 : Fin 2) * 128 + 1 * q.val = s.val; rw [e3, hs]; omega

/-- What point t writes back is block t of the product of the two arrays as the region finds them. -/
theorem flushed_eq (t : Fin cfg2.N) :
    (dat2 (F := Ideal) V c).flushed 2 t
      = ((cfg2.win 2).blk t).view.read (Elt Ideal) (Cert.Hand.dense (M := 50000) (K := 128) (N := 128) (V c main_v47) (V c main_arg4)) := by
  show (cfg2.win 2).cut (grid2.coords t) ((dat2 V c).after 2 t) = _
  rw [after2_2]
  unfold out2_2
  rw [View.canon_unit_zero hz]
  simp only [View.ld_unit_zero (S := S2000x128) hz, View.ld_unit_zero (S := S128x128) hz]
  obtain ⟨-, -, -, -, e4, e5⟩ := idx_facts t
  funext j
  obtain ⟨p, q, rfl⟩ : ∃ (p : Fin 2000) (q : Fin 128), j = ix2 p q := ⟨j 0, j 1, eq_ix2 j⟩
  have h0 : ((((cfg2.win 2).blk t).view.emb (ix2 p q)) 0).val = t.val * 2000 + p.val := by
    show win2_2.index t (0 : Fin 2) * 2000 + 1 * p.val = _
    rw [e4]; omega
  have h1 : ((((cfg2.win 2).blk t).view.emb (ix2 p q)) 1).val = q.val := by
    show win2_2.index t (1 : Fin 2) * 128 + 1 * q.val = _
    rw [e5]; omega
  show k2_pay1 (iblk2 V c 0 t) (iblk2 V c 1 t) (ix2 p q)
    = Cert.Hand.dense (M := 50000) (K := 128) (N := 128) (V c main_v47) (V c main_arg4) (((cfg2.win 2).blk t).view.emb (ix2 p q))
  refine (pay_apply _ _ p q).trans ?_
  unfold Cert.Hand.dense
  refine Finset.sum_congr rfl fun k _ => ?_
  exact congrArg₂ (· * ·) (rows_apply V c t p k _ h0) (weight_apply V c t k q _ h1)

end

/-- An index of the output array is in point t's block iff each coordinate is in the block's range on its axis. -/
theorem mem_blk (t : Fin cfg2.N) (i : S50000x128.Idx) :
    i ∈ ((cfg2.win 2).blk t).view.set ↔ ∀ a : Fin 2, win2_2.index t a * S2000x128.size a ≤ (i a).val ∧ (i a).val < win2_2.index t a * S2000x128.size a + S2000x128.size a := by
  show i ∈ ((View.whole main_v48).slice (win2_2.rect t)).set ↔ _
  rw [View.set_slice_whole, Rect.mem_set_unit]
  exact Iff.rfl

/-- Every index of the output array is in some point's block: row r is in the block of point r / 2000. -/
theorem cover (i : S50000x128.Idx) :
    ∃ t : Fin cfg2.N, (cfg2.win 2).flush t = true ∧ i ∈ ((cfg2.win 2).blk t).view.set := by
  have hi0 : (i 0).val < 50000 := (i 0).isLt
  have hi1 : (i 1).val < 128 := (i 1).isLt
  have hN : cfg2.N = 25 := N_2
  have ht : (i 0).val / 2000 < cfg2.N := by rw [hN]; omega
  obtain ⟨-, -, -, -, e4, e5⟩ := idx_facts ⟨(i 0).val / 2000, ht⟩
  refine ⟨⟨(i 0).val / 2000, ht⟩, flush2_2 _, ?_⟩
  rw [mem_blk]
  intro a
  match a with
  | ⟨0, _⟩ =>
    show win2_2.index ⟨(i 0).val / 2000, ht⟩ (0 : Fin 2) * 2000 ≤ (i 0).val ∧ (i 0).val < win2_2.index ⟨(i 0).val / 2000, ht⟩ (0 : Fin 2) * 2000 + 2000
    rw [e4]
    show (i 0).val / 2000 * 2000 ≤ (i 0).val ∧ (i 0).val < (i 0).val / 2000 * 2000 + 2000
    omega
  | ⟨1, _⟩ =>
    show win2_2.index ⟨(i 0).val / 2000, ht⟩ (1 : Fin 2) * 128 ≤ (i 1).val ∧ (i 1).val < win2_2.index ⟨(i 0).val / 2000, ht⟩ (1 : Fin 2) * 128 + 128
    rw [e5]
    omega

/-- The output array after the region: the product of the two arrays as the region finds them. -/
theorem final (V : (c : Dev nD) → (b : Ref sig .tc) → Buf (Elt Ideal) ((c : Thread nD τ).loc b)) (c : Dev nD) :
    (dat2 (F := Ideal) V c).arrAt 2 cfg2.N = Cert.Hand.dense (M := 50000) (K := 128) (N := 128) (V c main_v47) (V c main_arg4) :=
  (dat2 (F := Ideal) V c).arrAt_eq_of_cover 2 _ (fun t _ => flushed_eq V c t) cover

end Cert.Hand.Reg2

end
-- ==== Proof.Reg3.lean ====
/-
  The bias-and-rectifier region as one function of whole arrays. Each grid point t reads rows
  2000·t … 2000·t + 1999 of the activation array and the whole one-row bias array, adds the bias row to
  every row of the block, takes the larger of each entry and zero, and writes the result to the same rows
  of the output array. Entry (p, q) of what point t writes is therefore entry (2000·t + p, q) of the map
  i ↦ max (a i + b (0, i₁)) 0 applied to the arrays the region finds. The 25 row blocks tile the 50000 rows
  (row r lies in block r / 2000), so after the last point the output array is that map of the inputs.
-/
import proofs.«165259_j3453153706770_1_alg».proof.Proof.Gen.KernelIdeal.Frame
import proofs.«165259_j3453153706770_1_alg».proof.Proof.Spec
import Idealize.ShloMosaic.Lib.Pipeline.Value
import Idealize.ShloMosaic.Lib.ValueLayout

noncomputable section

open Idealize.ShloMosaic Idealize.ShloMosaic.TcCoe Idealize.SL.Sem
open Idealize.ShloMosaic.Pipeline (Dat)
open Idealize.ShloMosaic.ValueIdx
open Cert.KernelIdeal Cert.KernelIdeal.Gen

namespace Cert.Hand.Reg3

/-- The offset vector (0, 0) is the constant-zero offset. -/
theorem zero_offsets : (![0, 0] : Fin 2 → Nat) = fun _ => 0 := funext fun a => by fin_cases a <;> rfl

/-- Entry (p, q) of the body's result on blocks x0 (2000 rows) and x1 (one row): the casts to the same shape
    are identities, the row broadcast reads the one row at column q, the sum and the maximum are entrywise,
    and the splat of the zero word reads that word everywhere. -/
theorem pay_apply (x0 : Vec Ideal S2000x128 .f32) (x1 : Vec Ideal S1x128 .f32) (p : Fin 2000) (q : Fin 128) :
    k3_pay1 (F := Ideal) x0 x1 (ix2 p q)
      = max (x0 (ix2 p q) + x1 (ix2 (0 : Fin 1) q)) (Ideal.ofBits .f32 0x00000000#32) := by
  unfold k3_pay1
  rw [maximumf_apply, addf_apply, broadcast_apply, shapeCast_self, shapeCast_self, broadcastTo_1b_ab_apply]
  rfl

/-- If entry (p, q) of the row block is entry i of the array a, and entry (0, q) of the bias block is entry
    (0, i₁) of the array b, then entry (p, q) of the body's result is entry i of the rectified biased array. -/
theorem pay_eq_of_blocks (a : Arr2 50000 128) (b : Arr2 1 128) (x0 : Vec Ideal S2000x128 .f32) (x1 : Vec Ideal S1x128 .f32)
    (p : Fin 2000) (q : Fin 128) (i : S50000x128.Idx)
    (h0 : x0 (ix2 p q) = a i) (h1 : x1 (ix2 (0 : Fin 1) q) = b (ix2 (n0 := 1) (n1 := 128) 0 (i 1))) :
    k3_pay1 (F := Ideal) x0 x1 (ix2 p q) = biasRelu a b i := by
  rw [pay_apply, h0, h1]; rfl

/-- The block indices at grid point t: the activation and the output windows sit at row block t, column
    block 0; the bias window always sits at block (0, 0). -/
theorem block_indices : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

variable (V : (c : Dev nD) → (b : Ref sig .tc) → Buf (Elt Ideal) ((c : Thread nD τ).loc b)) (c : Dev nD)

/-- What point t writes back is block t of the rectified biased array of the region's inputs: an element of
    a block sits in its array at block index × block size + its coordinate inside the block, and the input
    blocks sit over the same rows (resp. over the whole bias row) as the output block. -/
theorem flushed_eq (t : Fin cfg3.N) :
    (dat3 (F := Ideal) V c).flushed 2 t
      = ((cfg3.win 2).blk t).view.read (Elt Ideal) (biasRelu (M := 50000) (N := 128) (V c main_v61) (V c main_v62)) := by
  show (cfg3.win 2).cut (grid3.coords t) ((dat3 V c).after 2 t) = _
  rw [after3_2]
  unfold out3_2
  rw [View.canon_unit_zero zero_offsets]
  simp only [View.ld_unit_zero (S := S2000x128) zero_offsets, View.ld_unit_zero (S := S1x128) zero_offsets]
  obtain ⟨e00, e01, e10, e11, e20, e21⟩ := block_indices t
  funext j
  obtain ⟨p, q, rfl⟩ : ∃ (p : Fin 2000) (q : Fin 128), j = ix2 p q := ⟨j 0, j 1, eq_ix2 j⟩
  show k3_pay1 (F := Ideal) (iblk3 V c 0 t) (iblk3 V c 1 t) (ix2 p q)
    = biasRelu (M := 50000) (N := 128) (V c main_v61) (V c main_v62) (((cfg3.win 2).blk t).view.emb (ix2 p q))
  refine pay_eq_of_blocks (V c main_v61) (V c main_v62) (iblk3 V c 0 t) (iblk3 V c 1 t) p q _ ?_ ?_
  · show V c main_v61 (((cfg3.win 0).blk t).view.emb (ix2 p q)) = V c main_v61 (((cfg3.win 2).blk t).view.emb (ix2 p q))
    refine congrArg (V c main_v61) (funext fun a => Fin.ext ?_)
    match a with
    | ⟨0, _⟩ => show win3_0.index t (0 : Fin 2) * 2000 + 1 * p.val = win3_2.index t (0 : Fin 2) * 2000 + 1 * p.val; omega
    | ⟨1, _⟩ => show win3_0.index t (1 : Fin 2) * 128 + 1 * q.val = win3_2.index t (1 : Fin 2) * 128 + 1 * q.val; omega
  · show V c main_v62 (((cfg3.win 1).blk t).view.emb (ix2 (0 : Fin 1) q))
      = V c main_v62 (ix2 (n0 := 1) (n1 := 128) 0 ((((cfg3.win 2).blk t).view.emb (ix2 p q)) 1))
    refine congrArg (V c main_v62) (funext fun a => Fin.ext ?_)
    match a with
    | ⟨0, _⟩ => show win3_1.index t (0 : Fin 2) * 1 + 1 * 0 = 0; omega
    | ⟨1, _⟩ => show win3_1.index t (1 : Fin 2) * 128 + 1 * q.val = win3_2.index t (1 : Fin 2) * 128 + 1 * q.val; omega

/-- An index of the output array lies in point t's block iff each coordinate lies in the block's range. -/
theorem mem_block (t : Fin cfg3.N) (i : S50000x128.Idx) :
    i ∈ ((cfg3.win 2).blk t).view.set ↔ ∀ a : Fin 2, win3_2.index t a * S2000x128.size a ≤ (i a).val
      ∧ (i a).val < win3_2.index t a * S2000x128.size a + S2000x128.size a := by
  show i ∈ ((View.whole main_v63).slice (win3_2.rect t)).set ↔ _
  rw [View.set_slice_whole, Rect.mem_set_unit]
  exact Iff.rfl

/-- Every index of the output array is in some point's block: row r is in row block r / 2000, and
    50000 = 25 · 2000. -/
theorem covered (i : S50000x128.Idx) :
    ∃ t : Fin cfg3.N, (cfg3.win 2).flush t = true ∧ i ∈ ((cfg3.win 2).blk t).view.set := by
  have hN : cfg3.N = 25 := N_3
  have hi0 : (i 0).val < 50000 := (i 0).isLt
  have hi1 : (i 1).val < 128 := (i 1).isLt
  let t : Fin cfg3.N := ⟨(i 0).val / 2000, by rw [hN]; omega⟩
  obtain ⟨-, -, -, -, e20, e21⟩ := block_indices t
  have ht : t.val = (i 0).val / 2000 := rfl
  refine ⟨t, flush3_2 t, ?_⟩
  rw [mem_block]
  intro a
  match a with
  | ⟨0, _⟩ => show win3_2.index t (0 : Fin 2) * 2000 ≤ (i 0).val ∧ (i 0).val < win3_2.index t (0 : Fin 2) * 2000 + 2000; omega
  | ⟨1, _⟩ => show win3_2.index t (1 : Fin 2) * 128 ≤ (i 1).val ∧ (i 1).val < win3_2.index t (1 : Fin 2) * 128 + 128; omega

/-- After the last point the output array is the rectified biased array of the arrays the region found. -/
theorem final : (dat3 (F := Ideal) V c).arrAt 2 cfg3.N
    = Cert.Hand.biasRelu (M := 50000) (N := 128) (V c main_v61) (V c main_v62) :=
  (dat3 (F := Ideal) V c).arrAt_eq_of_cover 2 (biasRelu (M := 50000) (N := 128) (V c main_v61) (V c main_v62))
    (fun t _ => flushed_eq V c t) covered

end Cert.Hand.Reg3

end
-- ==== Proof.Reg4.lean ====
/-
  The third dense layer. The grid has 25 points; point t multiplies rows 2000 t, …, 2000 t + 1999 of the
  50000 × 128 hidden array by the whole 128 × 40 weight array and writes the 2000 × 40 product back as rows
  2000 t, …, 2000 t + 1999 of the output. Reshaping a block to its own shape changes nothing; on the extended reals
  the narrowing of both operands is the identity and the product accumulates from zero, so entry (p, q) of a block
  product is the sum over k of x(p, k) · w(k, q). The 25 row blocks tile the output (row r lies in the block of
  point r / 2000), so the output array ends as the product of the two arrays the region finds, entry by entry.
-/
import proofs.«165259_j3453153706770_1_alg».proof.Proof.Gen.KernelIdeal.Frame
import proofs.«165259_j3453153706770_1_alg».proof.Proof.Spec
import Idealize.ShloMosaic.Lib.Pipeline.Value
import Idealize.ShloMosaic.Lib.ValueIdx
import Idealize.ShloMosaic.PureOps.Ideal.Laws

noncomputable section

open scoped BigOperators
open Idealize.ShloMosaic Idealize.ShloMosaic.TcCoe Idealize.SL.Sem
open Idealize.ShloMosaic.Pipeline (Dat)
open Idealize.ShloMosaic.ValueIdx
open Cert.KernelIdeal Cert.KernelIdeal.Gen

namespace Cert.Hand.Reg4

/-! ## One block product, entry by entry -/

/-- Row coordinate of the left operand's index in the contraction: the output's row. -/
theorem lhs_row (i : S2000x40.Idx) (s : dot_S2000x128_S128x40_S2000x40_1_0_0_1_n_n.contr.Idx) :
    (dot_S2000x128_S128x40_S2000x40_1_0_0_1_n_n.lhsIdx i s 0).val = (i 0).val := by
  unfold DotDims.lhsIdx
  rw [dif_neg (show ¬(0 : Fin S2000x128.rank) ∈ dot_S2000x128_S128x40_S2000x40_1_0_0_1_n_n.lhsBatch by decide), dif_pos (show (0 : Fin S2000x128.rank) ∈ dot_S2000x128_S128x40_S2000x40_1_0_0_1_n_n.lhsNonContracting by decide)]
  rfl
/-- Column coordinate of the left operand's index: the contracted coordinate. -/
theorem lhs_col (i : S2000x40.Idx) (s : dot_S2000x128_S128x40_S2000x40_1_0_0_1_n_n.contr.Idx) :
    (dot_S2000x128_S128x40_S2000x40_1_0_0_1_n_n.lhsIdx i s 1).val = (s ⟨0, by decide⟩).val :=
  dot_S2000x128_S128x40_S2000x40_1_0_0_1_n_n.lhsIdx_val_of_single rfl i s
/-- Row coordinate of the right operand's index: the contracted coordinate. -/
theorem rhs_row (i : S2000x40.Idx) (s : dot_S2000x128_S128x40_S2000x40_1_0_0_1_n_n.contr.Idx) :
    (dot_S2000x128_S128x40_S2000x40_1_0_0_1_n_n.rhsIdx i s 0).val = (s ⟨0, by decide⟩).val :=
  dot_S2000x128_S128x40_S2000x40_1_0_0_1_n_n.rhsIdx_val_of_single rfl i s
/-- Column coordinate of the right operand's index: the output's column. -/
theorem rhs_col (i : S2000x40.Idx) (s : dot_S2000x128_S128x40_S2000x40_1_0_0_1_n_n.contr.Idx) :
    (dot_S2000x128_S128x40_S2000x40_1_0_0_1_n_n.rhsIdx i s 1).val = (i 1).val := by
  unfold DotDims.rhsIdx
  rw [dif_neg (show ¬(1 : Fin S128x40.rank) ∈ dot_S2000x128_S128x40_S2000x40_1_0_0_1_n_n.rhsBatch by decide), dif_pos (show (1 : Fin S128x40.rank) ∈ dot_S2000x128_S128x40_S2000x40_1_0_0_1_n_n.rhsNonContracting by decide)]
  rfl

/-- Entry (p, q) of the block product: the sum over the contracted coordinate k of x(p, k) · w(k, q). The two
    narrowings are the identity on extended reals and the accumulator is the zero word. -/
theorem pay_apply (x0 : Vec Ideal S2000x128 .f32) (x1 : Vec Ideal S128x40 .f32) (p : Fin 2000) (q : Fin 40) :
    k4_pay1 (F := Ideal) x0 x1 (ix2 p q) = ∑ k : Fin 128, x0 (ix2 p k) * x1 (ix2 k q) := by
  unfold k4_pay1
  rw [shapeCast_self]
  refine (Ideal.matmul_constant_zero_apply dot_S2000x128_S128x40_S2000x40_1_0_0_1_n_n none _ _ (ix2 p q)).trans ?_
  rw [← Equiv.sum_comp (contrEquiv1 dot_S2000x128_S128x40_S2000x40_1_0_0_1_n_n 128 rfl rfl).symm]
  refine Finset.sum_congr rfl fun k _ => ?_
  have hk := contrEquiv1_symm_val dot_S2000x128_S128x40_S2000x40_1_0_0_1_n_n 128 rfl rfl k
  have el : dot_S2000x128_S128x40_S2000x40_1_0_0_1_n_n.lhsIdx (ix2 p q) ((contrEquiv1 dot_S2000x128_S128x40_S2000x40_1_0_0_1_n_n 128 rfl rfl).symm k) = ix2 p k := funext fun a => Fin.ext (by
    match a with
    | ⟨0, _⟩ => exact lhs_row _ _
    | ⟨1, _⟩ => exact (lhs_col _ _).trans hk)
  have er : dot_S2000x128_S128x40_S2000x40_1_0_0_1_n_n.rhsIdx (ix2 p q) ((contrEquiv1 dot_S2000x128_S128x40_S2000x40_1_0_0_1_n_n 128 rfl rfl).symm k) = ix2 k q := funext fun a => Fin.ext (by
    match a with
    | ⟨0, _⟩ => exact (rhs_row _ _).trans hk
    | ⟨1, _⟩ => exact rhs_col _ _)
  rw [el, er]
  rfl

/-! ## From the blocks to the array -/

theorem hz : (![0, 0] : Fin 2 → Nat) = fun _ => 0 := funext fun a => by fin_cases a <;> rfl

/-- The printed index maps, decided over the grid: at point t the row operand's block and the output's block are
    block (t, 0) of their arrays, and the weight's block is block (0, 0), the whole array. -/
theorem idx_facts : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

section
variable (V : (c : Dev nD) → (b : Ref sig .tc) → Buf (Elt Ideal) ((c : Thread nD τ).loc b)) (c : Dev nD)

/-- The row operand's block at point t holds rows 2000 t, …, 2000 t + 1999 of its array. -/
theorem rows_apply (t : Fin cfg4.N) (p : Fin 2000) (k : Fin 128) (r : Fin 50000) (hr : r.val = t.val * 2000 + p.val) :
    (iblk4 (F := Ideal) V c 0 t : Vec Ideal S2000x128 .f32) (ix2 p k) = (V c main_v63 : S50000x128.Idx → EReal) (ix2 r k) := by
  obtain ⟨e0, e1, -, -, -, -⟩ := idx_facts t
  unfold iblk4
  rw [View.read_apply]
  show V c main_v63 _ = V c main_v63 _
  congr 1
  funext a
  apply Fin.ext
  match a with
  | ⟨0, _⟩ => show win4_0.index t (0 : Fin 2) * 2000 + 1 * p.val = r.val; rw [e0, hr]; omega
  | ⟨1, _⟩ => show win4_0.index t (1 : Fin 2) * 128 + 1 * k.val = k.val; rw [e1]; omega

/-- The weight's block at every point is the whole weight array. -/
theorem weight_apply (t : Fin cfg4.N) (k : Fin 128) (q : Fin 40) (s : Fin 40) (hs : s.val = q.val) :
    (iblk4 (F := Ideal) V c 1 t : Vec Ideal S128x40 .f32) (ix2 k q) = (V c main_arg6 : S128x40.Idx → EReal) (ix2 k s) := by
  obtain ⟨-, -, e2, e3, -, -⟩ := idx_facts t
  unfold iblk4
  rw [View.read_apply]
  show V c main_arg6 _ = V c main_arg6 _
  congr 1
  funext a
  apply Fin.ext
  match a with
  | ⟨0, _⟩ => show win4_1.index t (0 : Fin 2) * 128 + 1 * k.val = k.val; rw [e2]; omega
  | ⟨1, _⟩ => show win4_1.index t (1 : Fin 2) * 40 + 1 * q.val = s.val; rw [e3, hs]; omega

/-- What point t writes back is block t of the product of the two arrays as the region finds them. -/
theorem flushed_eq (t : Fin cfg4.N) :
    (dat4 (F := Ideal) V c).flushed 2 t
      = ((cfg4.win 2).blk t).view.read (Elt Ideal) (Cert.Hand.dense (M := 50000) (K := 128) (N := 40) (V c main_v63) (V c main_arg6)) := by
  show (cfg4.win 2).cut (grid4.coords t) ((dat4 V c).after 2 t) = _
  rw [after4_2]
  unfold out4_2
  rw [View.canon_unit_zero hz]
  simp only [View.ld_unit_zero (S := S2000x128) hz, View.ld_unit_zero (S := S128x40) hz]
  obtain ⟨-, -, -, -, e4, e5⟩ := idx_facts t
  funext j
  obtain ⟨p, q, rfl⟩ : ∃ (p : Fin 2000) (q : Fin 40), j = ix2 p q := ⟨j 0, j 1, eq_ix2 j⟩
  have h0 : ((((cfg4.win 2).blk t).view.emb (ix2 p q)) 0).val = t.val * 2000 + p.val := by
    show win4_2.index t (0 : Fin 2) * 2000 + 1 * p.val = _
    rw [e4]; omega
  have h1 : ((((cfg4.win 2).blk t).view.emb (ix2 p q)) 1).val = q.val := by
    show win4_2.index t (1 : Fin 2) * 40 + 1 * q.val = _
    rw [e5]; omega
  show k4_pay1 (iblk4 V c 0 t) (iblk4 V c 1 t) (ix2 p q)
    = Cert.Hand.dense (M := 50000) (K := 128) (N := 40) (V c main_v63) (V c main_arg6) (((cfg4.win 2).blk t).view.emb (ix2 p q))
  refine (pay_apply _ _ p q).trans ?_
  unfold Cert.Hand.dense
  refine Finset.sum_congr rfl fun k _ => ?_
  exact congrArg₂ (· * ·) (rows_apply V c t p k _ h0) (weight_apply V c t k q _ h1)

end

/-- An index of the output array is in point t's block iff each coordinate is in the block's range on its axis. -/
theorem mem_blk (t : Fin cfg4.N) (i : S50000x40.Idx) :
    i ∈ ((cfg4.win 2).blk t).view.set ↔ ∀ a : Fin 2, win4_2.index t a * S2000x40.size a ≤ (i a).val ∧ (i a).val < win4_2.index t a * S2000x40.size a + S2000x40.size a := by
  show i ∈ ((View.whole main_v64).slice (win4_2.rect t)).set ↔ _
  rw [View.set_slice_whole, Rect.mem_set_unit]
  exact Iff.rfl

/-- Every index of the output array is in some point's block: row r is in the block of point r / 2000. -/
theorem cover (i : S50000x40.Idx) :
    ∃ t : Fin cfg4.N, (cfg4.win 2).flush t = true ∧ i ∈ ((cfg4.win 2).blk t).view.set := by
  have hi0 : (i 0).val < 50000 := (i 0).isLt
  have hi1 : (i 1).val < 40 := (i 1).isLt
  have hN : cfg4.N = 25 := N_4
  have ht : (i 0).val / 2000 < cfg4.N := by rw [hN]; omega
  obtain ⟨-, -, -, -, e4, e5⟩ := idx_facts ⟨(i 0).val / 2000, ht⟩
  refine ⟨⟨(i 0).val / 2000, ht⟩, flush4_2 _, ?_⟩
  rw [mem_blk]
  intro a
  match a with
  | ⟨0, _⟩ =>
    show win4_2.index ⟨(i 0).val / 2000, ht⟩ (0 : Fin 2) * 2000 ≤ (i 0).val ∧ (i 0).val < win4_2.index ⟨(i 0).val / 2000, ht⟩ (0 : Fin 2) * 2000 + 2000
    rw [e4]
    show (i 0).val / 2000 * 2000 ≤ (i 0).val ∧ (i 0).val < (i 0).val / 2000 * 2000 + 2000
    omega
  | ⟨1, _⟩ =>
    show win4_2.index ⟨(i 0).val / 2000, ht⟩ (1 : Fin 2) * 40 ≤ (i 1).val ∧ (i 1).val < win4_2.index ⟨(i 0).val / 2000, ht⟩ (1 : Fin 2) * 40 + 40
    rw [e5]
    omega

/-- The output array after the region: the product of the two arrays as the region finds them. -/
theorem final (V : (c : Dev nD) → (b : Ref sig .tc) → Buf (Elt Ideal) ((c : Thread nD τ).loc b)) (c : Dev nD) :
    (dat4 (F := Ideal) V c).arrAt 2 cfg4.N = Cert.Hand.dense (M := 50000) (K := 128) (N := 40) (V c main_v63) (V c main_arg6) :=
  (dat4 (F := Ideal) V c).arrAt_eq_of_cover 2 _ (fun t _ => flushed_eq V c t) cover

end Cert.Hand.Reg4

end
-- ==== Proof.Reg5.lean ====
/-
  The last node-wise map of the network: to every row of the [50000, 40] array the bias row is added, the row's
  largest entry is subtracted, and then the logarithm of the row's sum of exponentials is subtracted. The body
  works on row blocks of 2000: one block of the array and the whole bias row come in, one block goes out. First
  the body's value is read at an index (p, q) of a block: the two lane reductions become a fold of max and a sum
  over the 40 lanes of row p, the column forms [2000] → [2000, 1] → [2000, 40] carry a row's number back to every
  lane, and what is left is the row formula of the specification on the block's row p. Then the blocks are put
  back into the array: at grid point t the input and output blocks are rows 2000·t … 2000·t + 1999, the bias
  block is the whole bias row, so what point t writes back is block t of the specification applied to the whole
  arrays; row r lies in the block of point r / 2000 and every point writes back, so the blocks cover the array.
-/
import proofs.«165259_j3453153706770_1_alg».proof.Proof.Gen.KernelIdeal.Frame
import proofs.«165259_j3453153706770_1_alg».proof.Proof.Spec
import Idealize.ShloMosaic.Lib.Pipeline.Value
import Idealize.ShloMosaic.Lib.ValueLayout
import Idealize.ShloMosaic.PureOps.Ideal.Laws

noncomputable section
open scoped BigOperators
open Idealize.ShloMosaic Idealize.ShloMosaic.TcCoe Idealize.SL.Sem
open Idealize.ShloMosaic.Pipeline (Dat)
open Idealize.ShloMosaic.ValueIdx
open Cert.KernelIdeal Cert.KernelIdeal.Gen

namespace Cert.Hand.Reg5

/-! ## The two column forms a kept reduced axis needs -/

section Column
variable {α : Type}

/-- A vector of length a viewed as a column [a, 1] reads, at (i, u), the vector at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] spread over b lanes reads, at (p, c), the column at (p, 0). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Column

/-! ## The two lane reductions of a [2000, 40] block, read at a row -/

/-- The largest entry of row r, folded from the accumulator word's value. -/
theorem rowMax_apply (src : FVec Ideal S2000x40 .f32) (h : S2000x40.Reduces [1] S2000) (hφ : FKind.Formats .f32)
    (hacc : (0xFF800000#32 : BitVec 32) = 0xFF800000#32) (r : Fin 2000) :
    multiReduction .maximumf [1] S2000 src 0xFF800000#32 h hφ hacc (ix1 r)
      = Cert.Hand.rowSup (fun j : Fin 40 => src (ix2 r j)) :=
  (Ideal.multiReduction_maximumf_single src 0xFF800000#32 h hφ hacc (ix1 r)).trans (by
    have e : ∀ k : Fin 40, h.lift (ix1 r) k = ix2 r k := fun k => funext fun a => Fin.ext (by
      match a with
      | ⟨0, _⟩ => rfl
      | ⟨1, _⟩ => rfl)
    unfold Cert.Hand.rowSup
    exact congrArg (fun f : Fin 40 → EReal => Finset.fold max (Ideal.ofBits .f32 0xFF800000#32) f Finset.univ)
      (funext fun k => congrArg src (e k)))

/-- The sum of row r. -/
theorem rowSum_apply (src : FVec Ideal S2000x40 .f32) (h : S2000x40.Reduces [1] S2000) (hφ : FKind.Formats .f32)
    (hacc : (0x00000000#32 : BitVec 32) = 0x00000000#32) (r : Fin 2000) :
    multiReduction .add [1] S2000 src 0x00000000#32 h hφ hacc (ix1 r) = ∑ j : Fin 40, src (ix2 r j) :=
  (Ideal.multiReduction_add_single src 0x00000000#32 h hφ hacc (ix1 r)).trans (by
    have e : ∀ k : Fin 40, h.lift (ix1 r) k = ix2 r k := fun k => funext fun a => Fin.ext (by
      match a with
      | ⟨0, _⟩ => rfl
      | ⟨1, _⟩ => rfl)
    exact Finset.sum_congr rfl (fun k _ => congrArg src (e k)))

/-! ## The body's payload, read at an index -/

/-- The block with the bias row added. -/
def biasedBlock (x0 : Vec Ideal S2000x40 .f32) (x1 : Vec Ideal S1x40 .f32) : FVec Ideal S2000x40 .f32 :=
  addf (shapeCast S2000x40 x0 shapeCasts_S2000x40_S2000x40)
    (broadcastTo S2000x40 (shapeCast S1x40 x1 shapeCasts_S1x40_S1x40) broadcasts_S1x40_S2000x40)

/-- The biased block with each row's largest entry subtracted from the row. -/
def shiftedBlock (x0 : Vec Ideal S2000x40 .f32) (x1 : Vec Ideal S1x40 .f32) : FVec Ideal S2000x40 .f32 :=
  subf (biasedBlock x0 x1)
    (broadcastTo S2000x40
      (shapeCast S2000x1
        (multiReduction .maximumf [1] S2000 (biasedBlock x0 x1) 0xFF800000#32 reduces_S2000x40_S2000 (.inl rfl) rfl)
        shapeCasts_S2000_S2000x1)
      broadcasts_S2000x1_S2000x40)

/-- The payload is the shifted block less, row by row, the logarithm of the row's sum of exponentials. -/
theorem payload_eq (x0 : Vec Ideal S2000x40 .f32) (x1 : Vec Ideal S1x40 .f32) :
    k5_pay1 (F := Ideal) x0 x1
      = subf (shiftedBlock x0 x1)
          (broadcastTo S2000x40
            (log (shapeCast S2000x1
              (multiReduction .add [1] S2000 (exp (shiftedBlock x0 x1)) 0x00000000#32 reduces_S2000x40_S2000 (.inl rfl) rfl)
              shapeCasts_S2000_S2000x1))
            broadcasts_S2000x1_S2000x40) := rfl

/-- The biased block at (r, j): the entry plus the bias row's entry of that lane. -/
theorem biasedBlock_apply (x0 : Vec Ideal S2000x40 .f32) (x1 : Vec Ideal S1x40 .f32) (r : Fin 2000) (j : Fin 40) :
    biasedBlock x0 x1 (ix2 r j) = Cert.Hand.biased (M := 2000) (N := 40) x0 x1 r j := by
  unfold biasedBlock
  rw [addf_apply, shapeCast_self, shapeCast_self, broadcastTo_1b_ab_apply]
  rfl

/-- A block less its rows' largest entries, read at (r, j). -/
theorem subRowMax_apply (B : FVec Ideal S2000x40 .f32) (h : S2000x40.Reduces [1] S2000) (hφ : FKind.Formats .f32)
    (hacc : (0xFF800000#32 : BitVec 32) = 0xFF800000#32) (hc : S2000.ShapeCasts S2000x1) (hb : S2000x1.Broadcasts S2000x40)
    (r : Fin 2000) (j : Fin 40) :
    subf B (broadcastTo S2000x40 (shapeCast S2000x1 (multiReduction .maximumf [1] S2000 B 0xFF800000#32 h hφ hacc) hc) hb) (ix2 r j)
      = B (ix2 r j) - Cert.Hand.rowSup (fun j' : Fin 40 => B (ix2 r j')) := by
  rw [subf_apply, broadcastTo_a1_ab_apply, shapeCast_a_a1_apply, rowMax_apply]

/-- A block less the logarithm of its rows' sums of exponentials, read at (r, j). -/
theorem subLogSumExp_apply (Z : FVec Ideal S2000x40 .f32) (h : S2000x40.Reduces [1] S2000) (hφ : FKind.Formats .f32)
    (hacc : (0x00000000#32 : BitVec 32) = 0x00000000#32) (hc : S2000.ShapeCasts S2000x1) (hb : S2000x1.Broadcasts S2000x40)
    (r : Fin 2000) (j : Fin 40) :
    subf Z (broadcastTo S2000x40 (log (shapeCast S2000x1 (multiReduction .add [1] S2000 (exp Z) 0x00000000#32 h hφ hacc) hc)) hb) (ix2 r j)
      = Z (ix2 r j) - Ideal.log (∑ j' : Fin 40, Ideal.exp (Z (ix2 r j'))) := by
  rw [subf_apply, broadcastTo_a1_ab_apply]
  show Z (ix2 r j) - Ideal.log (shapeCast S2000x1 (multiReduction .add [1] S2000 (exp Z) 0x00000000#32 h hφ hacc) hc (ix2 r (0 : Fin 1))) = _
  rw [shapeCast_a_a1_apply, rowSum_apply]
  rfl

/-- The shifted block at (r, j) is the specification's shifted row r at j. -/
theorem shiftedBlock_apply (x0 : Vec Ideal S2000x40 .f32) (x1 : Vec Ideal S1x40 .f32) (r : Fin 2000) (j : Fin 40) :
    shiftedBlock x0 x1 (ix2 r j) = Cert.Hand.shifted (M := 2000) (N := 40) x0 x1 r j := by
  unfold shiftedBlock
  refine (subRowMax_apply (biasedBlock x0 x1) _ _ _ _ _ r j).trans ?_
  unfold Cert.Hand.shifted
  rw [biasedBlock_apply]
  exact congrArg (fun f : Fin 40 → EReal => Cert.Hand.biased (M := 2000) (N := 40) x0 x1 r j - Cert.Hand.rowSup f)
    (funext fun j' => biasedBlock_apply x0 x1 r j')

/-- The payload at (p, q): the shifted row p at q less the logarithm of the sum of that row's exponentials. -/
theorem payload_apply (x0 : Vec Ideal S2000x40 .f32) (x1 : Vec Ideal S1x40 .f32) (p : Fin 2000) (q : Fin 40) :
    k5_pay1 (F := Ideal) x0 x1 (ix2 p q)
      = Cert.Hand.shifted (M := 2000) (N := 40) x0 x1 p q
        - Ideal.log (∑ j : Fin 40, Ideal.exp (Cert.Hand.shifted (M := 2000) (N := 40) x0 x1 p j)) := by
  rw [payload_eq]
  refine (subLogSumExp_apply (shiftedBlock x0 x1) _ _ _ _ _ p q).trans ?_
  rw [shiftedBlock_apply]
  exact congrArg (fun f : Fin 40 → EReal => Cert.Hand.shifted (M := 2000) (N := 40) x0 x1 p q - Ideal.log (∑ j : Fin 40, Ideal.exp (f j)))
    (funext fun j => shiftedBlock_apply x0 x1 p j)

/-! ## From the blocks to the array -/

/-- The shifted row depends only on the biased row. -/
theorem shifted_congr {M M' N : Nat} (a : Arr2 M N) (b : Arr2 1 N) (r : Fin M) (a' : Arr2 M' N) (b' : Arr2 1 N) (r' : Fin M')
    (h : Cert.Hand.biased a b r = Cert.Hand.biased a' b' r') : Cert.Hand.shifted a b r = Cert.Hand.shifted a' b' r' := by
  funext j
  unfold Cert.Hand.shifted
  rw [h]

/-- Row p of a block that is rows of the array, with the whole bias row: its shifted row is the array's shifted row R. -/
theorem shifted_block (A : Arr2 50000 40) (B : Arr2 1 40) (x0 : Vec Ideal S2000x40 .f32) (x1 : Vec Ideal S1x40 .f32)
    (p : Fin 2000) (R : Fin 50000) (h0 : ∀ j : Fin 40, x0 (ix2 p j) = A (ix2 R j)) (h1 : ∀ j : Fin 40, x1 (ix2 (0 : Fin 1) j) = B (ix2 (0 : Fin 1) j)) :
    Cert.Hand.shifted (M := 2000) (N := 40) x0 x1 p = Cert.Hand.shifted (M := 50000) (N := 40) A B R :=
  shifted_congr _ _ _ _ _ _ (funext fun j => by
    unfold Cert.Hand.biased
    rw [h0 j, h1 j])

/-- So the payload at (p, q) of such a block is the array's log-softmax at (R, q). -/
theorem payload_block (A : Arr2 50000 40) (B : Arr2 1 40) (x0 : Vec Ideal S2000x40 .f32) (x1 : Vec Ideal S1x40 .f32)
    (p : Fin 2000) (q : Fin 40) (R : Fin 50000) (i : (⟨2, ![50000, 40]⟩ : Shape).Idx) (hi : i = ix2 R q)
    (h0 : ∀ j : Fin 40, x0 (ix2 p j) = A (ix2 R j)) (h1 : ∀ j : Fin 40, x1 (ix2 (0 : Fin 1) j) = B (ix2 (0 : Fin 1) j)) :
    k5_pay1 (F := Ideal) x0 x1 (ix2 p q) = Cert.Hand.biasLogSoftmax (M := 50000) (N := 40) A B i := by
  subst hi
  rw [payload_apply, shifted_block A B x0 x1 p R h0 h1]
  rfl

section Array
variable (V : (c : Dev nD) → (b : Ref sig .tc) → Buf (Elt Ideal) ((c : Thread nD τ).loc b)) (c : Dev nD)

theorem zero_offsets : (![0, 0] : Fin 2 → Nat) = fun _ => 0 := funext fun a => by fin_cases a <;> rfl

/-- The block indices over the grid: at point t the input and the output blocks are row block t, the bias block the whole row. -/
theorem block_indices : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- What point t writes back is block t of the log-softmax of the arrays the region finds. -/
theorem flushed_eq (t : Fin cfg5.N) :
    (dat5 (F := Ideal) V c).flushed 2 t
      = ((cfg5.win 2).blk t).view.read (Elt Ideal) (Cert.Hand.biasLogSoftmax (M := 50000) (N := 40) (V c main_v77) (V c main_v78)) := by
  show (cfg5.win 2).cut (grid5.coords t) ((dat5 V c).after 2 t) = _
  rw [after5_2]
  unfold out5_2
  rw [View.canon_unit_zero zero_offsets]
  simp only [View.ld_unit_zero (S := S2000x40) zero_offsets, View.ld_unit_zero (S := S1x40) zero_offsets]
  obtain ⟨e0, e1, e2, e3, e4, e5⟩ := block_indices t
  have hN : t.val < 25 := Nat.lt_of_lt_of_eq t.isLt (show cfg5.N = 25 from N_5)
  refine funext fun (j : S2000x40.Idx) => ?_
  obtain ⟨p, q, rfl⟩ : ∃ (p : Fin 2000) (q : Fin 40), j = ix2 p q := ⟨j 0, j 1, eq_ix2 j⟩
  have hR : t.val * 2000 + p.val < 50000 := by have := p.isLt; omega
  show k5_pay1 (F := Ideal) (iblk5 V c 0 t) (iblk5 V c 1 t) (ix2 p q)
    = Cert.Hand.biasLogSoftmax (M := 50000) (N := 40) (V c main_v77) (V c main_v78) (((cfg5.win 2).blk t).view.emb (ix2 p q))
  refine payload_block (V c main_v77) (V c main_v78) (iblk5 V c 0 t) (iblk5 V c 1 t) p q ⟨t.val * 2000 + p.val, hR⟩ _ ?_ ?_ ?_
  · funext a; apply Fin.ext
    match a with
    | ⟨0, _⟩ => show win5_2.index t (0 : Fin 2) * 2000 + 1 * p.val = t.val * 2000 + p.val; rw [e4]; omega
    | ⟨1, _⟩ => show win5_2.index t (1 : Fin 2) * 40 + 1 * q.val = q.val; rw [e5]; omega
  · intro j'
    show V c main_v77 (((cfg5.win 0).blk t).view.emb (ix2 p j')) = V c main_v77 (ix2 ⟨t.val * 2000 + p.val, hR⟩ j')
    refine congrArg (V c main_v77) (funext fun a => Fin.ext ?_)
    match a with
    | ⟨0, _⟩ => show win5_0.index t (0 : Fin 2) * 2000 + 1 * p.val = t.val * 2000 + p.val; rw [e0]; omega
    | ⟨1, _⟩ => show win5_0.index t (1 : Fin 2) * 40 + 1 * j'.val = j'.val; rw [e1]; omega
  · intro j'
    show V c main_v78 (((cfg5.win 1).blk t).view.emb (ix2 (0 : Fin 1) j')) = V c main_v78 (ix2 (0 : Fin 1) j')
    refine congrArg (V c main_v78) (funext fun a => Fin.ext ?_)
    match a with
    | ⟨0, _⟩ => show win5_1.index t (0 : Fin 2) * 1 + 1 * 0 = 0; rw [e2]
    | ⟨1, _⟩ => show win5_1.index t (1 : Fin 2) * 40 + 1 * j'.val = j'.val; rw [e3]; omega

/-- An index of the array is in point t's block iff each coordinate is in the block's range on its axis. -/
theorem mem_block (t : Fin cfg5.N) (i : S50000x40.Idx) :
    i ∈ ((cfg5.win 2).blk t).view.set ↔ ∀ a : Fin 2, win5_2.index t a * S2000x40.size a ≤ (i a).val
      ∧ (i a).val < win5_2.index t a * S2000x40.size a + S2000x40.size a := by
  show i ∈ ((View.whole main_v79).slice (win5_2.rect t)).set ↔ _
  rw [View.set_slice_whole, Rect.mem_set_unit]
  exact Iff.rfl

/-- Row r lies in the block of point r / 2000, and every point writes its block back: the array after the last point is the
    log-softmax, row by row, of the biased rows of the arrays the region finds. -/
theorem final : (dat5 (F := Ideal) V c).arrAt 2 cfg5.N
    = Cert.Hand.biasLogSoftmax (M := 50000) (N := 40) (V c main_v77) (V c main_v78) :=
  (dat5 (F := Ideal) V c).arrAt_eq_of_cover 2 _ (fun t _ => flushed_eq V c t) fun i => by
    have hi0 : (i 0).val < 50000 := (i 0).isLt
    have hi1 : (i 1).val < 40 := (i 1).isLt
    have ht : (i 0).val / 2000 < cfg5.N := Nat.lt_of_lt_of_eq (by omega) (show (25 : Nat) = cfg5.N from N_5.symm)
    obtain ⟨e0, e1, e2, e3, e4, e5⟩ := block_indices ⟨(i 0).val / 2000, ht⟩
    refine ⟨⟨(i 0).val / 2000, ht⟩, flush5_2 _, ?_⟩
    rw [mem_block]
    intro a
    match a with
    | ⟨0, _⟩ =>
      show win5_2.index ⟨(i 0).val / 2000, ht⟩ (0 : Fin 2) * 2000 ≤ (i 0).val
        ∧ (i 0).val < win5_2.index ⟨(i 0).val / 2000, ht⟩ (0 : Fin 2) * 2000 + 2000
      rw [e4]
      show (i 0).val / 2000 * 2000 ≤ (i 0).val ∧ (i 0).val < (i 0).val / 2000 * 2000 + 2000
      omega
    | ⟨1, _⟩ =>
      show win5_2.index ⟨(i 0).val / 2000, ht⟩ (1 : Fin 2) * 40 ≤ (i 1).val
        ∧ (i 1).val < win5_2.index ⟨(i 0).val / 2000, ht⟩ (1 : Fin 2) * 40 + 40
      rw [e5]
      omega

end Array

end Cert.Hand.Reg5

end
-- ==== Proof.KChain.lean ====
/-
  The kernel's program, boundary by boundary: what the buffers that matter hold when each region is entered and left.
  The index lists, the selected inverse square roots and the edge weights are computed once from the edge list and no later
  operation or region writes them, so they are read back through every later boundary unchanged; likewise each
  argument array. Each matmul region leaves the dense transform of its two input arrays, each bias region the
  rectified (or log-softmaxed) biased array, each host stretch the aggregation over the graph. Composed, the result
  buffer ends at the network's function of the arguments.
-/
import proofs.«165259_j3453153706770_1_alg».proof.Proof.Gen.KernelIdeal.Frame
import proofs.«165259_j3453153706770_1_alg».proof.Proof.KHost
import proofs.«165259_j3453153706770_1_alg».proof.Proof.Net
import proofs.«165259_j3453153706770_1_alg».proof.Proof.Reg0
import proofs.«165259_j3453153706770_1_alg».proof.Proof.Reg1
import proofs.«165259_j3453153706770_1_alg».proof.Proof.Reg2
import proofs.«165259_j3453153706770_1_alg».proof.Proof.Reg3
import proofs.«165259_j3453153706770_1_alg».proof.Proof.Reg4
import proofs.«165259_j3453153706770_1_alg».proof.Proof.Reg5

set_option maxRecDepth 16384

noncomputable section

namespace Cert.KernelIdeal.Hand

open Cert.KernelIdeal Cert.KernelIdeal.Gen Cert.Hand
open Idealize.ShloMosaic Idealize.ShloMosaic.TcCoe Idealize.SL.Sem Idealize.ShloMosaic.StableHlo
open Idealize.ShloMosaic.Pipeline (Dat)

variable (m : (ℓ : Loc nD τ sig) → Buf (Elt Ideal) ℓ) (ρ : Dev nD → PrngReg) (c : Dev nD)

/-! ## Buffers no later stage writes, read back -/

theorem rows_at10 : W10 m ρ c (Proc.devRef .tc main_v3) = W1 m ρ c (Proc.devRef .tc main_v3) :=
  calc W10 m ρ c (Proc.devRef .tc main_v3)
    _ = W9 m ρ c (Proc.devRef .tc main_v3) := W10_of_ne m ρ c main_v3 (by decide)
    _ = W8 m ρ c (Proc.devRef .tc main_v3) := W9_of_ne m ρ c main_v3 (by decide)
    _ = W7 m ρ c (Proc.devRef .tc main_v3) := StableHlo.after_of_forall_not_mem (b := Proc.devRef .tc main_v3) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_v3) := W7_of_ne m ρ c main_v3 (by decide)
    _ = W5 m ρ c (Proc.devRef .tc main_v3) := W6_of_ne m ρ c main_v3 (by decide)
    _ = W4 m ρ c (Proc.devRef .tc main_v3) := StableHlo.after_of_forall_not_mem (b := Proc.devRef .tc main_v3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v3) := W4_of_ne m ρ c main_v3 (by decide)
    _ = W2 m ρ c (Proc.devRef .tc main_v3) := StableHlo.after_of_forall_not_mem (b := Proc.devRef .tc main_v3) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v3) := StableHlo.after_of_forall_not_mem (b := Proc.devRef .tc main_v3) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem cols_at10 : W10 m ρ c (Proc.devRef .tc main_v6) = W1 m ρ c (Proc.devRef .tc main_v6) :=
  calc W10 m ρ c (Proc.devRef .tc main_v6)
    _ = W9 m ρ c (Proc.devRef .tc main_v6) := W10_of_ne m ρ c main_v6 (by decide)
    _ = W8 m ρ c (Proc.devRef .tc main_v6) := W9_of_ne m ρ c main_v6 (by decide)
    _ = W7 m ρ c (Proc.devRef .tc main_v6) := StableHlo.after_of_forall_not_mem (b := Proc.devRef .tc main_v6) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_v6) := W7_of_ne m ρ c main_v6 (by decide)
    _ = W5 m ρ c (Proc.devRef .tc main_v6) := W6_of_ne m ρ c main_v6 (by decide)
    _ = W4 m ρ c (Proc.devRef .tc main_v6) := StableHlo.after_of_forall_not_mem (b := Proc.devRef .tc main_v6) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v6) := W4_of_ne m ρ c main_v6 (by decide)
    _ = W2 m ρ c (Proc.devRef .tc main_v6) := StableHlo.after_of_forall_not_mem (b := Proc.devRef .tc main_v6) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v6) := StableHlo.after_of_forall_not_mem (b := Proc.devRef .tc main_v6) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem rows_at7 : W7 m ρ c (Proc.devRef .tc main_v3) = W1 m ρ c (Proc.devRef .tc main_v3) :=
  calc W7 m ρ c (Proc.devRef .tc main_v3)
    _ = W6 m ρ c (Proc.devRef .tc main_v3) := W7_of_ne m ρ c main_v3 (by decide)
    _ = W5 m ρ c (Proc.devRef .tc main_v3) := W6_of_ne m ρ c main_v3 (by decide)
    _ = W4 m ρ c (Proc.devRef .tc main_v3) := StableHlo.after_of_forall_not_mem (b := Proc.devRef .tc main_v3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v3) := W4_of_ne m ρ c main_v3 (by decide)
    _ = W2 m ρ c (Proc.devRef .tc main_v3) := StableHlo.after_of_forall_not_mem (b := Proc.devRef .tc main_v3) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v3) := StableHlo.after_of_forall_not_mem (b := Proc.devRef .tc main_v3) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem cols_at7 : W7 m ρ c (Proc.devRef .tc main_v6) = W1 m ρ c (Proc.devRef .tc main_v6) :=
  calc W7 m ρ c (Proc.devRef .tc main_v6)
    _ = W6 m ρ c (Proc.devRef .tc main_v6) := W7_of_ne m ρ c main_v6 (by decide)
    _ = W5 m ρ c (Proc.devRef .tc main_v6) := W6_of_ne m ρ c main_v6 (by decide)
    _ = W4 m ρ c (Proc.devRef .tc main_v6) := StableHlo.after_of_forall_not_mem (b := Proc.devRef .tc main_v6) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v6) := W4_of_ne m ρ c main_v6 (by decide)
    _ = W2 m ρ c (Proc.devRef .tc main_v6) := StableHlo.after_of_forall_not_mem (b := Proc.devRef .tc main_v6) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v6) := StableHlo.after_of_forall_not_mem (b := Proc.devRef .tc main_v6) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem rows_at4 : W4 m ρ c (Proc.devRef .tc main_v3) = W1 m ρ c (Proc.devRef .tc main_v3) :=
  calc W4 m ρ c (Proc.devRef .tc main_v3)
    _ = W3 m ρ c (Proc.devRef .tc main_v3) := W4_of_ne m ρ c main_v3 (by decide)
    _ = W2 m ρ c (Proc.devRef .tc main_v3) := StableHlo.after_of_forall_not_mem (b := Proc.devRef .tc main_v3) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v3) := StableHlo.after_of_forall_not_mem (b := Proc.devRef .tc main_v3) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem cols_at4 : W4 m ρ c (Proc.devRef .tc main_v6) = W1 m ρ c (Proc.devRef .tc main_v6) :=
  calc W4 m ρ c (Proc.devRef .tc main_v6)
    _ = W3 m ρ c (Proc.devRef .tc main_v6) := W4_of_ne m ρ c main_v6 (by decide)
    _ = W2 m ρ c (Proc.devRef .tc main_v6) := StableHlo.after_of_forall_not_mem (b := Proc.devRef .tc main_v6) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v6) := StableHlo.after_of_forall_not_mem (b := Proc.devRef .tc main_v6) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem rows_at2 : W2 m ρ c (Proc.devRef .tc main_v3) = W1 m ρ c (Proc.devRef .tc main_v3) :=
  calc W2 m ρ c (Proc.devRef .tc main_v3)
    _ = W1 m ρ c (Proc.devRef .tc main_v3) := StableHlo.after_of_forall_not_mem (b := Proc.devRef .tc main_v3) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem cols_at2 : W2 m ρ c (Proc.devRef .tc main_v6) = W1 m ρ c (Proc.devRef .tc main_v6) :=
  calc W2 m ρ c (Proc.devRef .tc main_v6)
    _ = W1 m ρ c (Proc.devRef .tc main_v6) := StableHlo.after_of_forall_not_mem (b := Proc.devRef .tc main_v6) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem wts_at10 : W10 m ρ c (Proc.devRef .tc main_v31) = W3 m ρ c (Proc.devRef .tc main_v31) :=
  calc W10 m ρ c (Proc.devRef .tc main_v31)
    _ = W9 m ρ c (Proc.devRef .tc main_v31) := W10_of_ne m ρ c main_v31 (by decide)
    _ = W8 m ρ c (Proc.devRef .tc main_v31) := W9_of_ne m ρ c main_v31 (by decide)
    _ = W7 m ρ c (Proc.devRef .tc main_v31) := StableHlo.after_of_forall_not_mem (b := Proc.devRef .tc main_v31) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_v31) := W7_of_ne m ρ c main_v31 (by decide)
    _ = W5 m ρ c (Proc.devRef .tc main_v31) := W6_of_ne m ρ c main_v31 (by decide)
    _ = W4 m ρ c (Proc.devRef .tc main_v31) := StableHlo.after_of_forall_not_mem (b := Proc.devRef .tc main_v31) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v31) := W4_of_ne m ρ c main_v31 (by decide)

theorem wts_at7 : W7 m ρ c (Proc.devRef .tc main_v31) = W3 m ρ c (Proc.devRef .tc main_v31) :=
  calc W7 m ρ c (Proc.devRef .tc main_v31)
    _ = W6 m ρ c (Proc.devRef .tc main_v31) := W7_of_ne m ρ c main_v31 (by decide)
    _ = W5 m ρ c (Proc.devRef .tc main_v31) := W6_of_ne m ρ c main_v31 (by decide)
    _ = W4 m ρ c (Proc.devRef .tc main_v31) := StableHlo.after_of_forall_not_mem (b := Proc.devRef .tc main_v31) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v31) := W4_of_ne m ρ c main_v31 (by decide)

theorem wts_at4 : W4 m ρ c (Proc.devRef .tc main_v31) = W3 m ρ c (Proc.devRef .tc main_v31) :=
  calc W4 m ρ c (Proc.devRef .tc main_v31)
    _ = W3 m ρ c (Proc.devRef .tc main_v31) := W4_of_ne m ρ c main_v31 (by decide)

theorem x_at3 : W3 m ρ c (Proc.devRef .tc main_arg0) = m ((c : Thread nD τ).loc main_arg0) :=
  calc W3 m ρ c (Proc.devRef .tc main_arg0)
    _ = W2 m ρ c (Proc.devRef .tc main_arg0) := StableHlo.after_of_forall_not_mem (b := Proc.devRef .tc main_arg0) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := StableHlo.after_of_forall_not_mem (b := Proc.devRef .tc main_arg0) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem w1_at3 : W3 m ρ c (Proc.devRef .tc main_arg2) = m ((c : Thread nD τ).loc main_arg2) :=
  calc W3 m ρ c (Proc.devRef .tc main_arg2)
    _ = W2 m ρ c (Proc.devRef .tc main_arg2) := StableHlo.after_of_forall_not_mem (b := Proc.devRef .tc main_arg2) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := StableHlo.after_of_forall_not_mem (b := Proc.devRef .tc main_arg2) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem b1_at4 : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_forall_not_mem (b := Proc.devRef .tc main_arg3) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg3) := StableHlo.after_of_forall_not_mem (b := Proc.devRef .tc main_arg3) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

theorem w2_at6 : W6 m ρ c (Proc.devRef .tc main_arg4) = m ((c : Thread nD τ).loc main_arg4) :=
  calc W6 m ρ c (Proc.devRef .tc main_arg4)
    _ = W5 m ρ c (Proc.devRef .tc main_arg4) := W6_of_ne m ρ c main_arg4 (by decide)
    _ = W4 m ρ c (Proc.devRef .tc main_arg4) := StableHlo.after_of_forall_not_mem (b := Proc.devRef .tc main_arg4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg4) := W4_of_ne m ρ c main_arg4 (by decide)
    _ = W2 m ρ c (Proc.devRef .tc main_arg4) := StableHlo.after_of_forall_not_mem (b := Proc.devRef .tc main_arg4) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg4) := StableHlo.after_of_forall_not_mem (b := Proc.devRef .tc main_arg4) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

theorem b2_at7 : W7 m ρ c (Proc.devRef .tc main_arg5) = m ((c : Thread nD τ).loc main_arg5) :=
  calc W7 m ρ c (Proc.devRef .tc main_arg5)
    _ = W6 m ρ c (Proc.devRef .tc main_arg5) := W7_of_ne m ρ c main_arg5 (by decide)
    _ = W5 m ρ c (Proc.devRef .tc main_arg5) := W6_of_ne m ρ c main_arg5 (by decide)
    _ = W4 m ρ c (Proc.devRef .tc main_arg5) := StableHlo.after_of_forall_not_mem (b := Proc.devRef .tc main_arg5) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg5) := W4_of_ne m ρ c main_arg5 (by decide)
    _ = W2 m ρ c (Proc.devRef .tc main_arg5) := StableHlo.after_of_forall_not_mem (b := Proc.devRef .tc main_arg5) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg5) := StableHlo.after_of_forall_not_mem (b := Proc.devRef .tc main_arg5) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

theorem w3_at9 : W9 m ρ c (Proc.devRef .tc main_arg6) = m ((c : Thread nD τ).loc main_arg6) :=
  calc W9 m ρ c (Proc.devRef .tc main_arg6)
    _ = W8 m ρ c (Proc.devRef .tc main_arg6) := W9_of_ne m ρ c main_arg6 (by decide)
    _ = W7 m ρ c (Proc.devRef .tc main_arg6) := StableHlo.after_of_forall_not_mem (b := Proc.devRef .tc main_arg6) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg6) := W7_of_ne m ρ c main_arg6 (by decide)
    _ = W5 m ρ c (Proc.devRef .tc main_arg6) := W6_of_ne m ρ c main_arg6 (by decide)
    _ = W4 m ρ c (Proc.devRef .tc main_arg6) := StableHlo.after_of_forall_not_mem (b := Proc.devRef .tc main_arg6) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg6) := W4_of_ne m ρ c main_arg6 (by decide)
    _ = W2 m ρ c (Proc.devRef .tc main_arg6) := StableHlo.after_of_forall_not_mem (b := Proc.devRef .tc main_arg6) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg6) := StableHlo.after_of_forall_not_mem (b := Proc.devRef .tc main_arg6) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl

theorem b3_at10 : W10 m ρ c (Proc.devRef .tc main_arg7) = m ((c : Thread nD τ).loc main_arg7) :=
  calc W10 m ρ c (Proc.devRef .tc main_arg7)
    _ = W9 m ρ c (Proc.devRef .tc main_arg7) := W10_of_ne m ρ c main_arg7 (by decide)
    _ = W8 m ρ c (Proc.devRef .tc main_arg7) := W9_of_ne m ρ c main_arg7 (by decide)
    _ = W7 m ρ c (Proc.devRef .tc main_arg7) := StableHlo.after_of_forall_not_mem (b := Proc.devRef .tc main_arg7) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg7) := W7_of_ne m ρ c main_arg7 (by decide)
    _ = W5 m ρ c (Proc.devRef .tc main_arg7) := W6_of_ne m ρ c main_arg7 (by decide)
    _ = W4 m ρ c (Proc.devRef .tc main_arg7) := StableHlo.after_of_forall_not_mem (b := Proc.devRef .tc main_arg7) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg7) := W4_of_ne m ρ c main_arg7 (by decide)
    _ = W2 m ρ c (Proc.devRef .tc main_arg7) := StableHlo.after_of_forall_not_mem (b := Proc.devRef .tc main_arg7) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg7) := StableHlo.after_of_forall_not_mem (b := Proc.devRef .tc main_arg7) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg7) := StableHlo.after_of_forall_not_mem (b := Proc.devRef .tc main_arg7) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg7) := rfl

/-! ## The chain -/

theorem rows_at1 : W1 m ρ c (Proc.devRef .tc main_v3) = rowIx (F := Ideal) (m ((c : Thread nD τ).loc main_arg1)) := idx_rows (W0 m ρ c)
theorem cols_at1 : W1 m ρ c (Proc.devRef .tc main_v6) = colIx (F := Ideal) (m ((c : Thread nD τ).loc main_arg1)) := idx_cols (W0 m ρ c)

/-- The selected inverse square roots, after the second stretch. -/
theorem scale_at2 : W2 m ρ c (Proc.devRef .tc main_v16) = nodeScale (m ((c : Thread nD τ).loc main_arg1)) := by
  refine (sel_val (W1 m ρ c)).trans ?_
  show selOr (after hostOps0 (W0 m ρ c) (Proc.devRef .tc main_v12)) (after hostOps0 (W0 m ρ c) (Proc.devRef .tc main_v15)) (after hostOps0 (W0 m ρ c) (Proc.devRef .tc main_cst_3)) = _
  rw [idx_pos, idx_inv, idx_zero]; rfl

/-- The edge weights, after the third stretch. -/
theorem wts_at3 : W3 m ρ c (Proc.devRef .tc main_v31) = weightsOf (m ((c : Thread nD τ).loc main_arg1)) := by
  refine (weights (W2 m ρ c)).trans ?_
  rw [rows_at2 m ρ c, cols_at2 m ρ c, scale_at2 m ρ c, rows_at1 m ρ c, cols_at1 m ρ c]; rfl

/-- Region 0 leaves the first dense transform. -/
theorem dense1 : W4 m ρ c (Proc.devRef .tc main_v32) = dense (M := 50000) (K := 512) (N := 128) (m ((c : Thread nD τ).loc main_arg0)) (m ((c : Thread nD τ).loc main_arg2)) := by
  refine (W4_arr m ρ c 2).trans ((Cert.Hand.Reg0.final (V3 m ρ) c).trans ?_)
  show dense (W3 m ρ c (Proc.devRef .tc main_arg0)) (W3 m ρ c (Proc.devRef .tc main_arg2)) = _
  rw [x_at3 m ρ c, w1_at3 m ρ c]

theorem aggr1 : W5 m ρ c (Proc.devRef .tc main_v45)
    = agg128 (rowIx (F := Ideal) (m ((c : Thread nD τ).loc main_arg1))) (colIx (F := Ideal) (m ((c : Thread nD τ).loc main_arg1))) (weightsOf (m ((c : Thread nD τ).loc main_arg1))) (dense (M := 50000) (K := 512) (N := 128) (m ((c : Thread nD τ).loc main_arg0)) (m ((c : Thread nD τ).loc main_arg2))) := by
  refine (agg1 (W4 m ρ c)).trans ?_
  rw [rows_at4 m ρ c, cols_at4 m ρ c, wts_at4 m ρ c, rows_at1 m ρ c, cols_at1 m ρ c, wts_at3 m ρ c, dense1 m ρ c]

theorem brow1 : W5 m ρ c (Proc.devRef .tc main_v46) = biasRow128 (m ((c : Thread nD τ).loc main_arg3)) := by
  refine (bias1 (W4 m ρ c)).trans ?_
  rw [b1_at4 m ρ c]

/-- Region 1 leaves the first layer's activations. -/
theorem act1 : W6 m ρ c (Proc.devRef .tc main_v47) = layer1 (m ((c : Thread nD τ).loc main_arg0)) (m ((c : Thread nD τ).loc main_arg1)) (m ((c : Thread nD τ).loc main_arg2)) (m ((c : Thread nD τ).loc main_arg3)) := by
  refine (W6_arr m ρ c 2).trans ((Cert.Hand.Reg1.final (V5 m ρ) c).trans ?_)
  show biasRelu (W5 m ρ c (Proc.devRef .tc main_v45)) (W5 m ρ c (Proc.devRef .tc main_v46)) = _
  rw [aggr1 m ρ c, brow1 m ρ c]; rfl

/-- Region 2 leaves the second dense transform. -/
theorem dense2 : W7 m ρ c (Proc.devRef .tc main_v48) = dense (M := 50000) (K := 128) (N := 128) (layer1 (m ((c : Thread nD τ).loc main_arg0)) (m ((c : Thread nD τ).loc main_arg1)) (m ((c : Thread nD τ).loc main_arg2)) (m ((c : Thread nD τ).loc main_arg3))) (m ((c : Thread nD τ).loc main_arg4)) := by
  refine (W7_arr m ρ c 2).trans ((Cert.Hand.Reg2.final (V6 m ρ) c).trans ?_)
  show dense (W6 m ρ c (Proc.devRef .tc main_v47)) (W6 m ρ c (Proc.devRef .tc main_arg4)) = _
  rw [act1 m ρ c, w2_at6 m ρ c]

theorem aggr2 : W8 m ρ c (Proc.devRef .tc main_v61)
    = agg128 (rowIx (F := Ideal) (m ((c : Thread nD τ).loc main_arg1))) (colIx (F := Ideal) (m ((c : Thread nD τ).loc main_arg1))) (weightsOf (m ((c : Thread nD τ).loc main_arg1))) (dense (M := 50000) (K := 128) (N := 128) (layer1 (m ((c : Thread nD τ).loc main_arg0)) (m ((c : Thread nD τ).loc main_arg1)) (m ((c : Thread nD τ).loc main_arg2)) (m ((c : Thread nD τ).loc main_arg3))) (m ((c : Thread nD τ).loc main_arg4))) := by
  refine (agg2 (W7 m ρ c)).trans ?_
  rw [rows_at7 m ρ c, cols_at7 m ρ c, wts_at7 m ρ c, rows_at1 m ρ c, cols_at1 m ρ c, wts_at3 m ρ c, dense2 m ρ c]

theorem brow2 : W8 m ρ c (Proc.devRef .tc main_v62) = biasRow128 (m ((c : Thread nD τ).loc main_arg5)) := by
  refine (bias2 (W7 m ρ c)).trans ?_
  rw [b2_at7 m ρ c]

/-- Region 3 leaves the second layer's activations. -/
theorem act2 : W9 m ρ c (Proc.devRef .tc main_v63) = layer2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W9_arr m ρ c 2).trans ((Cert.Hand.Reg3.final (V8 m ρ) c).trans ?_)
  show biasRelu (W8 m ρ c (Proc.devRef .tc main_v61)) (W8 m ρ c (Proc.devRef .tc main_v62)) = _
  rw [aggr2 m ρ c, brow2 m ρ c]; rfl

/-- Region 4 leaves the third dense transform. -/
theorem dense3 : W10 m ρ c (Proc.devRef .tc main_v64) = dense (M := 50000) (K := 128) (N := 40) (layer2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (m ((c : Thread nD τ).loc main_arg6)) := by
  refine (W10_arr m ρ c 2).trans ((Cert.Hand.Reg4.final (V9 m ρ) c).trans ?_)
  show dense (W9 m ρ c (Proc.devRef .tc main_v63)) (W9 m ρ c (Proc.devRef .tc main_arg6)) = _
  rw [act2 m ρ c, w3_at9 m ρ c]

theorem aggr3 : W11 m ρ c (Proc.devRef .tc main_v77)
    = agg40 (rowIx (F := Ideal) (m ((c : Thread nD τ).loc main_arg1))) (colIx (F := Ideal) (m ((c : Thread nD τ).loc main_arg1))) (weightsOf (m ((c : Thread nD τ).loc main_arg1))) (dense (M := 50000) (K := 128) (N := 40) (layer2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (m ((c : Thread nD τ).loc main_arg6))) := by
  refine (agg3 (W10 m ρ c)).trans ?_
  rw [rows_at10 m ρ c, cols_at10 m ρ c, wts_at10 m ρ c, rows_at1 m ρ c, cols_at1 m ρ c, wts_at3 m ρ c, dense3 m ρ c]

theorem brow3 : W11 m ρ c (Proc.devRef .tc main_v78) = biasRow40 (m ((c : Thread nD τ).loc main_arg7)) := by
  refine (bias3 (W10 m ρ c)).trans ?_
  rw [b3_at10 m ρ c]

/-- Region 5 leaves the network's result: the result buffer at the last boundary. -/
theorem result_at12 : W12 m ρ c (Proc.devRef .tc main_v79) = net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W12_arr m ρ c 2).trans ((Cert.Hand.Reg5.final (V11 m ρ) c).trans ?_)
  show biasLogSoftmax (W11 m ρ c (Proc.devRef .tc main_v77)) (W11 m ρ c (Proc.devRef .tc main_v78)) = _
  rw [aggr3 m ρ c, brow3 m ρ c]; rfl

end Cert.KernelIdeal.Hand

end
-- ==== Proof.RefOps.lean ====
/-
  The reference program's @main as the list of its host operations, in program order, cut where a
  stage is complete: the index lists with self-loops and the degrees, the selected inverse square roots, the edge
  weights, then each layer (dense transform, gather, weight, scatter-add, bias, activation; the last activation a stretch of its own). Run from any memory, every
  weakly fair execution ends with each buffer at the fold of the operations' results over the launch contents; the fold
  over the whole list is the fold over the seven stretches in turn.
-/
import proofs.«165259_j3453153706770_1_alg».proof.Proof.Gen.ReferenceIdeal
import Idealize.ShloMosaic.Lib.StableHlo.Run
import Idealize.ShloMosaic.Lib.Pipeline.Frame

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Rows and columns with self-loops appended, the degrees, whether each is positive, and its inverse square root. -/
abbrev opsIdx : List (HloOp τ sig (Elt F)) :=
  [ nullary main_v0 (iotaInDim S50000 32 0),
    unary main_arg1 main_v1 ((extractStridedSlice S1x800000 ![0, 0] · slices_S2x800000_S1x800000_0_0) : (⟨S2x800000, .i32⟩ : BufTy).Contents (Elt F) → (⟨S1x800000, .i32⟩ : BufTy).Contents (Elt F)),
    reshape main_v1 main_v2 rfl shapeCasts_S1x800000_S800000,
    binary main_v2 main_v0 main_v3 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    unary main_arg1 main_v4 ((extractStridedSlice S1x800000 ![1, 0] · slices_S2x800000_S1x800000_1_0) : (⟨S2x800000, .i32⟩ : BufTy).Contents (Elt F) → (⟨S1x800000, .i32⟩ : BufTy).Contents (Elt F)),
    reshape main_v4 main_v5 rfl shapeCasts_S1x800000_S800000,
    binary main_v5 main_v0 main_v6 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    nullary main_cst (constant S_ .f32 0x3F800000#32),
    unary main_cst main_v7 (broadcastInDim S850000 ![] bcast_S_S850000 : (⟨S_, .f32⟩ : BufTy).Contents (Elt F) → (⟨S850000, .f32⟩ : BufTy).Contents (Elt F)),
    nullary main_cst_0 (constant S_ .f32 0x00000000#32),
    unary main_cst_0 main_v8 (broadcastInDim S50000 ![] bcast_S_S50000 : (⟨S_, .f32⟩ : BufTy).Contents (Elt F) → (⟨S50000, .f32⟩ : BufTy).Contents (Elt F)),
    unary main_v3 main_v9 (broadcastInDim S850000x1 ![0] bcast_S850000_S850000x1_0 : (⟨S850000, .i32⟩ : BufTy).Contents (Elt F) → (⟨S850000x1, .i32⟩ : BufTy).Contents (Elt F)),
    ternary main_v8 main_v9 main_v7 main_v10 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    nullary main_cst_1 (constant S_ .f32 0x00000000#32),
    unary main_cst_1 main_v11 (broadcastInDim S50000 ![] bcast_S_S50000 : (⟨S_, .f32⟩ : BufTy).Contents (Elt F) → (⟨S50000, .f32⟩ : BufTy).Contents (Elt F)),
    binary main_v10 main_v11 main_v12 (cmpf .ogt : (⟨S50000, .f32⟩ : BufTy).Contents (Elt F) → (⟨S50000, .f32⟩ : BufTy).Contents (Elt F) → (⟨S50000, .i1⟩ : BufTy).Contents (Elt F)),
    unary main_v10 main_v13 (Host.sqrt : (⟨S50000, .f32⟩ : BufTy).Contents (Elt F) → (⟨S50000, .f32⟩ : BufTy).Contents (Elt F)),
    nullary main_cst_2 (constant S_ .f32 0x3F800000#32),
    unary main_cst_2 main_v14 (broadcastInDim S50000 ![] bcast_S_S50000 : (⟨S_, .f32⟩ : BufTy).Contents (Elt F) → (⟨S50000, .f32⟩ : BufTy).Contents (Elt F)),
    binary main_v14 main_v13 main_v15 (Host.divf : (⟨S50000, .f32⟩ : BufTy).Contents (Elt F) → (⟨S50000, .f32⟩ : BufTy).Contents (Elt F) → (⟨S50000, .f32⟩ : BufTy).Contents (Elt F)),
    nullary main_cst_3 (constant S_ .f32 0x00000000#32) ]

/-- The inverse square root where the degree is positive, zero elsewhere. -/
abbrev opsSel : List (HloOp τ sig (Elt F)) :=
  [ TRef.unary (TRef.of (T := ⟨S_, .f32⟩) main_cst_3) (TRef.of (T := ⟨S_, .f32⟩) main_call0_v0) id,
    TRef.unary (TRef.of (T := ⟨S_, .f32⟩) main_call0_v0) (TRef.of (T := ⟨S50000, .f32⟩) main_call0_v1) (broadcastInDim S50000 ![] bcast_S_S50000),
    TRef.ternary (TRef.of (T := ⟨S50000, .i1⟩) main_v12) (TRef.of (T := ⟨S50000, .f32⟩) main_v15) (TRef.of (T := ⟨S50000, .f32⟩) main_call0_v1) (TRef.of (T := ⟨S50000, .f32⟩) main_v16) select ]

/-- The edge weights: that value gathered at the row and at the column, multiplied. -/
abbrev opsW : List (HloOp τ sig (Elt F)) :=
  [ nullary main_c (constantI S_ 32 0#32),
    unary main_c main_v17 (broadcastInDim S850000 ![] bcast_S_S850000 : (⟨S_, .i32⟩ : BufTy).Contents (Elt F) → (⟨S850000, .i32⟩ : BufTy).Contents (Elt F)),
    binary main_v3 main_v17 main_v18 (cmpi .slt : (⟨S850000, .i32⟩ : BufTy).Contents (Elt F) → (⟨S850000, .i32⟩ : BufTy).Contents (Elt F) → (⟨S850000, .i1⟩ : BufTy).Contents (Elt F)),
    nullary main_c_4 (constantI S_ 32 50000#32),
    unary main_c_4 main_v19 (broadcastInDim S850000 ![] bcast_S_S850000 : (⟨S_, .i32⟩ : BufTy).Contents (Elt F) → (⟨S850000, .i32⟩ : BufTy).Contents (Elt F)),
    binary main_v3 main_v19 main_v20 (addi : (⟨S850000, .i32⟩ : BufTy).Contents (Elt F) → (⟨S850000, .i32⟩ : BufTy).Contents (Elt F) → (⟨S850000, .i32⟩ : BufTy).Contents (Elt F)),
    ternary main_v18 main_v20 main_v3 main_v21 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v21 main_v22 (broadcastInDim S850000x1 ![0] bcast_S850000_S850000x1_0 : (⟨S850000, .i32⟩ : BufTy).Contents (Elt F) → (⟨S850000x1, .i32⟩ : BufTy).Contents (Elt F)),
    binary main_v16 main_v22 main_v23 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    nullary main_c_5 (constantI S_ 32 0#32),
    unary main_c_5 main_v24 (broadcastInDim S850000 ![] bcast_S_S850000 : (⟨S_, .i32⟩ : BufTy).Contents (Elt F) → (⟨S850000, .i32⟩ : BufTy).Contents (Elt F)),
    binary main_v6 main_v24 main_v25 (cmpi .slt : (⟨S850000, .i32⟩ : BufTy).Contents (Elt F) → (⟨S850000, .i32⟩ : BufTy).Contents (Elt F) → (⟨S850000, .i1⟩ : BufTy).Contents (Elt F)),
    nullary main_c_6 (constantI S_ 32 50000#32),
    unary main_c_6 main_v26 (broadcastInDim S850000 ![] bcast_S_S850000 : (⟨S_, .i32⟩ : BufTy).Contents (Elt F) → (⟨S850000, .i32⟩ : BufTy).Contents (Elt F)),
    binary main_v6 main_v26 main_v27 (addi : (⟨S850000, .i32⟩ : BufTy).Contents (Elt F) → (⟨S850000, .i32⟩ : BufTy).Contents (Elt F) → (⟨S850000, .i32⟩ : BufTy).Contents (Elt F)),
    ternary main_v25 main_v27 main_v6 main_v28 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v28 main_v29 (broadcastInDim S850000x1 ![0] bcast_S850000_S850000x1_0 : (⟨S850000, .i32⟩ : BufTy).Contents (Elt F) → (⟨S850000x1, .i32⟩ : BufTy).Contents (Elt F)),
    binary main_v16 main_v29 main_v30 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v23 main_v30 main_v31 (mulf : (⟨S850000, .f32⟩ : BufTy).Contents (Elt F) → (⟨S850000, .f32⟩ : BufTy).Contents (Elt F) → (⟨S850000, .f32⟩ : BufTy).Contents (Elt F)) ]

/-- Layer one: dense transform, gather by column, weight, scatter-add by row, bias, rectifier. -/
abbrev opsL1 : List (HloOp τ sig (Elt F)) :=
  [ binary main_arg0 main_arg2 main_v32 ((fun l r => Host.dotGeneral dot_S50000x512_S512x128_S50000x128_1_0_0_1_n_n none l r) : (⟨S50000x512, .f32⟩ : BufTy).Contents (Elt F) → (⟨S512x128, .f32⟩ : BufTy).Contents (Elt F) → (⟨S50000x128, .f32⟩ : BufTy).Contents (Elt F)),
    nullary main_c_7 (constantI S_ 32 0#32),
    unary main_c_7 main_v33 (broadcastInDim S850000 ![] bcast_S_S850000 : (⟨S_, .i32⟩ : BufTy).Contents (Elt F) → (⟨S850000, .i32⟩ : BufTy).Contents (Elt F)),
    binary main_v6 main_v33 main_v34 (cmpi .slt : (⟨S850000, .i32⟩ : BufTy).Contents (Elt F) → (⟨S850000, .i32⟩ : BufTy).Contents (Elt F) → (⟨S850000, .i1⟩ : BufTy).Contents (Elt F)),
    nullary main_c_8 (constantI S_ 32 50000#32),
    unary main_c_8 main_v35 (broadcastInDim S850000 ![] bcast_S_S850000 : (⟨S_, .i32⟩ : BufTy).Contents (Elt F) → (⟨S850000, .i32⟩ : BufTy).Contents (Elt F)),
    binary main_v6 main_v35 main_v36 (addi : (⟨S850000, .i32⟩ : BufTy).Contents (Elt F) → (⟨S850000, .i32⟩ : BufTy).Contents (Elt F) → (⟨S850000, .i32⟩ : BufTy).Contents (Elt F)),
    ternary main_v34 main_v36 main_v6 main_v37 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v37 main_v38 (broadcastInDim S850000x1 ![0] bcast_S850000_S850000x1_0 : (⟨S850000, .i32⟩ : BufTy).Contents (Elt F) → (⟨S850000x1, .i32⟩ : BufTy).Contents (Elt F)),
    binary main_v32 main_v38 main_v39 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    unary main_v31 main_v40 (broadcastInDim S850000x1 ![0] bcast_S850000_S850000x1_0 : (⟨S850000, .f32⟩ : BufTy).Contents (Elt F) → (⟨S850000x1, .f32⟩ : BufTy).Contents (Elt F)),
    unary main_v40 main_v41 (broadcastInDim S850000x128 ![0, 1] bcast_S850000x1_S850000x128_0_1 : (⟨S850000x1, .f32⟩ : BufTy).Contents (Elt F) → (⟨S850000x128, .f32⟩ : BufTy).Contents (Elt F)),
    binary main_v39 main_v41 main_v42 (mulf : (⟨S850000x128, .f32⟩ : BufTy).Contents (Elt F) → (⟨S850000x128, .f32⟩ : BufTy).Contents (Elt F) → (⟨S850000x128, .f32⟩ : BufTy).Contents (Elt F)),
    nullary main_cst_9 (constant S_ .f32 0x00000000#32),
    unary main_cst_9 main_v43 (broadcastInDim S50000x128 ![] bcast_S_S50000x128 : (⟨S_, .f32⟩ : BufTy).Contents (Elt F) → (⟨S50000x128, .f32⟩ : BufTy).Contents (Elt F)),
    unary main_v3 main_v44 (broadcastInDim S850000x1 ![0] bcast_S850000_S850000x1_0 : (⟨S850000, .i32⟩ : BufTy).Contents (Elt F) → (⟨S850000x1, .i32⟩ : BufTy).Contents (Elt F)),
    ternary main_v43 main_v44 main_v42 main_v45 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    unary main_arg3 main_v46 (broadcastInDim S1x128 ![1] bcast_S128_S1x128_1 : (⟨S128, .f32⟩ : BufTy).Contents (Elt F) → (⟨S1x128, .f32⟩ : BufTy).Contents (Elt F)),
    unary main_v46 main_v47 (broadcastInDim S50000x128 ![0, 1] bcast_S1x128_S50000x128_0_1 : (⟨S1x128, .f32⟩ : BufTy).Contents (Elt F) → (⟨S50000x128, .f32⟩ : BufTy).Contents (Elt F)),
    binary main_v45 main_v47 main_v48 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S50000x128, .f32⟩) main_call1_v0) (broadcastInDim S50000x128 ![] bcast_S_S50000x128),
    TRef.binary (TRef.of (T := ⟨S50000x128, .f32⟩) main_v48) (TRef.of (T := ⟨S50000x128, .f32⟩) main_call1_v0) (TRef.of (T := ⟨S50000x128, .f32⟩) main_v49) maximumf ]

/-- Layer two: the same with the second weights. -/
abbrev opsL2 : List (HloOp τ sig (Elt F)) :=
  [ binary main_v49 main_arg4 main_v50 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_c_10 (constantI S_ 32 0#32),
    unary main_c_10 main_v51 (broadcastInDim S850000 ![] bcast_S_S850000 : (⟨S_, .i32⟩ : BufTy).Contents (Elt F) → (⟨S850000, .i32⟩ : BufTy).Contents (Elt F)),
    binary main_v6 main_v51 main_v52 (cmpi .slt : (⟨S850000, .i32⟩ : BufTy).Contents (Elt F) → (⟨S850000, .i32⟩ : BufTy).Contents (Elt F) → (⟨S850000, .i1⟩ : BufTy).Contents (Elt F)),
    nullary main_c_11 (constantI S_ 32 50000#32),
    unary main_c_11 main_v53 (broadcastInDim S850000 ![] bcast_S_S850000 : (⟨S_, .i32⟩ : BufTy).Contents (Elt F) → (⟨S850000, .i32⟩ : BufTy).Contents (Elt F)),
    binary main_v6 main_v53 main_v54 (addi : (⟨S850000, .i32⟩ : BufTy).Contents (Elt F) → (⟨S850000, .i32⟩ : BufTy).Contents (Elt F) → (⟨S850000, .i32⟩ : BufTy).Contents (Elt F)),
    ternary main_v52 main_v54 main_v6 main_v55 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v55 main_v56 (broadcastInDim S850000x1 ![0] bcast_S850000_S850000x1_0 : (⟨S850000, .i32⟩ : BufTy).Contents (Elt F) → (⟨S850000x1, .i32⟩ : BufTy).Contents (Elt F)),
    binary main_v50 main_v56 main_v57 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    unary main_v31 main_v58 (broadcastInDim S850000x1 ![0] bcast_S850000_S850000x1_0 : (⟨S850000, .f32⟩ : BufTy).Contents (Elt F) → (⟨S850000x1, .f32⟩ : BufTy).Contents (Elt F)),
    unary main_v58 main_v59 (broadcastInDim S850000x128 ![0, 1] bcast_S850000x1_S850000x128_0_1 : (⟨S850000x1, .f32⟩ : BufTy).Contents (Elt F) → (⟨S850000x128, .f32⟩ : BufTy).Contents (Elt F)),
    binary main_v57 main_v59 main_v60 (mulf : (⟨S850000x128, .f32⟩ : BufTy).Contents (Elt F) → (⟨S850000x128, .f32⟩ : BufTy).Contents (Elt F) → (⟨S850000x128, .f32⟩ : BufTy).Contents (Elt F)),
    nullary main_cst_12 (constant S_ .f32 0x00000000#32),
    unary main_cst_12 main_v61 (broadcastInDim S50000x128 ![] bcast_S_S50000x128 : (⟨S_, .f32⟩ : BufTy).Contents (Elt F) → (⟨S50000x128, .f32⟩ : BufTy).Contents (Elt F)),
    unary main_v3 main_v62 (broadcastInDim S850000x1 ![0] bcast_S850000_S850000x1_0 : (⟨S850000, .i32⟩ : BufTy).Contents (Elt F) → (⟨S850000x1, .i32⟩ : BufTy).Contents (Elt F)),
    ternary main_v61 main_v62 main_v60 main_v63 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    unary main_arg5 main_v64 (broadcastInDim S1x128 ![1] bcast_S128_S1x128_1 : (⟨S128, .f32⟩ : BufTy).Contents (Elt F) → (⟨S1x128, .f32⟩ : BufTy).Contents (Elt F)),
    unary main_v64 main_v65 (broadcastInDim S50000x128 ![0, 1] bcast_S1x128_S50000x128_0_1 : (⟨S1x128, .f32⟩ : BufTy).Contents (Elt F) → (⟨S50000x128, .f32⟩ : BufTy).Contents (Elt F)),
    binary main_v63 main_v65 main_v66 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S50000x128, .f32⟩) main_call2_v0) (broadcastInDim S50000x128 ![] bcast_S_S50000x128),
    TRef.binary (TRef.of (T := ⟨S50000x128, .f32⟩) main_v66) (TRef.of (T := ⟨S50000x128, .f32⟩) main_call2_v0) (TRef.of (T := ⟨S50000x128, .f32⟩) main_v67) maximumf ]

/-- Layer three up to the bias: the same with the third weights. -/
abbrev opsL3 : List (HloOp τ sig (Elt F)) :=
  [ binary main_v67 main_arg6 main_v68 ((fun l r => Host.dotGeneral dot_S50000x128_S128x40_S50000x40_1_0_0_1_n_n none l r) : (⟨S50000x128, .f32⟩ : BufTy).Contents (Elt F) → (⟨S128x40, .f32⟩ : BufTy).Contents (Elt F) → (⟨S50000x40, .f32⟩ : BufTy).Contents (Elt F)),
    nullary main_c_13 (constantI S_ 32 0#32),
    unary main_c_13 main_v69 (broadcastInDim S850000 ![] bcast_S_S850000 : (⟨S_, .i32⟩ : BufTy).Contents (Elt F) → (⟨S850000, .i32⟩ : BufTy).Contents (Elt F)),
    binary main_v6 main_v69 main_v70 (cmpi .slt : (⟨S850000, .i32⟩ : BufTy).Contents (Elt F) → (⟨S850000, .i32⟩ : BufTy).Contents (Elt F) → (⟨S850000, .i1⟩ : BufTy).Contents (Elt F)),
    nullary main_c_14 (constantI S_ 32 50000#32),
    unary main_c_14 main_v71 (broadcastInDim S850000 ![] bcast_S_S850000 : (⟨S_, .i32⟩ : BufTy).Contents (Elt F) → (⟨S850000, .i32⟩ : BufTy).Contents (Elt F)),
    binary main_v6 main_v71 main_v72 (addi : (⟨S850000, .i32⟩ : BufTy).Contents (Elt F) → (⟨S850000, .i32⟩ : BufTy).Contents (Elt F) → (⟨S850000, .i32⟩ : BufTy).Contents (Elt F)),
    ternary main_v70 main_v72 main_v6 main_v73 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v73 main_v74 (broadcastInDim S850000x1 ![0] bcast_S850000_S850000x1_0 : (⟨S850000, .i32⟩ : BufTy).Contents (Elt F) → (⟨S850000x1, .i32⟩ : BufTy).Contents (Elt F)),
    binary main_v68 main_v74 main_v75 ((fun x i => Host.gather gather_S50000x40_S850000x1_S850000x40_1_0_n_n_0_1_140 x i) : (⟨S50000x40, .f32⟩ : BufTy).Contents (Elt F) → (⟨S850000x1, .i32⟩ : BufTy).Contents (Elt F) → (⟨S850000x40, .f32⟩ : BufTy).Contents (Elt F)),
    unary main_v31 main_v76 (broadcastInDim S850000x1 ![0] bcast_S850000_S850000x1_0 : (⟨S850000, .f32⟩ : BufTy).Contents (Elt F) → (⟨S850000x1, .f32⟩ : BufTy).Contents (Elt F)),
    unary main_v76 main_v77 (broadcastInDim S850000x40 ![0, 1] bcast_S850000x1_S850000x40_0_1 : (⟨S850000x1, .f32⟩ : BufTy).Contents (Elt F) → (⟨S850000x40, .f32⟩ : BufTy).Contents (Elt F)),
    binary main_v75 main_v77 main_v78 (mulf : (⟨S850000x40, .f32⟩ : BufTy).Contents (Elt F) → (⟨S850000x40, .f32⟩ : BufTy).Contents (Elt F) → (⟨S850000x40, .f32⟩ : BufTy).Contents (Elt F)),
    nullary main_cst_15 (constant S_ .f32 0x00000000#32),
    unary main_cst_15 main_v79 (broadcastInDim S50000x40 ![] bcast_S_S50000x40 : (⟨S_, .f32⟩ : BufTy).Contents (Elt F) → (⟨S50000x40, .f32⟩ : BufTy).Contents (Elt F)),
    unary main_v3 main_v80 (broadcastInDim S850000x1 ![0] bcast_S850000_S850000x1_0 : (⟨S850000, .i32⟩ : BufTy).Contents (Elt F) → (⟨S850000x1, .i32⟩ : BufTy).Contents (Elt F)),
    ternary main_v79 main_v80 main_v78 main_v81 ((fun x i u => Host.scatterAdd scatter_S50000x40_S850000x1_S850000x40_1_0_0_1 x i u) : (⟨S50000x40, .f32⟩ : BufTy).Contents (Elt F) → (⟨S850000x1, .i32⟩ : BufTy).Contents (Elt F) → (⟨S850000x40, .f32⟩ : BufTy).Contents (Elt F) → (⟨S50000x40, .f32⟩ : BufTy).Contents (Elt F)),
    unary main_arg7 main_v82 (broadcastInDim S1x40 ![1] bcast_S40_S1x40_1 : (⟨S40, .f32⟩ : BufTy).Contents (Elt F) → (⟨S1x40, .f32⟩ : BufTy).Contents (Elt F)),
    unary main_v82 main_v83 (broadcastInDim S50000x40 ![0, 1] bcast_S1x40_S50000x40_0_1 : (⟨S1x40, .f32⟩ : BufTy).Contents (Elt F) → (⟨S50000x40, .f32⟩ : BufTy).Contents (Elt F)),
    binary main_v81 main_v83 main_v84 (addf : (⟨S50000x40, .f32⟩ : BufTy).Contents (Elt F) → (⟨S50000x40, .f32⟩ : BufTy).Contents (Elt F) → (⟨S50000x40, .f32⟩ : BufTy).Contents (Elt F)) ]

/-- The row-wise log-softmax of the biased third layer. -/
abbrev opsLS : List (HloOp τ sig (Elt F)) :=
  [ TRef.nullary (TRef.of (T := ⟨S_, .f32⟩) main_call3_cst) (constant S_ .f32 0xFF800000#32),
    TRef.binary (TRef.of (T := ⟨S50000x40, .f32⟩) main_v84) (TRef.of (T := ⟨S_, .f32⟩) main_call3_cst) (TRef.of (T := ⟨S50000, .f32⟩) main_call3_v0) (fun x v => Host.reduce FloatOps.maximumf x v reducesTo_S50000x40_S50000_d1 h_S_),
    TRef.nullary (TRef.of (T := ⟨S_, .f32⟩) main_call3_cst_0) (constant S_ .f32 0xFF800000#32),
    TRef.unary (TRef.of (T := ⟨S_, .f32⟩) main_call3_cst_0) (TRef.of (T := ⟨S50000, .f32⟩) main_call3_v1) (broadcastInDim S50000 ![] bcast_S_S50000),
    TRef.binary (TRef.of (T := ⟨S50000, .f32⟩) main_call3_v1) (TRef.of (T := ⟨S50000, .f32⟩) main_call3_v0) (TRef.of (T := ⟨S50000, .f32⟩) main_call3_v2) maximumf,
    TRef.unary (TRef.of (T := ⟨S50000, .f32⟩) main_call3_v2) (TRef.of (T := ⟨S50000x1, .f32⟩) main_call3_v3) (broadcastInDim S50000x1 ![0] bcast_S50000_S50000x1_0),
    TRef.unary (TRef.of (T := ⟨S50000x1, .f32⟩) main_call3_v3) (TRef.of (T := ⟨S50000x40, .f32⟩) main_call3_v4) (broadcastInDim S50000x40 ![0, 1] bcast_S50000x1_S50000x40_0_1),
    TRef.binary (TRef.of (T := ⟨S50000x40, .f32⟩) main_v84) (TRef.of (T := ⟨S50000x40, .f32⟩) main_call3_v4) (TRef.of (T := ⟨S50000x40, .f32⟩) main_call3_v5) subf,
    TRef.unary (TRef.of (T := ⟨S50000x40, .f32⟩) main_call3_v5) (TRef.of (T := ⟨S50000x40, .f32⟩) main_call3_v6) Host.exp,
    TRef.nullary (TRef.of (T := ⟨S_, .f32⟩) main_call3_cst_1) (constant S_ .f32 0x00000000#32),
    TRef.binary (TRef.of (T := ⟨S50000x40, .f32⟩) main_call3_v6) (TRef.of (T := ⟨S_, .f32⟩) main_call3_cst_1) (TRef.of (T := ⟨S50000, .f32⟩) main_call3_v7) (fun x v => Host.reduceAdd x v reducesTo_S50000x40_S50000_d1 h_S_),
    TRef.unary (TRef.of (T := ⟨S50000, .f32⟩) main_call3_v7) (TRef.of (T := ⟨S50000x1, .f32⟩) main_call3_v8) (broadcastInDim S50000x1 ![0] bcast_S50000_S50000x1_0),
    TRef.unary (TRef.of (T := ⟨S50000x1, .f32⟩) main_call3_v8) (TRef.of (T := ⟨S50000x1, .f32⟩) main_call3_v9) Host.log,
    TRef.unary (TRef.of (T := ⟨S50000x1, .f32⟩) main_call3_v9) (TRef.of (T := ⟨S50000x40, .f32⟩) main_call3_v10) (broadcastInDim S50000x40 ![0, 1] bcast_S50000x1_S50000x40_0_1),
    TRef.binary (TRef.of (T := ⟨S50000x40, .f32⟩) main_call3_v5) (TRef.of (T := ⟨S50000x40, .f32⟩) main_call3_v10) (TRef.of (T := ⟨S50000x40, .f32⟩) main_v85) subf ]

/-- @main's operations, in order. -/
abbrev ops : List (HloOp τ sig (Elt F)) :=
  [ nullary main_v0 (iotaInDim S50000 32 0),
    unary main_arg1 main_v1 ((extractStridedSlice S1x800000 ![0, 0] · slices_S2x800000_S1x800000_0_0) : (⟨S2x800000, .i32⟩ : BufTy).Contents (Elt F) → (⟨S1x800000, .i32⟩ : BufTy).Contents (Elt F)),
    reshape main_v1 main_v2 rfl shapeCasts_S1x800000_S800000,
    binary main_v2 main_v0 main_v3 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    unary main_arg1 main_v4 ((extractStridedSlice S1x800000 ![1, 0] · slices_S2x800000_S1x800000_1_0) : (⟨S2x800000, .i32⟩ : BufTy).Contents (Elt F) → (⟨S1x800000, .i32⟩ : BufTy).Contents (Elt F)),
    reshape main_v4 main_v5 rfl shapeCasts_S1x800000_S800000,
    binary main_v5 main_v0 main_v6 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    nullary main_cst (constant S_ .f32 0x3F800000#32),
    unary main_cst main_v7 (broadcastInDim S850000 ![] bcast_S_S850000 : (⟨S_, .f32⟩ : BufTy).Contents (Elt F) → (⟨S850000, .f32⟩ : BufTy).Contents (Elt F)),
    nullary main_cst_0 (constant S_ .f32 0x00000000#32),
    unary main_cst_0 main_v8 (broadcastInDim S50000 ![] bcast_S_S50000 : (⟨S_, .f32⟩ : BufTy).Contents (Elt F) → (⟨S50000, .f32⟩ : BufTy).Contents (Elt F)),
    unary main_v3 main_v9 (broadcastInDim S850000x1 ![0] bcast_S850000_S850000x1_0 : (⟨S850000, .i32⟩ : BufTy).Contents (Elt F) → (⟨S850000x1, .i32⟩ : BufTy).Contents (Elt F)),
    ternary main_v8 main_v9 main_v7 main_v10 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    nullary main_cst_1 (constant S_ .f32 0x00000000#32),
    unary main_cst_1 main_v11 (broadcastInDim S50000 ![] bcast_S_S50000 : (⟨S_, .f32⟩ : BufTy).Contents (Elt F) → (⟨S50000, .f32⟩ : BufTy).Contents (Elt F)),
    binary main_v10 main_v11 main_v12 (cmpf .ogt : (⟨S50000, .f32⟩ : BufTy).Contents (Elt F) → (⟨S50000, .f32⟩ : BufTy).Contents (Elt F) → (⟨S50000, .i1⟩ : BufTy).Contents (Elt F)),
    unary main_v10 main_v13 (Host.sqrt : (⟨S50000, .f32⟩ : BufTy).Contents (Elt F) → (⟨S50000, .f32⟩ : BufTy).Contents (Elt F)),
    nullary main_cst_2 (constant S_ .f32 0x3F800000#32),
    unary main_cst_2 main_v14 (broadcastInDim S50000 ![] bcast_S_S50000 : (⟨S_, .f32⟩ : BufTy).Contents (Elt F) → (⟨S50000, .f32⟩ : BufTy).Contents (Elt F)),
    binary main_v14 main_v13 main_v15 (Host.divf : (⟨S50000, .f32⟩ : BufTy).Contents (Elt F) → (⟨S50000, .f32⟩ : BufTy).Contents (Elt F) → (⟨S50000, .f32⟩ : BufTy).Contents (Elt F)),
    nullary main_cst_3 (constant S_ .f32 0x00000000#32),
    TRef.unary (TRef.of (T := ⟨S_, .f32⟩) main_cst_3) (TRef.of (T := ⟨S_, .f32⟩) main_call0_v0) id,
    TRef.unary (TRef.of (T := ⟨S_, .f32⟩) main_call0_v0) (TRef.of (T := ⟨S50000, .f32⟩) main_call0_v1) (broadcastInDim S50000 ![] bcast_S_S50000),
    TRef.ternary (TRef.of (T := ⟨S50000, .i1⟩) main_v12) (TRef.of (T := ⟨S50000, .f32⟩) main_v15) (TRef.of (T := ⟨S50000, .f32⟩) main_call0_v1) (TRef.of (T := ⟨S50000, .f32⟩) main_v16) select,
    nullary main_c (constantI S_ 32 0#32),
    unary main_c main_v17 (broadcastInDim S850000 ![] bcast_S_S850000 : (⟨S_, .i32⟩ : BufTy).Contents (Elt F) → (⟨S850000, .i32⟩ : BufTy).Contents (Elt F)),
    binary main_v3 main_v17 main_v18 (cmpi .slt : (⟨S850000, .i32⟩ : BufTy).Contents (Elt F) → (⟨S850000, .i32⟩ : BufTy).Contents (Elt F) → (⟨S850000, .i1⟩ : BufTy).Contents (Elt F)),
    nullary main_c_4 (constantI S_ 32 50000#32),
    unary main_c_4 main_v19 (broadcastInDim S850000 ![] bcast_S_S850000 : (⟨S_, .i32⟩ : BufTy).Contents (Elt F) → (⟨S850000, .i32⟩ : BufTy).Contents (Elt F)),
    binary main_v3 main_v19 main_v20 (addi : (⟨S850000, .i32⟩ : BufTy).Contents (Elt F) → (⟨S850000, .i32⟩ : BufTy).Contents (Elt F) → (⟨S850000, .i32⟩ : BufTy).Contents (Elt F)),
    ternary main_v18 main_v20 main_v3 main_v21 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v21 main_v22 (broadcastInDim S850000x1 ![0] bcast_S850000_S850000x1_0 : (⟨S850000, .i32⟩ : BufTy).Contents (Elt F) → (⟨S850000x1, .i32⟩ : BufTy).Contents (Elt F)),
    binary main_v16 main_v22 main_v23 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    nullary main_c_5 (constantI S_ 32 0#32),
    unary main_c_5 main_v24 (broadcastInDim S850000 ![] bcast_S_S850000 : (⟨S_, .i32⟩ : BufTy).Contents (Elt F) → (⟨S850000, .i32⟩ : BufTy).Contents (Elt F)),
    binary main_v6 main_v24 main_v25 (cmpi .slt : (⟨S850000, .i32⟩ : BufTy).Contents (Elt F) → (⟨S850000, .i32⟩ : BufTy).Contents (Elt F) → (⟨S850000, .i1⟩ : BufTy).Contents (Elt F)),
    nullary main_c_6 (constantI S_ 32 50000#32),
    unary main_c_6 main_v26 (broadcastInDim S850000 ![] bcast_S_S850000 : (⟨S_, .i32⟩ : BufTy).Contents (Elt F) → (⟨S850000, .i32⟩ : BufTy).Contents (Elt F)),
    binary main_v6 main_v26 main_v27 (addi : (⟨S850000, .i32⟩ : BufTy).Contents (Elt F) → (⟨S850000, .i32⟩ : BufTy).Contents (Elt F) → (⟨S850000, .i32⟩ : BufTy).Contents (Elt F)),
    ternary main_v25 main_v27 main_v6 main_v28 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v28 main_v29 (broadcastInDim S850000x1 ![0] bcast_S850000_S850000x1_0 : (⟨S850000, .i32⟩ : BufTy).Contents (Elt F) → (⟨S850000x1, .i32⟩ : BufTy).Contents (Elt F)),
    binary main_v16 main_v29 main_v30 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v23 main_v30 main_v31 (mulf : (⟨S850000, .f32⟩ : BufTy).Contents (Elt F) → (⟨S850000, .f32⟩ : BufTy).Contents (Elt F) → (⟨S850000, .f32⟩ : BufTy).Contents (Elt F)),
    binary main_arg0 main_arg2 main_v32 ((fun l r => Host.dotGeneral dot_S50000x512_S512x128_S50000x128_1_0_0_1_n_n none l r) : (⟨S50000x512, .f32⟩ : BufTy).Contents (Elt F) → (⟨S512x128, .f32⟩ : BufTy).Contents (Elt F) → (⟨S50000x128, .f32⟩ : BufTy).Contents (Elt F)),
    nullary main_c_7 (constantI S_ 32 0#32),
    unary main_c_7 main_v33 (broadcastInDim S850000 ![] bcast_S_S850000 : (⟨S_, .i32⟩ : BufTy).Contents (Elt F) → (⟨S850000, .i32⟩ : BufTy).Contents (Elt F)),
    binary main_v6 main_v33 main_v34 (cmpi .slt : (⟨S850000, .i32⟩ : BufTy).Contents (Elt F) → (⟨S850000, .i32⟩ : BufTy).Contents (Elt F) → (⟨S850000, .i1⟩ : BufTy).Contents (Elt F)),
    nullary main_c_8 (constantI S_ 32 50000#32),
    unary main_c_8 main_v35 (broadcastInDim S850000 ![] bcast_S_S850000 : (⟨S_, .i32⟩ : BufTy).Contents (Elt F) → (⟨S850000, .i32⟩ : BufTy).Contents (Elt F)),
    binary main_v6 main_v35 main_v36 (addi : (⟨S850000, .i32⟩ : BufTy).Contents (Elt F) → (⟨S850000, .i32⟩ : BufTy).Contents (Elt F) → (⟨S850000, .i32⟩ : BufTy).Contents (Elt F)),
    ternary main_v34 main_v36 main_v6 main_v37 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v37 main_v38 (broadcastInDim S850000x1 ![0] bcast_S850000_S850000x1_0 : (⟨S850000, .i32⟩ : BufTy).Contents (Elt F) → (⟨S850000x1, .i32⟩ : BufTy).Contents (Elt F)),
    binary main_v32 main_v38 main_v39 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    unary main_v31 main_v40 (broadcastInDim S850000x1 ![0] bcast_S850000_S850000x1_0 : (⟨S850000, .f32⟩ : BufTy).Contents (Elt F) → (⟨S850000x1, .f32⟩ : BufTy).Contents (Elt F)),
    unary main_v40 main_v41 (broadcastInDim S850000x128 ![0, 1] bcast_S850000x1_S850000x128_0_1 : (⟨S850000x1, .f32⟩ : BufTy).Contents (Elt F) → (⟨S850000x128, .f32⟩ : BufTy).Contents (Elt F)),
    binary main_v39 main_v41 main_v42 (mulf : (⟨S850000x128, .f32⟩ : BufTy).Contents (Elt F) → (⟨S850000x128, .f32⟩ : BufTy).Contents (Elt F) → (⟨S850000x128, .f32⟩ : BufTy).Contents (Elt F)),
    nullary main_cst_9 (constant S_ .f32 0x00000000#32),
    unary main_cst_9 main_v43 (broadcastInDim S50000x128 ![] bcast_S_S50000x128 : (⟨S_, .f32⟩ : BufTy).Contents (Elt F) → (⟨S50000x128, .f32⟩ : BufTy).Contents (Elt F)),
    unary main_v3 main_v44 (broadcastInDim S850000x1 ![0] bcast_S850000_S850000x1_0 : (⟨S850000, .i32⟩ : BufTy).Contents (Elt F) → (⟨S850000x1, .i32⟩ : BufTy).Contents (Elt F)),
    ternary main_v43 main_v44 main_v42 main_v45 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    unary main_arg3 main_v46 (broadcastInDim S1x128 ![1] bcast_S128_S1x128_1 : (⟨S128, .f32⟩ : BufTy).Contents (Elt F) → (⟨S1x128, .f32⟩ : BufTy).Contents (Elt F)),
    unary main_v46 main_v47 (broadcastInDim S50000x128 ![0, 1] bcast_S1x128_S50000x128_0_1 : (⟨S1x128, .f32⟩ : BufTy).Contents (Elt F) → (⟨S50000x128, .f32⟩ : BufTy).Contents (Elt F)),
    binary main_v45 main_v47 main_v48 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S50000x128, .f32⟩) main_call1_v0) (broadcastInDim S50000x128 ![] bcast_S_S50000x128),
    TRef.binary (TRef.of (T := ⟨S50000x128, .f32⟩) main_v48) (TRef.of (T := ⟨S50000x128, .f32⟩) main_call1_v0) (TRef.of (T := ⟨S50000x128, .f32⟩) main_v49) maximumf,
    binary main_v49 main_arg4 main_v50 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_c_10 (constantI S_ 32 0#32),
    unary main_c_10 main_v51 (broadcastInDim S850000 ![] bcast_S_S850000 : (⟨S_, .i32⟩ : BufTy).Contents (Elt F) → (⟨S850000, .i32⟩ : BufTy).Contents (Elt F)),
    binary main_v6 main_v51 main_v52 (cmpi .slt : (⟨S850000, .i32⟩ : BufTy).Contents (Elt F) → (⟨S850000, .i32⟩ : BufTy).Contents (Elt F) → (⟨S850000, .i1⟩ : BufTy).Contents (Elt F)),
    nullary main_c_11 (constantI S_ 32 50000#32),
    unary main_c_11 main_v53 (broadcastInDim S850000 ![] bcast_S_S850000 : (⟨S_, .i32⟩ : BufTy).Contents (Elt F) → (⟨S850000, .i32⟩ : BufTy).Contents (Elt F)),
    binary main_v6 main_v53 main_v54 (addi : (⟨S850000, .i32⟩ : BufTy).Contents (Elt F) → (⟨S850000, .i32⟩ : BufTy).Contents (Elt F) → (⟨S850000, .i32⟩ : BufTy).Contents (Elt F)),
    ternary main_v52 main_v54 main_v6 main_v55 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v55 main_v56 (broadcastInDim S850000x1 ![0] bcast_S850000_S850000x1_0 : (⟨S850000, .i32⟩ : BufTy).Contents (Elt F) → (⟨S850000x1, .i32⟩ : BufTy).Contents (Elt F)),
    binary main_v50 main_v56 main_v57 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    unary main_v31 main_v58 (broadcastInDim S850000x1 ![0] bcast_S850000_S850000x1_0 : (⟨S850000, .f32⟩ : BufTy).Contents (Elt F) → (⟨S850000x1, .f32⟩ : BufTy).Contents (Elt F)),
    unary main_v58 main_v59 (broadcastInDim S850000x128 ![0, 1] bcast_S850000x1_S850000x128_0_1 : (⟨S850000x1, .f32⟩ : BufTy).Contents (Elt F) → (⟨S850000x128, .f32⟩ : BufTy).Contents (Elt F)),
    binary main_v57 main_v59 main_v60 (mulf : (⟨S850000x128, .f32⟩ : BufTy).Contents (Elt F) → (⟨S850000x128, .f32⟩ : BufTy).Contents (Elt F) → (⟨S850000x128, .f32⟩ : BufTy).Contents (Elt F)),
    nullary main_cst_12 (constant S_ .f32 0x00000000#32),
    unary main_cst_12 main_v61 (broadcastInDim S50000x128 ![] bcast_S_S50000x128 : (⟨S_, .f32⟩ : BufTy).Contents (Elt F) → (⟨S50000x128, .f32⟩ : BufTy).Contents (Elt F)),
    unary main_v3 main_v62 (broadcastInDim S850000x1 ![0] bcast_S850000_S850000x1_0 : (⟨S850000, .i32⟩ : BufTy).Contents (Elt F) → (⟨S850000x1, .i32⟩ : BufTy).Contents (Elt F)),
    ternary main_v61 main_v62 main_v60 main_v63 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    unary main_arg5 main_v64 (broadcastInDim S1x128 ![1] bcast_S128_S1x128_1 : (⟨S128, .f32⟩ : BufTy).Contents (Elt F) → (⟨S1x128, .f32⟩ : BufTy).Contents (Elt F)),
    unary main_v64 main_v65 (broadcastInDim S50000x128 ![0, 1] bcast_S1x128_S50000x128_0_1 : (⟨S1x128, .f32⟩ : BufTy).Contents (Elt F) → (⟨S50000x128, .f32⟩ : BufTy).Contents (Elt F)),
    binary main_v63 main_v65 main_v66 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S50000x128, .f32⟩) main_call2_v0) (broadcastInDim S50000x128 ![] bcast_S_S50000x128),
    TRef.binary (TRef.of (T := ⟨S50000x128, .f32⟩) main_v66) (TRef.of (T := ⟨S50000x128, .f32⟩) main_call2_v0) (TRef.of (T := ⟨S50000x128, .f32⟩) main_v67) maximumf,
    binary main_v67 main_arg6 main_v68 ((fun l r => Host.dotGeneral dot_S50000x128_S128x40_S50000x40_1_0_0_1_n_n none l r) : (⟨S50000x128, .f32⟩ : BufTy).Contents (Elt F) → (⟨S128x40, .f32⟩ : BufTy).Contents (Elt F) → (⟨S50000x40, .f32⟩ : BufTy).Contents (Elt F)),
    nullary main_c_13 (constantI S_ 32 0#32),
    unary main_c_13 main_v69 (broadcastInDim S850000 ![] bcast_S_S850000 : (⟨S_, .i32⟩ : BufTy).Contents (Elt F) → (⟨S850000, .i32⟩ : BufTy).Contents (Elt F)),
    binary main_v6 main_v69 main_v70 (cmpi .slt : (⟨S850000, .i32⟩ : BufTy).Contents (Elt F) → (⟨S850000, .i32⟩ : BufTy).Contents (Elt F) → (⟨S850000, .i1⟩ : BufTy).Contents (Elt F)),
    nullary main_c_14 (constantI S_ 32 50000#32),
    unary main_c_14 main_v71 (broadcastInDim S850000 ![] bcast_S_S850000 : (⟨S_, .i32⟩ : BufTy).Contents (Elt F) → (⟨S850000, .i32⟩ : BufTy).Contents (Elt F)),
    binary main_v6 main_v71 main_v72 (addi : (⟨S850000, .i32⟩ : BufTy).Contents (Elt F) → (⟨S850000, .i32⟩ : BufTy).Contents (Elt F) → (⟨S850000, .i32⟩ : BufTy).Contents (Elt F)),
    ternary main_v70 main_v72 main_v6 main_v73 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v73 main_v74 (broadcastInDim S850000x1 ![0] bcast_S850000_S850000x1_0 : (⟨S850000, .i32⟩ : BufTy).Contents (Elt F) → (⟨S850000x1, .i32⟩ : BufTy).Contents (Elt F)),
    binary main_v68 main_v74 main_v75 ((fun x i => Host.gather gather_S50000x40_S850000x1_S850000x40_1_0_n_n_0_1_140 x i) : (⟨S50000x40, .f32⟩ : BufTy).Contents (Elt F) → (⟨S850000x1, .i32⟩ : BufTy).Contents (Elt F) → (⟨S850000x40, .f32⟩ : BufTy).Contents (Elt F)),
    unary main_v31 main_v76 (broadcastInDim S850000x1 ![0] bcast_S850000_S850000x1_0 : (⟨S850000, .f32⟩ : BufTy).Contents (Elt F) → (⟨S850000x1, .f32⟩ : BufTy).Contents (Elt F)),
    unary main_v76 main_v77 (broadcastInDim S850000x40 ![0, 1] bcast_S850000x1_S850000x40_0_1 : (⟨S850000x1, .f32⟩ : BufTy).Contents (Elt F) → (⟨S850000x40, .f32⟩ : BufTy).Contents (Elt F)),
    binary main_v75 main_v77 main_v78 (mulf : (⟨S850000x40, .f32⟩ : BufTy).Contents (Elt F) → (⟨S850000x40, .f32⟩ : BufTy).Contents (Elt F) → (⟨S850000x40, .f32⟩ : BufTy).Contents (Elt F)),
    nullary main_cst_15 (constant S_ .f32 0x00000000#32),
    unary main_cst_15 main_v79 (broadcastInDim S50000x40 ![] bcast_S_S50000x40 : (⟨S_, .f32⟩ : BufTy).Contents (Elt F) → (⟨S50000x40, .f32⟩ : BufTy).Contents (Elt F)),
    unary main_v3 main_v80 (broadcastInDim S850000x1 ![0] bcast_S850000_S850000x1_0 : (⟨S850000, .i32⟩ : BufTy).Contents (Elt F) → (⟨S850000x1, .i32⟩ : BufTy).Contents (Elt F)),
    ternary main_v79 main_v80 main_v78 main_v81 ((fun x i u => Host.scatterAdd scatter_S50000x40_S850000x1_S850000x40_1_0_0_1 x i u) : (⟨S50000x40, .f32⟩ : BufTy).Contents (Elt F) → (⟨S850000x1, .i32⟩ : BufTy).Contents (Elt F) → (⟨S850000x40, .f32⟩ : BufTy).Contents (Elt F) → (⟨S50000x40, .f32⟩ : BufTy).Contents (Elt F)),
    unary main_arg7 main_v82 (broadcastInDim S1x40 ![1] bcast_S40_S1x40_1 : (⟨S40, .f32⟩ : BufTy).Contents (Elt F) → (⟨S1x40, .f32⟩ : BufTy).Contents (Elt F)),
    unary main_v82 main_v83 (broadcastInDim S50000x40 ![0, 1] bcast_S1x40_S50000x40_0_1 : (⟨S1x40, .f32⟩ : BufTy).Contents (Elt F) → (⟨S50000x40, .f32⟩ : BufTy).Contents (Elt F)),
    binary main_v81 main_v83 main_v84 (addf : (⟨S50000x40, .f32⟩ : BufTy).Contents (Elt F) → (⟨S50000x40, .f32⟩ : BufTy).Contents (Elt F) → (⟨S50000x40, .f32⟩ : BufTy).Contents (Elt F)),
    TRef.nullary (TRef.of (T := ⟨S_, .f32⟩) main_call3_cst) (constant S_ .f32 0xFF800000#32),
    TRef.binary (TRef.of (T := ⟨S50000x40, .f32⟩) main_v84) (TRef.of (T := ⟨S_, .f32⟩) main_call3_cst) (TRef.of (T := ⟨S50000, .f32⟩) main_call3_v0) (fun x v => Host.reduce FloatOps.maximumf x v reducesTo_S50000x40_S50000_d1 h_S_),
    TRef.nullary (TRef.of (T := ⟨S_, .f32⟩) main_call3_cst_0) (constant S_ .f32 0xFF800000#32),
    TRef.unary (TRef.of (T := ⟨S_, .f32⟩) main_call3_cst_0) (TRef.of (T := ⟨S50000, .f32⟩) main_call3_v1) (broadcastInDim S50000 ![] bcast_S_S50000),
    TRef.binary (TRef.of (T := ⟨S50000, .f32⟩) main_call3_v1) (TRef.of (T := ⟨S50000, .f32⟩) main_call3_v0) (TRef.of (T := ⟨S50000, .f32⟩) main_call3_v2) maximumf,
    TRef.unary (TRef.of (T := ⟨S50000, .f32⟩) main_call3_v2) (TRef.of (T := ⟨S50000x1, .f32⟩) main_call3_v3) (broadcastInDim S50000x1 ![0] bcast_S50000_S50000x1_0),
    TRef.unary (TRef.of (T := ⟨S50000x1, .f32⟩) main_call3_v3) (TRef.of (T := ⟨S50000x40, .f32⟩) main_call3_v4) (broadcastInDim S50000x40 ![0, 1] bcast_S50000x1_S50000x40_0_1),
    TRef.binary (TRef.of (T := ⟨S50000x40, .f32⟩) main_v84) (TRef.of (T := ⟨S50000x40, .f32⟩) main_call3_v4) (TRef.of (T := ⟨S50000x40, .f32⟩) main_call3_v5) subf,
    TRef.unary (TRef.of (T := ⟨S50000x40, .f32⟩) main_call3_v5) (TRef.of (T := ⟨S50000x40, .f32⟩) main_call3_v6) Host.exp,
    TRef.nullary (TRef.of (T := ⟨S_, .f32⟩) main_call3_cst_1) (constant S_ .f32 0x00000000#32),
    TRef.binary (TRef.of (T := ⟨S50000x40, .f32⟩) main_call3_v6) (TRef.of (T := ⟨S_, .f32⟩) main_call3_cst_1) (TRef.of (T := ⟨S50000, .f32⟩) main_call3_v7) (fun x v => Host.reduceAdd x v reducesTo_S50000x40_S50000_d1 h_S_),
    TRef.unary (TRef.of (T := ⟨S50000, .f32⟩) main_call3_v7) (TRef.of (T := ⟨S50000x1, .f32⟩) main_call3_v8) (broadcastInDim S50000x1 ![0] bcast_S50000_S50000x1_0),
    TRef.unary (TRef.of (T := ⟨S50000x1, .f32⟩) main_call3_v8) (TRef.of (T := ⟨S50000x1, .f32⟩) main_call3_v9) Host.log,
    TRef.unary (TRef.of (T := ⟨S50000x1, .f32⟩) main_call3_v9) (TRef.of (T := ⟨S50000x40, .f32⟩) main_call3_v10) (broadcastInDim S50000x40 ![0, 1] bcast_S50000x1_S50000x40_0_1),
    TRef.binary (TRef.of (T := ⟨S50000x40, .f32⟩) main_call3_v5) (TRef.of (T := ⟨S50000x40, .f32⟩) main_call3_v10) (TRef.of (T := ⟨S50000x40, .f32⟩) main_v85) subf ]

theorem ops_split : (ops : List (HloOp τ sig (Elt F))) = opsIdx ++ (opsSel ++ (opsW ++ (opsL1 ++ (opsL2 ++ (opsL3 ++ opsLS))))) := rfl

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨nullary_bufs_sub .., unary_bufs_sub .., reshape_bufs_sub .., binary_bufs_sub .., unary_bufs_sub .., reshape_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩

/-- Every weakly fair execution of @main ends, nothing faulting, each buffer at the fold of the operations' results. -/
theorem run (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after ops (launchContents m d) (Proc.devRef .tc b) :=
  run_seq scopedRefs_eq scopedSems_eq defs main (fun _ => ops) main_eq (fun _ => ops_sub) m ρ

/-- The fold over the whole list is the fold over the seven stretches in turn. -/
theorem after_ops (V : Valuation τ sig (Elt F)) :
    after ops V = after opsLS (after opsL3 (after opsL2 (after opsL1 (after opsW (after opsSel (after opsIdx V)))))) := by
  rw [ops_split, StableHlo.after_append, StableHlo.after_append, StableHlo.after_append, StableHlo.after_append, StableHlo.after_append, StableHlo.after_append]

end Cert.ReferenceIdeal.Hand

end
-- ==== Proof.RefKeep.lean ====
/-
  No operation of the reference program writes an argument array: after the whole program each argument's buffer holds
  its launch contents.
-/
import proofs.«165259_j3453153706770_1_alg».proof.Proof.RefOps

set_option maxRecDepth 16384

noncomputable section

namespace Cert.ReferenceIdeal.Hand

open Cert.ReferenceIdeal Cert.ReferenceIdeal.Gen
open Idealize.ShloMosaic Idealize.ShloMosaic.TcCoe Idealize.SL.Sem Idealize.ShloMosaic.StableHlo

variable {F : FTy → Type} [FloatOps F] (m : (ℓ : Loc nD τ sig) → Buf (Elt F) ℓ) (c : Dev nD)

theorem kept_arg0 : after (ops (F := F)) (launchContents m c) (Proc.devRef .tc main_arg0) = m ((c.tc : Thread nD τ).loc main_arg0) := by
  after_results_simp <;> rfl
theorem kept_arg1 : after (ops (F := F)) (launchContents m c) (Proc.devRef .tc main_arg1) = m ((c.tc : Thread nD τ).loc main_arg1) := by
  after_results_simp <;> rfl
theorem kept_arg2 : after (ops (F := F)) (launchContents m c) (Proc.devRef .tc main_arg2) = m ((c.tc : Thread nD τ).loc main_arg2) := by
  after_results_simp <;> rfl
theorem kept_arg3 : after (ops (F := F)) (launchContents m c) (Proc.devRef .tc main_arg3) = m ((c.tc : Thread nD τ).loc main_arg3) := by
  after_results_simp <;> rfl
theorem kept_arg4 : after (ops (F := F)) (launchContents m c) (Proc.devRef .tc main_arg4) = m ((c.tc : Thread nD τ).loc main_arg4) := by
  after_results_simp <;> rfl
theorem kept_arg5 : after (ops (F := F)) (launchContents m c) (Proc.devRef .tc main_arg5) = m ((c.tc : Thread nD τ).loc main_arg5) := by
  after_results_simp <;> rfl
theorem kept_arg6 : after (ops (F := F)) (launchContents m c) (Proc.devRef .tc main_arg6) = m ((c.tc : Thread nD τ).loc main_arg6) := by
  after_results_simp <;> rfl
theorem kept_arg7 : after (ops (F := F)) (launchContents m c) (Proc.devRef .tc main_arg7) = m ((c.tc : Thread nD τ).loc main_arg7) := by
  after_results_simp <;> rfl

end Cert.ReferenceIdeal.Hand

end
-- ==== Proof.RefSpec.lean ====
/-
  The reference program's node-wise host operations as functions of whole arrays: adding a bias vector to every row
  (the vector made a one-row array, then repeated down the rows), the rectifier (the larger of an entry and zero),
  and the row-wise log-softmax (the row's largest entry, taken from minus infinity, subtracted; then the logarithm of
  the row's sum of exponentials subtracted).
-/
import proofs.«165259_j3453153706770_1_alg».proof.Proof.Gen.ReferenceIdeal

noncomputable section

namespace Cert.ReferenceIdeal.Hand

open Cert.ReferenceIdeal Cert.ReferenceIdeal.Facts₀ Cert.ReferenceIdeal.Facts Idealize.ShloMosaic

variable {F : FTy → Type} [FloatOps F]

/-- A bias vector added to every row (width 128). -/
def addBias128 (a : (⟨S50000x128, .f32⟩ : BufTy).Contents (Elt F)) (b : (⟨S128, .f32⟩ : BufTy).Contents (Elt F)) :
    (⟨S50000x128, .f32⟩ : BufTy).Contents (Elt F) :=
  addf a (broadcastInDim S50000x128 ![0, 1] bcast_S1x128_S50000x128_0_1 (broadcastInDim S1x128 ![1] bcast_S128_S1x128_1 b))
/-- A bias vector added to every row (width 40). -/
def addBias40 (a : (⟨S50000x40, .f32⟩ : BufTy).Contents (Elt F)) (b : (⟨S40, .f32⟩ : BufTy).Contents (Elt F)) :
    (⟨S50000x40, .f32⟩ : BufTy).Contents (Elt F) :=
  addf a (broadcastInDim S50000x40 ![0, 1] bcast_S1x40_S50000x40_0_1 (broadcastInDim S1x40 ![1] bcast_S40_S1x40_1 b))
/-- The rectifier. -/
def reluHost (a : (⟨S50000x128, .f32⟩ : BufTy).Contents (Elt F)) : (⟨S50000x128, .f32⟩ : BufTy).Contents (Elt F) :=
  maximumf a (broadcastInDim S50000x128 ![] bcast_S_S50000x128 (constant S_ .f32 0x00000000#32))
/-- Each row's largest entry, from minus infinity. -/
def rowMaxHost (a : (⟨S50000x40, .f32⟩ : BufTy).Contents (Elt F)) : (⟨S50000, .f32⟩ : BufTy).Contents (Elt F) :=
  maximumf (broadcastInDim S50000 ![] bcast_S_S50000 (constant S_ .f32 0xFF800000#32))
    (Host.reduce FloatOps.maximumf a (constant S_ .f32 0xFF800000#32) reducesTo_S50000x40_S50000_d1 h_S_)
/-- Each row with its largest entry subtracted. -/
def shiftHost (a : (⟨S50000x40, .f32⟩ : BufTy).Contents (Elt F)) : (⟨S50000x40, .f32⟩ : BufTy).Contents (Elt F) :=
  subf a (broadcastInDim S50000x40 ![0, 1] bcast_S50000x1_S50000x40_0_1 (broadcastInDim S50000x1 ![0] bcast_S50000_S50000x1_0 (rowMaxHost a)))
/-- The row-wise log-softmax. -/
def logSoftmaxHost (a : (⟨S50000x40, .f32⟩ : BufTy).Contents (Elt F)) : (⟨S50000x40, .f32⟩ : BufTy).Contents (Elt F) :=
  subf (shiftHost a)
    (broadcastInDim S50000x40 ![0, 1] bcast_S50000x1_S50000x40_0_1
      (Host.log (broadcastInDim S50000x1 ![0] bcast_S50000_S50000x1_0
        (Host.reduceAdd (Host.exp (shiftHost a)) (constant S_ .f32 0x00000000#32) reducesTo_S50000x40_S50000_d1 h_S_))))

end Cert.ReferenceIdeal.Hand

end
-- ==== Proof.RHost.lean ====
/-
  What each stretch of the reference program's host operations leaves in the buffers later stretches read, as a function
  of the buffers it reads, for any contents before it. The graph part is the same operations on the same arrays as in the
  kernel's program, so it is the shared functions by definition; a layer is its dense transform fed through them, then the
  bias and the activation.
-/
import proofs.«165259_j3453153706770_1_alg».proof.Proof.RefOps
import proofs.«165259_j3453153706770_1_alg».proof.Proof.RefSpec
import proofs.«165259_j3453153706770_1_alg».proof.Proof.HostSpec

noncomputable section

namespace Cert.ReferenceIdeal.Hand

open Cert.ReferenceIdeal Cert.ReferenceIdeal.Gen Cert.Hand
open Idealize.ShloMosaic Idealize.ShloMosaic.TcCoe Idealize.SL.Sem Idealize.ShloMosaic.StableHlo

variable {F : FTy → Type} [FloatOps F] (U : Valuation τ sig (Elt F))

/-- Evaluate a fold of host operations at one buffer: one pass over the list, then the operands a joined list hides. -/
macro "eval_after_ref" : tactic =>
  `(tactic| (after_results_simp
             try (repeat (first
               | rw [reshape_result] | rw [unary_result] | rw [nullary_result]
               | (rw [reshape_result_ne]; rotate_left; decide)
               | (rw [unary_result_ne]; rotate_left; decide)
               | (rw [nullary_result_ne]; rotate_left; decide)))))

theorem idx_rows : after (opsIdx (F := F)) U (Proc.devRef .tc main_v3) = rowIx (U (Proc.devRef .tc main_arg1)) := by
  eval_after_ref; rfl
theorem idx_cols : after (opsIdx (F := F)) U (Proc.devRef .tc main_v6) = colIx (U (Proc.devRef .tc main_arg1)) := by
  eval_after_ref; rfl
theorem idx_pos : after (opsIdx (F := F)) U (Proc.devRef .tc main_v12) = degPos (rowIx (U (Proc.devRef .tc main_arg1))) := by
  eval_after_ref; rfl
theorem idx_inv : after (opsIdx (F := F)) U (Proc.devRef .tc main_v15) = invSqrtDeg (rowIx (U (Proc.devRef .tc main_arg1))) := by
  eval_after_ref; rfl
theorem idx_zero : after (opsIdx (F := F)) U (Proc.devRef .tc main_cst_3) = zeroWord := by
  eval_after_ref; rfl
theorem sel_val : after (opsSel (F := F)) U (Proc.devRef .tc main_v16)
    = selOr (U (Proc.devRef .tc main_v12)) (U (Proc.devRef .tc main_v15)) (U (Proc.devRef .tc main_cst_3)) := by
  eval_after_ref; rfl
theorem weights : after (opsW (F := F)) U (Proc.devRef .tc main_v31)
    = edgeW (U (Proc.devRef .tc main_v3)) (U (Proc.devRef .tc main_v6)) (U (Proc.devRef .tc main_v16)) := by
  eval_after_ref; rfl
theorem layer1_val : after (opsL1 (F := F)) U (Proc.devRef .tc main_v49)
    = reluHost (addBias128 (agg128 (U (Proc.devRef .tc main_v3)) (U (Proc.devRef .tc main_v6)) (U (Proc.devRef .tc main_v31))
        (Host.dotGeneral dot_S50000x512_S512x128_S50000x128_1_0_0_1_n_n none (U (Proc.devRef .tc main_arg0)) (U (Proc.devRef .tc main_arg2)))) (U (Proc.devRef .tc main_arg3))) := by
  eval_after_ref; rfl
theorem layer2_val : after (opsL2 (F := F)) U (Proc.devRef .tc main_v67)
    = reluHost (addBias128 (agg128 (U (Proc.devRef .tc main_v3)) (U (Proc.devRef .tc main_v6)) (U (Proc.devRef .tc main_v31))
        (Host.dotGeneral dot_S50000x128_S128x128_S50000x128_1_0_0_1_n_n none (U (Proc.devRef .tc main_v49)) (U (Proc.devRef .tc main_arg4)))) (U (Proc.devRef .tc main_arg5))) := by
  eval_after_ref; rfl
theorem layer3_val : after (opsL3 (F := F)) U (Proc.devRef .tc main_v84)
    = addBias40 (agg40 (U (Proc.devRef .tc main_v3)) (U (Proc.devRef .tc main_v6)) (U (Proc.devRef .tc main_v31))
        (Host.dotGeneral dot_S50000x128_S128x40_S50000x40_1_0_0_1_n_n none (U (Proc.devRef .tc main_v67)) (U (Proc.devRef .tc main_arg6)))) (U (Proc.devRef .tc main_arg7)) := by
  eval_after_ref; rfl
end Cert.ReferenceIdeal.Hand

end
-- ==== Proof.RHostLS.lean ====
/-
  The last stretch of the reference program, the row-wise log-softmax, leaves in the result buffer the log-softmax of
  what the buffer it reads holds, for any contents before it. Each operation's result is its function of its
  operands' contents; a value moved to a buffer's own type and read back at the value's type is unchanged, so the
  fifteen results compose to the one function of the input buffer's contents.
-/
import proofs.«165259_j3453153706770_1_alg».proof.Proof.RefOps
import proofs.«165259_j3453153706770_1_alg».proof.Proof.RefSpec

noncomputable section

namespace Cert.ReferenceIdeal.Hand

open Cert.ReferenceIdeal Cert.ReferenceIdeal.Gen
open Idealize.ShloMosaic Idealize.ShloMosaic.TcCoe Idealize.SL.Sem Idealize.ShloMosaic.StableHlo

variable {F : FTy → Type} [FloatOps F] (U : Valuation τ sig (Elt F))

/-- Contents moved to a reference's own type and back are unchanged: both moves are along one equation of types. -/
theorem ofBuf_toBuf {Val : EltTy → Type} {T : BufTy} (x : TRef sig T) (w : T.Contents Val) : x.ofBuf (x.toBuf w) = w := by
  obtain ⟨r, rfl, _, _⟩ := x
  rfl

theorem log_softmax_val : after (opsLS (F := F)) U (Proc.devRef .tc main_v85) = logSoftmaxHost (U (Proc.devRef .tc main_v84)) := by
  after_results_simp
  -- every intermediate value is written to its buffer and read back: the two moves cancel
  repeat rw [ofBuf_toBuf]
  -- the input buffer's type is the value's type, so reading it at the value's type changes nothing
  have e84 : (TRef.of (T := ⟨S50000x40, .f32⟩) main_v84).ofBuf (U (Proc.devRef .tc main_v84)) = U (Proc.devRef .tc main_v84) := cast_eq _ _
  rw [e84]
  -- likewise for the result buffer
  refine (cast_eq _ _).trans ?_
  unfold logSoftmaxHost shiftHost rowMaxHost
  rfl

end Cert.ReferenceIdeal.Hand

end
-- ==== Proof.RefDense.lean ====
/-
  The reference's three dense layers. On the extended reals the host's product of two arrays, contracting the
  left operand's columns against the right operand's rows, is the sum over the contracted coordinate k of
  x(p, k) · w(k, q) at every entry (p, q): the contraction's index set has one axis, so the sum over it is the sum
  over k. That is the dense transform of the specification, for each of the three layers' extents.
-/
import proofs.«165259_j3453153706770_1_alg».proof.Proof.Gen.ReferenceIdeal
import proofs.«165259_j3453153706770_1_alg».proof.Proof.Spec
import Idealize.ShloMosaic.Lib.ValueIdx
import Idealize.ShloMosaic.PureOps.Ideal.Laws

noncomputable section

open scoped BigOperators
open Idealize.ShloMosaic Idealize.SL.Sem
open Idealize.ShloMosaic.ValueIdx
open Cert.ReferenceIdeal

namespace Cert.ReferenceIdeal.Hand

/-! ## Layer 1: a 50000 × 512 array times a 512 × 128 array -/

/-- Row coordinate of the left operand's index in the contraction: the output's row. -/
theorem lhs_row1 (i : S50000x128.Idx) (s : dot_S50000x512_S512x128_S50000x128_1_0_0_1_n_n.contr.Idx) :
    (dot_S50000x512_S512x128_S50000x128_1_0_0_1_n_n.lhsIdx i s 0).val = (i 0).val := by
  unfold DotDims.lhsIdx
  rw [dif_neg (show ¬(0 : Fin S50000x512.rank) ∈ dot_S50000x512_S512x128_S50000x128_1_0_0_1_n_n.lhsBatch by decide), dif_pos (show (0 : Fin S50000x512.rank) ∈ dot_S50000x512_S512x128_S50000x128_1_0_0_1_n_n.lhsNonContracting by decide)]
  rfl
/-- Column coordinate of the left operand's index: the contracted coordinate. -/
theorem lhs_col1 (i : S50000x128.Idx) (s : dot_S50000x512_S512x128_S50000x128_1_0_0_1_n_n.contr.Idx) :
    (dot_S50000x512_S512x128_S50000x128_1_0_0_1_n_n.lhsIdx i s 1).val = (s ⟨0, by decide⟩).val :=
  dot_S50000x512_S512x128_S50000x128_1_0_0_1_n_n.lhsIdx_val_of_single rfl i s
/-- Row coordinate of the right operand's index: the contracted coordinate. -/
theorem rhs_row1 (i : S50000x128.Idx) (s : dot_S50000x512_S512x128_S50000x128_1_0_0_1_n_n.contr.Idx) :
    (dot_S50000x512_S512x128_S50000x128_1_0_0_1_n_n.rhsIdx i s 0).val = (s ⟨0, by decide⟩).val :=
  dot_S50000x512_S512x128_S50000x128_1_0_0_1_n_n.rhsIdx_val_of_single rfl i s
/-- Column coordinate of the right operand's index: the output's column. -/
theorem rhs_col1 (i : S50000x128.Idx) (s : dot_S50000x512_S512x128_S50000x128_1_0_0_1_n_n.contr.Idx) :
    (dot_S50000x512_S512x128_S50000x128_1_0_0_1_n_n.rhsIdx i s 1).val = (i 1).val := by
  unfold DotDims.rhsIdx
  rw [dif_neg (show ¬(1 : Fin S512x128.rank) ∈ dot_S50000x512_S512x128_S50000x128_1_0_0_1_n_n.rhsBatch by decide), dif_pos (show (1 : Fin S512x128.rank) ∈ dot_S50000x512_S512x128_S50000x128_1_0_0_1_n_n.rhsNonContracting by decide)]
  rfl

/-- The host's product of the two arrays is the dense transform: entry (p, q) is the sum over k of x(p, k) · w(k, q). -/
theorem dense1_eq (x : (⟨S50000x512, .f32⟩ : BufTy).Contents (Elt Ideal)) (w : (⟨S512x128, .f32⟩ : BufTy).Contents (Elt Ideal)) :
    Host.dotGeneral (F := Ideal) (φ₁ := .f32) (φ₂ := .f32) dot_S50000x512_S512x128_S50000x128_1_0_0_1_n_n none x w = Cert.Hand.dense (M := 50000) (K := 512) (N := 128) x w := by
  funext i
  obtain ⟨p, q, rfl⟩ : ∃ (p : Fin 50000) (q : Fin 128), i = ix2 p q := ⟨i 0, i 1, eq_ix2 i⟩
  simp only [Host.dotGeneral]
  rw [Ideal.dotGeneral_apply, ← Equiv.sum_comp (contrEquiv1 dot_S50000x512_S512x128_S50000x128_1_0_0_1_n_n 512 rfl rfl).symm]
  unfold Cert.Hand.dense
  refine Finset.sum_congr rfl fun k _ => ?_
  have hk := contrEquiv1_symm_val dot_S50000x512_S512x128_S50000x128_1_0_0_1_n_n 512 rfl rfl k
  have el : dot_S50000x512_S512x128_S50000x128_1_0_0_1_n_n.lhsIdx (ix2 p q) ((contrEquiv1 dot_S50000x512_S512x128_S50000x128_1_0_0_1_n_n 512 rfl rfl).symm k) = ix2 p k := funext fun a => Fin.ext (by
    match a with
    | ⟨0, _⟩ => exact lhs_row1 _ _
    | ⟨1, _⟩ => exact (lhs_col1 _ _).trans hk)
  have er : dot_S50000x512_S512x128_S50000x128_1_0_0_1_n_n.rhsIdx (ix2 p q) ((contrEquiv1 dot_S50000x512_S512x128_S50000x128_1_0_0_1_n_n 512 rfl rfl).symm k) = ix2 k q := funext fun a => Fin.ext (by
    match a with
    | ⟨0, _⟩ => exact (rhs_row1 _ _).trans hk
    | ⟨1, _⟩ => exact rhs_col1 _ _)
  rw [el, er]

/-! ## Layer 2: a 50000 × 128 array times a 128 × 128 array -/

/-- Row coordinate of the left operand's index in the contraction: the output's row. -/
theorem lhs_row2 (i : S50000x128.Idx) (s : dot_S50000x128_S128x128_S50000x128_1_0_0_1_n_n.contr.Idx) :
    (dot_S50000x128_S128x128_S50000x128_1_0_0_1_n_n.lhsIdx i s 0).val = (i 0).val := by
  unfold DotDims.lhsIdx
  rw [dif_neg (show ¬(0 : Fin S50000x128.rank) ∈ dot_S50000x128_S128x128_S50000x128_1_0_0_1_n_n.lhsBatch by decide), dif_pos (show (0 : Fin S50000x128.rank) ∈ dot_S50000x128_S128x128_S50000x128_1_0_0_1_n_n.lhsNonContracting by decide)]
  rfl
/-- Column coordinate of the left operand's index: the contracted coordinate. -/
theorem lhs_col2 (i : S50000x128.Idx) (s : dot_S50000x128_S128x128_S50000x128_1_0_0_1_n_n.contr.Idx) :
    (dot_S50000x128_S128x128_S50000x128_1_0_0_1_n_n.lhsIdx i s 1).val = (s ⟨0, by decide⟩).val :=
  dot_S50000x128_S128x128_S50000x128_1_0_0_1_n_n.lhsIdx_val_of_single rfl i s
/-- Row coordinate of the right operand's index: the contracted coordinate. -/
theorem rhs_row2 (i : S50000x128.Idx) (s : dot_S50000x128_S128x128_S50000x128_1_0_0_1_n_n.contr.Idx) :
    (dot_S50000x128_S128x128_S50000x128_1_0_0_1_n_n.rhsIdx i s 0).val = (s ⟨0, by decide⟩).val :=
  dot_S50000x128_S128x128_S50000x128_1_0_0_1_n_n.rhsIdx_val_of_single rfl i s
/-- Column coordinate of the right operand's index: the output's column. -/
theorem rhs_col2 (i : S50000x128.Idx) (s : dot_S50000x128_S128x128_S50000x128_1_0_0_1_n_n.contr.Idx) :
    (dot_S50000x128_S128x128_S50000x128_1_0_0_1_n_n.rhsIdx i s 1).val = (i 1).val := by
  unfold DotDims.rhsIdx
  rw [dif_neg (show ¬(1 : Fin S128x128.rank) ∈ dot_S50000x128_S128x128_S50000x128_1_0_0_1_n_n.rhsBatch by decide), dif_pos (show (1 : Fin S128x128.rank) ∈ dot_S50000x128_S128x128_S50000x128_1_0_0_1_n_n.rhsNonContracting by decide)]
  rfl

/-- The host's product of the two arrays is the dense transform: entry (p, q) is the sum over k of x(p, k) · w(k, q). -/
theorem dense2_eq (x : (⟨S50000x128, .f32⟩ : BufTy).Contents (Elt Ideal)) (w : (⟨S128x128, .f32⟩ : BufTy).Contents (Elt Ideal)) :
    Host.dotGeneral (F := Ideal) (φ₁ := .f32) (φ₂ := .f32) dot_S50000x128_S128x128_S50000x128_1_0_0_1_n_n none x w = Cert.Hand.dense (M := 50000) (K := 128) (N := 128) x w := by
  funext i
  obtain ⟨p, q, rfl⟩ : ∃ (p : Fin 50000) (q : Fin 128), i = ix2 p q := ⟨i 0, i 1, eq_ix2 i⟩
  simp only [Host.dotGeneral]
  rw [Ideal.dotGeneral_apply, ← Equiv.sum_comp (contrEquiv1 dot_S50000x128_S128x128_S50000x128_1_0_0_1_n_n 128 rfl rfl).symm]
  unfold Cert.Hand.dense
  refine Finset.sum_congr rfl fun k _ => ?_
  have hk := contrEquiv1_symm_val dot_S50000x128_S128x128_S50000x128_1_0_0_1_n_n 128 rfl rfl k
  have el : dot_S50000x128_S128x128_S50000x128_1_0_0_1_n_n.lhsIdx (ix2 p q) ((contrEquiv1 dot_S50000x128_S128x128_S50000x128_1_0_0_1_n_n 128 rfl rfl).symm k) = ix2 p k := funext fun a => Fin.ext (by
    match a with
    | ⟨0, _⟩ => exact lhs_row2 _ _
    | ⟨1, _⟩ => exact (lhs_col2 _ _).trans hk)
  have er : dot_S50000x128_S128x128_S50000x128_1_0_0_1_n_n.rhsIdx (ix2 p q) ((contrEquiv1 dot_S50000x128_S128x128_S50000x128_1_0_0_1_n_n 128 rfl rfl).symm k) = ix2 k q := funext fun a => Fin.ext (by
    match a with
    | ⟨0, _⟩ => exact (rhs_row2 _ _).trans hk
    | ⟨1, _⟩ => exact rhs_col2 _ _)
  rw [el, er]

/-! ## Layer 3: a 50000 × 128 array times a 128 × 40 array -/

/-- Row coordinate of the left operand's index in the contraction: the output's row. -/
theorem lhs_row3 (i : S50000x40.Idx) (s : dot_S50000x128_S128x40_S50000x40_1_0_0_1_n_n.contr.Idx) :
    (dot_S50000x128_S128x40_S50000x40_1_0_0_1_n_n.lhsIdx i s 0).val = (i 0).val := by
  unfold DotDims.lhsIdx
  rw [dif_neg (show ¬(0 : Fin S50000x128.rank) ∈ dot_S50000x128_S128x40_S50000x40_1_0_0_1_n_n.lhsBatch by decide), dif_pos (show (0 : Fin S50000x128.rank) ∈ dot_S50000x128_S128x40_S50000x40_1_0_0_1_n_n.lhsNonContracting by decide)]
  rfl
/-- Column coordinate of the left operand's index: the contracted coordinate. -/
theorem lhs_col3 (i : S50000x40.Idx) (s : dot_S50000x128_S128x40_S50000x40_1_0_0_1_n_n.contr.Idx) :
    (dot_S50000x128_S128x40_S50000x40_1_0_0_1_n_n.lhsIdx i s 1).val = (s ⟨0, by decide⟩).val :=
  dot_S50000x128_S128x40_S50000x40_1_0_0_1_n_n.lhsIdx_val_of_single rfl i s
/-- Row coordinate of the right operand's index: the contracted coordinate. -/
theorem rhs_row3 (i : S50000x40.Idx) (s : dot_S50000x128_S128x40_S50000x40_1_0_0_1_n_n.contr.Idx) :
    (dot_S50000x128_S128x40_S50000x40_1_0_0_1_n_n.rhsIdx i s 0).val = (s ⟨0, by decide⟩).val :=
  dot_S50000x128_S128x40_S50000x40_1_0_0_1_n_n.rhsIdx_val_of_single rfl i s
/-- Column coordinate of the right operand's index: the output's column. -/
theorem rhs_col3 (i : S50000x40.Idx) (s : dot_S50000x128_S128x40_S50000x40_1_0_0_1_n_n.contr.Idx) :
    (dot_S50000x128_S128x40_S50000x40_1_0_0_1_n_n.rhsIdx i s 1).val = (i 1).val := by
  unfold DotDims.rhsIdx
  rw [dif_neg (show ¬(1 : Fin S128x40.rank) ∈ dot_S50000x128_S128x40_S50000x40_1_0_0_1_n_n.rhsBatch by decide), dif_pos (show (1 : Fin S128x40.rank) ∈ dot_S50000x128_S128x40_S50000x40_1_0_0_1_n_n.rhsNonContracting by decide)]
  rfl

/-- The host's product of the two arrays is the dense transform: entry (p, q) is the sum over k of x(p, k) · w(k, q). -/
theorem dense3_eq (x : (⟨S50000x128, .f32⟩ : BufTy).Contents (Elt Ideal)) (w : (⟨S128x40, .f32⟩ : BufTy).Contents (Elt Ideal)) :
    Host.dotGeneral (F := Ideal) (φ₁ := .f32) (φ₂ := .f32) dot_S50000x128_S128x40_S50000x40_1_0_0_1_n_n none x w = Cert.Hand.dense (M := 50000) (K := 128) (N := 40) x w := by
  funext i
  obtain ⟨p, q, rfl⟩ : ∃ (p : Fin 50000) (q : Fin 40), i = ix2 p q := ⟨i 0, i 1, eq_ix2 i⟩
  simp only [Host.dotGeneral]
  rw [Ideal.dotGeneral_apply, ← Equiv.sum_comp (contrEquiv1 dot_S50000x128_S128x40_S50000x40_1_0_0_1_n_n 128 rfl rfl).symm]
  unfold Cert.Hand.dense
  refine Finset.sum_congr rfl fun k _ => ?_
  have hk := contrEquiv1_symm_val dot_S50000x128_S128x40_S50000x40_1_0_0_1_n_n 128 rfl rfl k
  have el : dot_S50000x128_S128x40_S50000x40_1_0_0_1_n_n.lhsIdx (ix2 p q) ((contrEquiv1 dot_S50000x128_S128x40_S50000x40_1_0_0_1_n_n 128 rfl rfl).symm k) = ix2 p k := funext fun a => Fin.ext (by
    match a with
    | ⟨0, _⟩ => exact lhs_row3 _ _
    | ⟨1, _⟩ => exact (lhs_col3 _ _).trans hk)
  have er : dot_S50000x128_S128x40_S50000x40_1_0_0_1_n_n.rhsIdx (ix2 p q) ((contrEquiv1 dot_S50000x128_S128x40_S50000x40_1_0_0_1_n_n 128 rfl rfl).symm k) = ix2 k q := funext fun a => Fin.ext (by
    match a with
    | ⟨0, _⟩ => exact (rhs_row3 _ _).trans hk
    | ⟨1, _⟩ => exact rhs_col3 _ _)
  rw [el, er]

end Cert.ReferenceIdeal.Hand

end
-- ==== Proof.RefAct.lean ====
/-
  The reference's node-wise host operations read entry by entry. A bias vector made a one-row array and repeated
  down the rows reads, at (r, c), the vector's entry c; so does the vector cast to one row, read at (0, c). The
  rectifier's zero is the same float word on both sides and is never evaluated. For the row-wise log-softmax the
  row's largest entry is a fold of max from the minus-infinity word, and taking the larger of that word and the fold
  changes nothing, since the fold is at least its starting value; the row sum starts from the zero word, which is
  the real zero.
-/
import proofs.«165259_j3453153706770_1_alg».proof.Proof.RefSpec
import proofs.«165259_j3453153706770_1_alg».proof.Proof.Spec
import proofs.«165259_j3453153706770_1_alg».proof.Proof.HostSpec
import Idealize.ShloMosaic.Lib.Pipeline.Value
import Idealize.ShloMosaic.Lib.ValueLayout
import Idealize.ShloMosaic.PureOps.Ideal.Laws
import Mathlib.Data.Finset.Fold

noncomputable section

open scoped BigOperators

namespace Cert.ReferenceIdeal.Hand

open Cert.ReferenceIdeal Cert.ReferenceIdeal.Facts₀ Cert.ReferenceIdeal.Facts Idealize.ShloMosaic Idealize.ShloMosaic.ValueIdx

/-- The zero scalar repeated over the array reads the zero word everywhere. -/
theorem zero_splat128_apply (i : S50000x128.Idx) :
    broadcastInDim S50000x128 ![] bcast_S_S50000x128 (constant (F := Ideal) S_ .f32 0x00000000#32) i
      = Ideal.ofBits .f32 0x00000000#32 :=
  (broadcastInDim_apply _ bcast_S_S50000x128 _ i (fun a => a.elim0) (fun a => a.elim0)).trans rfl

/-- The bias vector made one row and repeated down the rows reads, at (r, c), its entry c. -/
theorem bias128_apply (b : (⟨S128, .f32⟩ : BufTy).Contents (Elt Ideal)) (r : Fin 50000) (c : Fin 128) :
    broadcastInDim S50000x128 ![0, 1] bcast_S1x128_S50000x128_0_1 (broadcastInDim S1x128 ![1] bcast_S128_S1x128_1 b) (ix2 r c)
      = b (ix1 c) := by
  refine (broadcastInDim_apply _ bcast_S1x128_S50000x128_0_1 _ (ix2 r c) (ix2 (0 : Fin 1) c) (fun a => match a with
    | ⟨0, _⟩ => by show 0 = if (1 : Nat) = 1 then 0 else r.val; rw [if_pos rfl]
    | ⟨1, _⟩ => by show c.val = if (128 : Nat) = 1 then 0 else c.val; rw [if_neg (by decide)])).trans ?_
  exact broadcastInDim_apply _ bcast_S128_S1x128_1 b (ix2 (0 : Fin 1) c) (ix1 c) (fun a => match a with
    | ⟨0, _⟩ => by show c.val = if (128 : Nat) = 1 then 0 else c.val; rw [if_neg (by decide)])

/-- The reference's bias and rectifier is the entrywise map max (a(r, c) + b(c)) 0, the bias read through its
    one-row cast. -/
theorem relu_bias (a : (⟨Cert.ReferenceIdeal.S50000x128, .f32⟩ : BufTy).Contents (Elt Ideal)) (b : (⟨Cert.ReferenceIdeal.S128, .f32⟩ : BufTy).Contents (Elt Ideal)) :
    reluHost (addBias128 a b) = Cert.Hand.biasRelu (M := 50000) (N := 128) a (Cert.Hand.biasRow128 (F := Ideal) b) := by
  funext i
  obtain ⟨r, c, rfl⟩ : ∃ (r : Fin 50000) (c : Fin 128), i = ix2 r c := ⟨i 0, i 1, eq_ix2 i⟩
  unfold reluHost addBias128
  rw [maximumf_apply, addf_apply, zero_splat128_apply, bias128_apply]
  unfold Cert.Hand.biasRelu Cert.Hand.biasRow128
  refine congrArg (fun z => max (a (ix2 r c) + z) (Ideal.ofBits .f32 0x00000000#32)) ?_
  exact (shapeCast_a_1a_apply b _ (0 : Fin 1) c).symm

/-- The bias vector (width 40) made one row and repeated down the rows reads, at (r, c), its entry c. -/
theorem bias40_apply (b : (⟨S40, .f32⟩ : BufTy).Contents (Elt Ideal)) (r : Fin 50000) (c : Fin 40) :
    broadcastInDim S50000x40 ![0, 1] bcast_S1x40_S50000x40_0_1 (broadcastInDim S1x40 ![1] bcast_S40_S1x40_1 b) (ix2 r c)
      = b (ix1 c) := by
  refine (broadcastInDim_apply _ bcast_S1x40_S50000x40_0_1 _ (ix2 r c) (ix2 (0 : Fin 1) c) (fun a => match a with
    | ⟨0, _⟩ => by show 0 = if (1 : Nat) = 1 then 0 else r.val; rw [if_pos rfl]
    | ⟨1, _⟩ => by show c.val = if (40 : Nat) = 1 then 0 else c.val; rw [if_neg (by decide)])).trans ?_
  exact broadcastInDim_apply _ bcast_S40_S1x40_1 b (ix2 (0 : Fin 1) c) (ix1 c) (fun a => match a with
    | ⟨0, _⟩ => by show c.val = if (40 : Nat) = 1 then 0 else c.val; rw [if_neg (by decide)])

/-- The biased array of the reference at (r, c) is entry c of row r with the bias row added. -/
theorem addBias40_apply (a : (⟨S50000x40, .f32⟩ : BufTy).Contents (Elt Ideal)) (b : (⟨S40, .f32⟩ : BufTy).Contents (Elt Ideal))
    (r : Fin 50000) (c : Fin 40) :
    addBias40 a b (ix2 r c) = Cert.Hand.biased (M := 50000) (N := 40) a (Cert.Hand.biasRow40 (F := Ideal) b) r c := by
  unfold addBias40 Cert.Hand.biased Cert.Hand.biasRow40
  rw [addf_apply, bias40_apply]
  exact congrArg (a (ix2 r c) + ·) (shapeCast_a_1a_apply b _ (0 : Fin 1) c).symm

/-- The row index r with column k put back is (r, k). -/
theorem lift_row (h : S50000x40.Reduces [1] S50000) (r : Fin 50000) (k : Fin (S50000x40.size 1)) :
    h.lift (ix1 r) k = ix2 r (⟨k.val, k.isLt⟩ : Fin 40) := by
  funext c; apply Fin.ext
  fin_cases c <;> rfl

/-- A per-row value made a column and repeated along the row reads, at (r, c), the column at (r, 0). -/
theorem keep1_apply {α : Type} (y : S50000x1.Idx → α) (r : Fin 50000) (c : Fin 40) :
    broadcastInDim S50000x40 ![0, 1] bcast_S50000x1_S50000x40_0_1 y (ix2 r c) = y (ix2 r (0 : Fin 1)) :=
  broadcastInDim_apply _ bcast_S50000x1_S50000x40_0_1 y (ix2 r c) (ix2 r (0 : Fin 1)) (fun a => match a with
    | ⟨0, _⟩ => by show r.val = if (50000 : Nat) = 1 then 0 else r.val; rw [if_neg (by decide)]
    | ⟨1, _⟩ => by show 0 = if (1 : Nat) = 1 then 0 else c.val; rw [if_pos rfl])

/-- A per-row value made a column reads, at (r, 0), the value of row r. -/
theorem keep0_apply {α : Type} (v : S50000.Idx → α) (r : Fin 50000) :
    broadcastInDim S50000x1 ![0] bcast_S50000_S50000x1_0 v (ix2 r (0 : Fin 1)) = v (ix1 r) :=
  broadcastInDim_apply _ bcast_S50000_S50000x1_0 v (ix2 r (0 : Fin 1)) (ix1 r) (fun a => match a with
    | ⟨0, _⟩ => by show r.val = if (50000 : Nat) = 1 then 0 else r.val; rw [if_neg (by decide)])

/-- The minus-infinity scalar repeated over the rows reads that word everywhere. -/
theorem neg_inf_splat_apply (i : S50000.Idx) :
    broadcastInDim S50000 ![] bcast_S_S50000 (constant (F := Ideal) S_ .f32 0xFF800000#32) i
      = Ideal.ofBits .f32 0xFF800000#32 :=
  (broadcastInDim_apply _ bcast_S_S50000 _ i (fun a => a.elim0) (fun a => a.elim0)).trans rfl

/-- The host's max-reduce along a row from the minus-infinity word is the fold of max over the row from that word. -/
theorem hostRowMax_apply (z : FVec Ideal S50000x40 .f32) (r : Fin 50000) :
    Host.reduce FloatOps.maximumf z (constant (F := Ideal) S_ .f32 0xFF800000#32) reducesTo_S50000x40_S50000_d1 h_S_ (ix1 r)
      = Cert.Hand.rowSup (fun j : Fin 40 => z (ix2 r j)) := by
  have h : S50000x40.Reduces [1] S50000 := by decide
  refine (Host.reduce_eq_fold_single (FloatOps.maximumf (F := Ideal) (φ := .f32)) z _ reducesTo_S50000x40_S50000_d1 h h_S_ (ix1 r)).trans ?_
  have hf : (z ∘ h.lift (ix1 r)) = fun k : Fin 40 => z (ix2 r k) := funext fun k => congrArg z (lift_row h r k)
  unfold Cert.Hand.rowSup
  exact congrArg (fun f => Finset.fold max (Ideal.ofBits .f32 0xFF800000#32) f (Finset.univ : Finset (Fin 40))) hf

/-- The larger of the starting word and the fold from it is the fold: a fold of max is at least its start. -/
theorem rowMaxHost_apply (z : (⟨S50000x40, .f32⟩ : BufTy).Contents (Elt Ideal)) (r : Fin 50000) :
    rowMaxHost z (ix1 r) = Cert.Hand.rowSup (fun j : Fin 40 => z (ix2 r j)) := by
  unfold rowMaxHost
  rw [maximumf_apply, neg_inf_splat_apply, hostRowMax_apply]
  refine max_eq_right ?_
  unfold Cert.Hand.rowSup
  exact (Finset.le_fold_max _).mpr (Or.inl le_rfl)

/-- Entry (r, c) of the shifted array: the entry less its row's largest. -/
theorem shiftHost_apply (z : (⟨S50000x40, .f32⟩ : BufTy).Contents (Elt Ideal)) (r : Fin 50000) (c : Fin 40) :
    shiftHost z (ix2 r c) = z (ix2 r c) - Cert.Hand.rowSup (fun j : Fin 40 => z (ix2 r j)) := by
  unfold shiftHost
  rw [subf_apply, keep1_apply, keep0_apply, rowMaxHost_apply]

/-- The host's sum along a row from the zero word is the sum over the row. -/
theorem hostRowSum_apply (y : (⟨S50000x40, .f32⟩ : BufTy).Contents (Elt Ideal)) (r : Fin 50000) :
    Host.reduceAdd y (constant (F := Ideal) S_ .f32 0x00000000#32) reducesTo_S50000x40_S50000_d1 h_S_ (ix1 r)
      = ∑ j : Fin 40, y (ix2 r j) := by
  have h : S50000x40.Reduces [1] S50000 := by decide
  simp only [Host.reduceAdd, Ideal.hostReduceAdd_def]
  rw [Ideal.hostReduceAdd_single reducesTo_S50000x40_S50000_d1 h]
  rw [show (constant (F := Ideal) S_ .f32 0x00000000#32) (Shape.Idx.first h_S_) = 0 from Ideal.ofBits_zero_f32, zero_add]
  exact Finset.sum_congr rfl fun k _ => congrArg y (lift_row h r k)

/-- Entry (r, c) of the reference's log-softmax of an array z. -/
theorem logSoftmaxHost_apply (z : (⟨S50000x40, .f32⟩ : BufTy).Contents (Elt Ideal)) (r : Fin 50000) (c : Fin 40) :
    logSoftmaxHost z (ix2 r c)
      = (z (ix2 r c) - Cert.Hand.rowSup (fun j : Fin 40 => z (ix2 r j)))
        - Ideal.log (∑ j : Fin 40, Ideal.exp (z (ix2 r j) - Cert.Hand.rowSup (fun j : Fin 40 => z (ix2 r j)))) := by
  unfold logSoftmaxHost
  rw [subf_apply, shiftHost_apply, keep1_apply]
  refine congrArg (fun t => (z (ix2 r c) - Cert.Hand.rowSup (fun j : Fin 40 => z (ix2 r j))) - t) ?_
  show FloatOps.hostUnary .log ((broadcastInDim S50000x1 ![0] bcast_S50000_S50000x1_0
    (Host.reduceAdd (Host.exp (shiftHost z)) (constant S_ .f32 0x00000000#32) reducesTo_S50000x40_S50000_d1 h_S_)) (ix2 r (0 : Fin 1))) = _
  rw [Ideal.hostUnary_log_def, keep0_apply, hostRowSum_apply]
  refine congrArg Ideal.log (Finset.sum_congr rfl fun j _ => ?_)
  show FloatOps.hostUnary .exp (shiftHost z (ix2 r j)) = _
  rw [Ideal.hostUnary_exp_def, shiftHost_apply]

/-- The reference's bias and row-wise log-softmax is the entrywise map of the specification, the bias read
    through its one-row cast. -/
theorem log_softmax_bias (a : (⟨Cert.ReferenceIdeal.S50000x40, .f32⟩ : BufTy).Contents (Elt Ideal)) (b : (⟨Cert.ReferenceIdeal.S40, .f32⟩ : BufTy).Contents (Elt Ideal)) :
    logSoftmaxHost (addBias40 a b) = Cert.Hand.biasLogSoftmax (M := 50000) (N := 40) a (Cert.Hand.biasRow40 (F := Ideal) b) := by
  funext i
  obtain ⟨r, c, rfl⟩ : ∃ (r : Fin 50000) (c : Fin 40), i = ix2 r c := ⟨i 0, i 1, eq_ix2 i⟩
  rw [logSoftmaxHost_apply]
  simp only [addBias40_apply]
  rfl

end Cert.ReferenceIdeal.Hand

end
-- ==== Proof.RChain.lean ====
/-
  The reference program, stretch by stretch: the index lists, the selected inverse square roots and the edge weights are
  computed once from the edge list and no later operation writes them, nor any argument array, so each is read back
  through the later stretches unchanged. A layer's dense transform on the host is the sum the specification states, its
  bias and activation the specification's, so after the last stretch the result buffer holds the network's function of
  the arguments.
-/
import proofs.«165259_j3453153706770_1_alg».proof.Proof.RHost
import proofs.«165259_j3453153706770_1_alg».proof.Proof.RHostLS
import proofs.«165259_j3453153706770_1_alg».proof.Proof.Net
import proofs.«165259_j3453153706770_1_alg».proof.Proof.RefDense
import proofs.«165259_j3453153706770_1_alg».proof.Proof.RefAct

set_option maxRecDepth 16384

noncomputable section

namespace Cert.ReferenceIdeal.Hand

open Cert.ReferenceIdeal Cert.ReferenceIdeal.Gen Cert.Hand
open Idealize.ShloMosaic Idealize.ShloMosaic.TcCoe Idealize.SL.Sem Idealize.ShloMosaic.StableHlo

variable (m : (ℓ : Loc nD τ sig) → Buf (Elt Ideal) ℓ) (c : Dev nD)

/-- The buffers' contents at launch and after each stretch. -/
abbrev S0 : Valuation τ sig (Elt Ideal) := launchContents m c
abbrev S1 : Valuation τ sig (Elt Ideal) := after opsIdx (S0 m c)
abbrev S2 : Valuation τ sig (Elt Ideal) := after opsSel (S1 m c)
abbrev S3 : Valuation τ sig (Elt Ideal) := after opsW (S2 m c)
abbrev S4 : Valuation τ sig (Elt Ideal) := after opsL1 (S3 m c)
abbrev S5 : Valuation τ sig (Elt Ideal) := after opsL2 (S4 m c)
abbrev S6 : Valuation τ sig (Elt Ideal) := after opsL3 (S5 m c)
abbrev S7 : Valuation τ sig (Elt Ideal) := after opsLS (S6 m c)

/-! ## Buffers no later stretch writes, read back -/

theorem rows_at2 : S2 m c (Proc.devRef .tc main_v3) = S1 m c (Proc.devRef .tc main_v3) :=
  calc S2 m c (Proc.devRef .tc main_v3)
    _ = S1 m c (Proc.devRef .tc main_v3) := StableHlo.after_of_forall_not_mem (b := Proc.devRef .tc main_v3) _ _ (List.forall_iff_forall_mem.mp (by
          simp only [opsSel, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem cols_at2 : S2 m c (Proc.devRef .tc main_v6) = S1 m c (Proc.devRef .tc main_v6) :=
  calc S2 m c (Proc.devRef .tc main_v6)
    _ = S1 m c (Proc.devRef .tc main_v6) := StableHlo.after_of_forall_not_mem (b := Proc.devRef .tc main_v6) _ _ (List.forall_iff_forall_mem.mp (by
          simp only [opsSel, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem rows_at3 : S3 m c (Proc.devRef .tc main_v3) = S1 m c (Proc.devRef .tc main_v3) :=
  calc S3 m c (Proc.devRef .tc main_v3)
    _ = S2 m c (Proc.devRef .tc main_v3) := StableHlo.after_of_forall_not_mem (b := Proc.devRef .tc main_v3) _ _ (List.forall_iff_forall_mem.mp (by
          simp only [opsW, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = S1 m c (Proc.devRef .tc main_v3) := StableHlo.after_of_forall_not_mem (b := Proc.devRef .tc main_v3) _ _ (List.forall_iff_forall_mem.mp (by
          simp only [opsSel, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem cols_at3 : S3 m c (Proc.devRef .tc main_v6) = S1 m c (Proc.devRef .tc main_v6) :=
  calc S3 m c (Proc.devRef .tc main_v6)
    _ = S2 m c (Proc.devRef .tc main_v6) := StableHlo.after_of_forall_not_mem (b := Proc.devRef .tc main_v6) _ _ (List.forall_iff_forall_mem.mp (by
          simp only [opsW, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = S1 m c (Proc.devRef .tc main_v6) := StableHlo.after_of_forall_not_mem (b := Proc.devRef .tc main_v6) _ _ (List.forall_iff_forall_mem.mp (by
          simp only [opsSel, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem rows_at4 : S4 m c (Proc.devRef .tc main_v3) = S1 m c (Proc.devRef .tc main_v3) :=
  calc S4 m c (Proc.devRef .tc main_v3)
    _ = S3 m c (Proc.devRef .tc main_v3) := StableHlo.after_of_forall_not_mem (b := Proc.devRef .tc main_v3) _ _ (List.forall_iff_forall_mem.mp (by
          simp only [opsL1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = S2 m c (Proc.devRef .tc main_v3) := StableHlo.after_of_forall_not_mem (b := Proc.devRef .tc main_v3) _ _ (List.forall_iff_forall_mem.mp (by
          simp only [opsW, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = S1 m c (Proc.devRef .tc main_v3) := StableHlo.after_of_forall_not_mem (b := Proc.devRef .tc main_v3) _ _ (List.forall_iff_forall_mem.mp (by
          simp only [opsSel, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem cols_at4 : S4 m c (Proc.devRef .tc main_v6) = S1 m c (Proc.devRef .tc main_v6) :=
  calc S4 m c (Proc.devRef .tc main_v6)
    _ = S3 m c (Proc.devRef .tc main_v6) := StableHlo.after_of_forall_not_mem (b := Proc.devRef .tc main_v6) _ _ (List.forall_iff_forall_mem.mp (by
          simp only [opsL1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = S2 m c (Proc.devRef .tc main_v6) := StableHlo.after_of_forall_not_mem (b := Proc.devRef .tc main_v6) _ _ (List.forall_iff_forall_mem.mp (by
          simp only [opsW, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = S1 m c (Proc.devRef .tc main_v6) := StableHlo.after_of_forall_not_mem (b := Proc.devRef .tc main_v6) _ _ (List.forall_iff_forall_mem.mp (by
          simp only [opsSel, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem rows_at5 : S5 m c (Proc.devRef .tc main_v3) = S1 m c (Proc.devRef .tc main_v3) :=
  calc S5 m c (Proc.devRef .tc main_v3)
    _ = S4 m c (Proc.devRef .tc main_v3) := StableHlo.after_of_forall_not_mem (b := Proc.devRef .tc main_v3) _ _ (List.forall_iff_forall_mem.mp (by
          simp only [opsL2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = S3 m c (Proc.devRef .tc main_v3) := StableHlo.after_of_forall_not_mem (b := Proc.devRef .tc main_v3) _ _ (List.forall_iff_forall_mem.mp (by
          simp only [opsL1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = S2 m c (Proc.devRef .tc main_v3) := StableHlo.after_of_forall_not_mem (b := Proc.devRef .tc main_v3) _ _ (List.forall_iff_forall_mem.mp (by
          simp only [opsW, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = S1 m c (Proc.devRef .tc main_v3) := StableHlo.after_of_forall_not_mem (b := Proc.devRef .tc main_v3) _ _ (List.forall_iff_forall_mem.mp (by
          simp only [opsSel, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem cols_at5 : S5 m c (Proc.devRef .tc main_v6) = S1 m c (Proc.devRef .tc main_v6) :=
  calc S5 m c (Proc.devRef .tc main_v6)
    _ = S4 m c (Proc.devRef .tc main_v6) := StableHlo.after_of_forall_not_mem (b := Proc.devRef .tc main_v6) _ _ (List.forall_iff_forall_mem.mp (by
          simp only [opsL2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = S3 m c (Proc.devRef .tc main_v6) := StableHlo.after_of_forall_not_mem (b := Proc.devRef .tc main_v6) _ _ (List.forall_iff_forall_mem.mp (by
          simp only [opsL1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = S2 m c (Proc.devRef .tc main_v6) := StableHlo.after_of_forall_not_mem (b := Proc.devRef .tc main_v6) _ _ (List.forall_iff_forall_mem.mp (by
          simp only [opsW, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = S1 m c (Proc.devRef .tc main_v6) := StableHlo.after_of_forall_not_mem (b := Proc.devRef .tc main_v6) _ _ (List.forall_iff_forall_mem.mp (by
          simp only [opsSel, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem wts_at4 : S4 m c (Proc.devRef .tc main_v31) = S3 m c (Proc.devRef .tc main_v31) :=
  calc S4 m c (Proc.devRef .tc main_v31)
    _ = S3 m c (Proc.devRef .tc main_v31) := StableHlo.after_of_forall_not_mem (b := Proc.devRef .tc main_v31) _ _ (List.forall_iff_forall_mem.mp (by
          simp only [opsL1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem wts_at5 : S5 m c (Proc.devRef .tc main_v31) = S3 m c (Proc.devRef .tc main_v31) :=
  calc S5 m c (Proc.devRef .tc main_v31)
    _ = S4 m c (Proc.devRef .tc main_v31) := StableHlo.after_of_forall_not_mem (b := Proc.devRef .tc main_v31) _ _ (List.forall_iff_forall_mem.mp (by
          simp only [opsL2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = S3 m c (Proc.devRef .tc main_v31) := StableHlo.after_of_forall_not_mem (b := Proc.devRef .tc main_v31) _ _ (List.forall_iff_forall_mem.mp (by
          simp only [opsL1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem x_at3 : S3 m c (Proc.devRef .tc main_arg0) = m ((c.tc : Thread nD τ).loc main_arg0) :=
  calc S3 m c (Proc.devRef .tc main_arg0)
    _ = S2 m c (Proc.devRef .tc main_arg0) := StableHlo.after_of_forall_not_mem (b := Proc.devRef .tc main_arg0) _ _ (List.forall_iff_forall_mem.mp (by
          simp only [opsW, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = S1 m c (Proc.devRef .tc main_arg0) := StableHlo.after_of_forall_not_mem (b := Proc.devRef .tc main_arg0) _ _ (List.forall_iff_forall_mem.mp (by
          simp only [opsSel, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = S0 m c (Proc.devRef .tc main_arg0) := StableHlo.after_of_forall_not_mem (b := Proc.devRef .tc main_arg0) _ _ (List.forall_iff_forall_mem.mp (by
          simp only [opsIdx, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c.tc : Thread nD τ).loc main_arg0) := rfl

theorem w1_at3 : S3 m c (Proc.devRef .tc main_arg2) = m ((c.tc : Thread nD τ).loc main_arg2) :=
  calc S3 m c (Proc.devRef .tc main_arg2)
    _ = S2 m c (Proc.devRef .tc main_arg2) := StableHlo.after_of_forall_not_mem (b := Proc.devRef .tc main_arg2) _ _ (List.forall_iff_forall_mem.mp (by
          simp only [opsW, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = S1 m c (Proc.devRef .tc main_arg2) := StableHlo.after_of_forall_not_mem (b := Proc.devRef .tc main_arg2) _ _ (List.forall_iff_forall_mem.mp (by
          simp only [opsSel, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = S0 m c (Proc.devRef .tc main_arg2) := StableHlo.after_of_forall_not_mem (b := Proc.devRef .tc main_arg2) _ _ (List.forall_iff_forall_mem.mp (by
          simp only [opsIdx, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c.tc : Thread nD τ).loc main_arg2) := rfl

theorem b1_at3 : S3 m c (Proc.devRef .tc main_arg3) = m ((c.tc : Thread nD τ).loc main_arg3) :=
  calc S3 m c (Proc.devRef .tc main_arg3)
    _ = S2 m c (Proc.devRef .tc main_arg3) := StableHlo.after_of_forall_not_mem (b := Proc.devRef .tc main_arg3) _ _ (List.forall_iff_forall_mem.mp (by
          simp only [opsW, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = S1 m c (Proc.devRef .tc main_arg3) := StableHlo.after_of_forall_not_mem (b := Proc.devRef .tc main_arg3) _ _ (List.forall_iff_forall_mem.mp (by
          simp only [opsSel, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = S0 m c (Proc.devRef .tc main_arg3) := StableHlo.after_of_forall_not_mem (b := Proc.devRef .tc main_arg3) _ _ (List.forall_iff_forall_mem.mp (by
          simp only [opsIdx, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c.tc : Thread nD τ).loc main_arg3) := rfl

theorem w2_at4 : S4 m c (Proc.devRef .tc main_arg4) = m ((c.tc : Thread nD τ).loc main_arg4) :=
  calc S4 m c (Proc.devRef .tc main_arg4)
    _ = S3 m c (Proc.devRef .tc main_arg4) := StableHlo.after_of_forall_not_mem (b := Proc.devRef .tc main_arg4) _ _ (List.forall_iff_forall_mem.mp (by
          simp only [opsL1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = S2 m c (Proc.devRef .tc main_arg4) := StableHlo.after_of_forall_not_mem (b := Proc.devRef .tc main_arg4) _ _ (List.forall_iff_forall_mem.mp (by
          simp only [opsW, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = S1 m c (Proc.devRef .tc main_arg4) := StableHlo.after_of_forall_not_mem (b := Proc.devRef .tc main_arg4) _ _ (List.forall_iff_forall_mem.mp (by
          simp only [opsSel, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = S0 m c (Proc.devRef .tc main_arg4) := StableHlo.after_of_forall_not_mem (b := Proc.devRef .tc main_arg4) _ _ (List.forall_iff_forall_mem.mp (by
          simp only [opsIdx, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c.tc : Thread nD τ).loc main_arg4) := rfl

theorem b2_at4 : S4 m c (Proc.devRef .tc main_arg5) = m ((c.tc : Thread nD τ).loc main_arg5) :=
  calc S4 m c (Proc.devRef .tc main_arg5)
    _ = S3 m c (Proc.devRef .tc main_arg5) := StableHlo.after_of_forall_not_mem (b := Proc.devRef .tc main_arg5) _ _ (List.forall_iff_forall_mem.mp (by
          simp only [opsL1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = S2 m c (Proc.devRef .tc main_arg5) := StableHlo.after_of_forall_not_mem (b := Proc.devRef .tc main_arg5) _ _ (List.forall_iff_forall_mem.mp (by
          simp only [opsW, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = S1 m c (Proc.devRef .tc main_arg5) := StableHlo.after_of_forall_not_mem (b := Proc.devRef .tc main_arg5) _ _ (List.forall_iff_forall_mem.mp (by
          simp only [opsSel, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = S0 m c (Proc.devRef .tc main_arg5) := StableHlo.after_of_forall_not_mem (b := Proc.devRef .tc main_arg5) _ _ (List.forall_iff_forall_mem.mp (by
          simp only [opsIdx, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c.tc : Thread nD τ).loc main_arg5) := rfl

theorem w3_at5 : S5 m c (Proc.devRef .tc main_arg6) = m ((c.tc : Thread nD τ).loc main_arg6) :=
  calc S5 m c (Proc.devRef .tc main_arg6)
    _ = S4 m c (Proc.devRef .tc main_arg6) := StableHlo.after_of_forall_not_mem (b := Proc.devRef .tc main_arg6) _ _ (List.forall_iff_forall_mem.mp (by
          simp only [opsL2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = S3 m c (Proc.devRef .tc main_arg6) := StableHlo.after_of_forall_not_mem (b := Proc.devRef .tc main_arg6) _ _ (List.forall_iff_forall_mem.mp (by
          simp only [opsL1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = S2 m c (Proc.devRef .tc main_arg6) := StableHlo.after_of_forall_not_mem (b := Proc.devRef .tc main_arg6) _ _ (List.forall_iff_forall_mem.mp (by
          simp only [opsW, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = S1 m c (Proc.devRef .tc main_arg6) := StableHlo.after_of_forall_not_mem (b := Proc.devRef .tc main_arg6) _ _ (List.forall_iff_forall_mem.mp (by
          simp only [opsSel, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = S0 m c (Proc.devRef .tc main_arg6) := StableHlo.after_of_forall_not_mem (b := Proc.devRef .tc main_arg6) _ _ (List.forall_iff_forall_mem.mp (by
          simp only [opsIdx, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c.tc : Thread nD τ).loc main_arg6) := rfl

theorem b3_at5 : S5 m c (Proc.devRef .tc main_arg7) = m ((c.tc : Thread nD τ).loc main_arg7) :=
  calc S5 m c (Proc.devRef .tc main_arg7)
    _ = S4 m c (Proc.devRef .tc main_arg7) := StableHlo.after_of_forall_not_mem (b := Proc.devRef .tc main_arg7) _ _ (List.forall_iff_forall_mem.mp (by
          simp only [opsL2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = S3 m c (Proc.devRef .tc main_arg7) := StableHlo.after_of_forall_not_mem (b := Proc.devRef .tc main_arg7) _ _ (List.forall_iff_forall_mem.mp (by
          simp only [opsL1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = S2 m c (Proc.devRef .tc main_arg7) := StableHlo.after_of_forall_not_mem (b := Proc.devRef .tc main_arg7) _ _ (List.forall_iff_forall_mem.mp (by
          simp only [opsW, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = S1 m c (Proc.devRef .tc main_arg7) := StableHlo.after_of_forall_not_mem (b := Proc.devRef .tc main_arg7) _ _ (List.forall_iff_forall_mem.mp (by
          simp only [opsSel, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = S0 m c (Proc.devRef .tc main_arg7) := StableHlo.after_of_forall_not_mem (b := Proc.devRef .tc main_arg7) _ _ (List.forall_iff_forall_mem.mp (by
          simp only [opsIdx, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c.tc : Thread nD τ).loc main_arg7) := rfl

/-! ## The chain -/

theorem rows_at1 : S1 m c (Proc.devRef .tc main_v3) = rowIx (F := Ideal) (m ((c.tc : Thread nD τ).loc main_arg1)) := idx_rows (S0 m c)
theorem cols_at1 : S1 m c (Proc.devRef .tc main_v6) = colIx (F := Ideal) (m ((c.tc : Thread nD τ).loc main_arg1)) := idx_cols (S0 m c)

theorem scale_at2 : S2 m c (Proc.devRef .tc main_v16) = nodeScale (m ((c.tc : Thread nD τ).loc main_arg1)) := by
  refine (sel_val (S1 m c)).trans ?_
  show selOr (after opsIdx (S0 m c) (Proc.devRef .tc main_v12)) (after opsIdx (S0 m c) (Proc.devRef .tc main_v15)) (after opsIdx (S0 m c) (Proc.devRef .tc main_cst_3)) = _
  rw [idx_pos, idx_inv, idx_zero]; rfl

theorem wts_at3 : S3 m c (Proc.devRef .tc main_v31) = weightsOf (m ((c.tc : Thread nD τ).loc main_arg1)) := by
  refine (weights (S2 m c)).trans ?_
  rw [rows_at2 m c, cols_at2 m c, scale_at2 m c, rows_at1 m c, cols_at1 m c]; rfl

/-- After the first layer's stretch: the first layer's activations. -/
theorem act1 : S4 m c (Proc.devRef .tc main_v49) = layer1 (m ((c.tc : Thread nD τ).loc main_arg0)) (m ((c.tc : Thread nD τ).loc main_arg1)) (m ((c.tc : Thread nD τ).loc main_arg2)) (m ((c.tc : Thread nD τ).loc main_arg3)) := by
  refine (layer1_val (S3 m c)).trans ?_
  rw [rows_at3 m c, cols_at3 m c, wts_at3 m c, rows_at1 m c, cols_at1 m c, x_at3 m c, w1_at3 m c, b1_at3 m c, dense1_eq, relu_bias]; rfl

/-- After the second layer's stretch: the second layer's activations. -/
theorem act2 : S5 m c (Proc.devRef .tc main_v67) = layer2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  refine (layer2_val (S4 m c)).trans ?_
  rw [rows_at4 m c, cols_at4 m c, wts_at4 m c, wts_at3 m c, rows_at1 m c, cols_at1 m c, act1 m c, w2_at4 m c, b2_at4 m c, dense2_eq, relu_bias]; rfl

/-- After the third layer's stretch: the biased third aggregation. -/
theorem pre3 : S6 m c (Proc.devRef .tc main_v84)
    = addBias40 (agg40 (rowIx (F := Ideal) (m ((c.tc : Thread nD τ).loc main_arg1))) (colIx (F := Ideal) (m ((c.tc : Thread nD τ).loc main_arg1))) (weightsOf (m ((c.tc : Thread nD τ).loc main_arg1)))
        (dense (M := 50000) (K := 128) (N := 40) (layer2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))) (m ((c.tc : Thread nD τ).loc main_arg6)))) (m ((c.tc : Thread nD τ).loc main_arg7)) := by
  refine (layer3_val (S5 m c)).trans ?_
  rw [rows_at5 m c, cols_at5 m c, wts_at5 m c, wts_at3 m c, rows_at1 m c, cols_at1 m c, act2 m c, w3_at5 m c, b3_at5 m c, dense3_eq]

/-- After the last stretch: the network's result. -/
theorem out7 : S7 m c (Proc.devRef .tc main_v85) = net (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  refine (log_softmax_val (S6 m c)).trans ?_
  rw [pre3 m c, log_softmax_bias]; rfl

/-- The fold over the whole program at the result buffer is the network's function of the launch contents. -/
theorem result (m : (ℓ : Loc nD τ sig) → Buf (Elt Ideal) ℓ) (c : Dev nD) :
    after ops (launchContents m c) (Proc.devRef .tc main_v85) = net (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  rw [after_ops]; exact out7 m c

end Cert.ReferenceIdeal.Hand

end
-- ==== Proof.lean ====
/-
  The five claims. The two kernel programs' frames are the run of @main's segments; the reference's frame is its run with
  the result dropped, no operation writing an argument. The idealization rewrote nothing, so it preserves trivially. For
  the algebraic claim both programs, from memories agreeing on the arguments, end with the result array at one function
  of the arguments: the three-layer network on the extended reals — each dense transform the sum over the contracted
  coordinate, the aggregation over the graph the same host operations in both programs, each bias and activation the
  same entry-wise formula. No law of arithmetic is used beyond reading each operation at an index, so the precondition
  is never opened.
-/
import proofs.«165259_j3453153706770_1_alg».proof.Defs
import proofs.«165259_j3453153706770_1_alg».proof.Proof.Gen.Kernel
import proofs.«165259_j3453153706770_1_alg».proof.Proof.Gen.Kernel.Frame
import proofs.«165259_j3453153706770_1_alg».proof.Proof.Gen.KernelIdeal
import proofs.«165259_j3453153706770_1_alg».proof.Proof.Gen.KernelIdeal.Frame
import proofs.«165259_j3453153706770_1_alg».proof.Proof.Gen.ReferenceIdeal
import proofs.«165259_j3453153706770_1_alg».proof.Proof.Gen.Pre_finite_inputs
import proofs.«165259_j3453153706770_1_alg».proof.Proof.KRun
import proofs.«165259_j3453153706770_1_alg».proof.Proof.KChain
import proofs.«165259_j3453153706770_1_alg».proof.Proof.RefKeep
import proofs.«165259_j3453153706770_1_alg».proof.Proof.RChain
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference's run with everything but the arguments dropped. -/
theorem frame_reference : Cert.frame_ReferenceIdeal := fun m ρ _ =>
  (θ_run Cert.ReferenceIdeal.defs _ _).mono (fun _ h c =>
    ⟨(h c Cert.ReferenceIdeal.main_arg0).trans (Cert.ReferenceIdeal.Hand.kept_arg0 m c), (h c Cert.ReferenceIdeal.main_arg1).trans (Cert.ReferenceIdeal.Hand.kept_arg1 m c),
     (h c Cert.ReferenceIdeal.main_arg2).trans (Cert.ReferenceIdeal.Hand.kept_arg2 m c), (h c Cert.ReferenceIdeal.main_arg3).trans (Cert.ReferenceIdeal.Hand.kept_arg3 m c),
     (h c Cert.ReferenceIdeal.main_arg4).trans (Cert.ReferenceIdeal.Hand.kept_arg4 m c), (h c Cert.ReferenceIdeal.main_arg5).trans (Cert.ReferenceIdeal.Hand.kept_arg5 m c),
     (h c Cert.ReferenceIdeal.main_arg6).trans (Cert.ReferenceIdeal.Hand.kept_arg6 m c), (h c Cert.ReferenceIdeal.main_arg7).trans (Cert.ReferenceIdeal.Hand.kept_arg7 m c)⟩)
    (Cert.ReferenceIdeal.Hand.run (F := Ideal) m ρ)

theorem preserves : Cert.preserves_Kernel_KernelIdeal := trivial

/-- Both runs end with the result array at the network's function of the (agreeing) arguments. -/
theorem algebraic : Cert.algebraic_KernelIdeal_ReferenceIdeal := by
  intro m ρ m' ρ' _ hagree
  refine ⟨fun c => Cert.Hand.net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.Hand.result_at12 m ρ c), (h c).2⟩)
      (Cert.KernelIdeal.Hand.run_value (F := Ideal) m ρ)
  · refine (θ_run Cert.ReferenceIdeal.defs _ _).mono (fun r h c => ?_) (Cert.ReferenceIdeal.Hand.run (F := Ideal) m' ρ')
    refine ⟨(h c Cert.ReferenceIdeal.main_v85).trans ((Cert.ReferenceIdeal.Hand.result m' c).trans ?_),
      (h c Cert.ReferenceIdeal.main_arg0).trans (Cert.ReferenceIdeal.Hand.kept_arg0 m' c), (h c Cert.ReferenceIdeal.main_arg1).trans (Cert.ReferenceIdeal.Hand.kept_arg1 m' c),
      (h c Cert.ReferenceIdeal.main_arg2).trans (Cert.ReferenceIdeal.Hand.kept_arg2 m' c), (h c Cert.ReferenceIdeal.main_arg3).trans (Cert.ReferenceIdeal.Hand.kept_arg3 m' c),
      (h c Cert.ReferenceIdeal.main_arg4).trans (Cert.ReferenceIdeal.Hand.kept_arg4 m' c), (h c Cert.ReferenceIdeal.main_arg5).trans (Cert.ReferenceIdeal.Hand.kept_arg5 m' c),
      (h c Cert.ReferenceIdeal.main_arg6).trans (Cert.ReferenceIdeal.Hand.kept_arg6 m' c), (h c Cert.ReferenceIdeal.main_arg7).trans (Cert.ReferenceIdeal.Hand.kept_arg7 m' c)⟩
    obtain ⟨e0, e1, e2, e3, e4, e5, e6, e7⟩ := hagree c
    rw [e0, e1, e2, e3, e4, e5, e6, e7]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
